-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128x1 : Shape := ⟨2, ![128, 1]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x1 .f32) (main_arg5 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x128 .f32) (main_arg1 : FVec F S4096x4096 .f32) (main_arg2 : FVec F S128x128 .f32) (main_arg3 : FVec F S128x1 .f32) (main_arg4 : FVec F S128x1 .f32) (main_arg5 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128x1 : Shape := ⟨2, ![128, 1]⟩
abbrev S128 : Shape := ⟨1, ![128]⟩
abbrev S128x2 : Shape := ⟨2, ![128, 2]⟩
abbrev S_ : Shape := ⟨0, ![]⟩
abbrev S1x128 : Shape := ⟨2, ![1, 128]⟩
abbrev S4096x1 : Shape := ⟨2, ![4096, 1]⟩
abbrev S1x4096 : Shape := ⟨2, ![1, 4096]⟩
abbrev S512x128 : Shape := ⟨2, ![512, 128]⟩
abbrev S256x4096 : Shape := ⟨2, ![256, 4096]⟩
abbrev S4096x256 : Shape := ⟨2, ![4096, 256]⟩
abbrev S256x1 : Shape := ⟨2, ![256, 1]⟩
abbrev S1x256 : Shape := ⟨2, ![1, 256]⟩
abbrev S256x128 : Shape := ⟨2, ![256, 128]⟩
abbrev S256 : Shape := ⟨1, ![256]⟩

abbrev nBuf : Space → Nat
  | .hbm => 18
  | .vmem => 22
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128x1, .f32⟩
  | .hbm, ⟨4, _⟩ => ⟨S128x1, .f32⟩
  | .hbm, ⟨5, _⟩ => ⟨S128, .f32⟩
  | .hbm, ⟨6, _⟩ => ⟨S128x2, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S1x128, .f32⟩
  | .hbm, ⟨11, _⟩ => ⟨S4096x128, .f32⟩
  | .hbm, ⟨12, _⟩ => ⟨S4096x128, .f32⟩
  | .hbm, ⟨13, _⟩ => ⟨S4096x1, .f32⟩
  | .hbm, ⟨14, _⟩ => ⟨S4096x1, .f32⟩
  | .hbm, ⟨15, _⟩ => ⟨S1x4096, .f32⟩
  | .hbm, ⟨16, _⟩ => ⟨S1x4096, .f32⟩
  | .hbm, ⟨17, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S256x4096, .f32⟩
  | .local _ .vmem, ⟨10, _⟩ => ⟨S256x4096, .f32⟩
  | .local _ .vmem, ⟨11, _⟩ => ⟨S4096x256, .f32⟩
  | .local _ .vmem, ⟨12, _⟩ => ⟨S4096x256, .f32⟩
  | .local _ .vmem, ⟨13, _⟩ => ⟨S256x1, .f32⟩
  | .local _ .vmem, ⟨14, _⟩ => ⟨S256x1, .f32⟩
  | .local _ .vmem, ⟨15, _⟩ => ⟨S1x256, .f32⟩
  | .local _ .vmem, ⟨16, _⟩ => ⟨S1x256, .f32⟩
  | .local _ .vmem, ⟨17, _⟩ => ⟨S1x4096, .f32⟩
  | .local _ .vmem, ⟨18, _⟩ => ⟨S4096x1, .f32⟩
  | .local _ .vmem, ⟨19, _⟩ => ⟨S4096x128, .f32⟩
  | .local _ .vmem, ⟨20, _⟩ => ⟨S256x128, .f32⟩
  | .local _ .vmem, ⟨21, _⟩ => ⟨S256x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_c : Ref sig .tc := ⟨.hbm, 7, rfl⟩
abbrev main_call0_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3_0 : Ref sig .tc := ⟨.hbm, 11, rfl⟩
abbrev main_call0_v3_1 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  concatenates_S128x1_S128x1_S128x2_d1 : Shape.Concatenates [S128x1, S128x1] S128x2 1
  pads_S128x2_S128x128_000_01260 : S128x2.Pads (![0, 0] : Fin 2 → Nat) ![0, 126] ![0, 0] S128x128
  h_S_ : 0 < S_.numel
  shapeCasts_S128_S1x128 : S128.ShapeCasts S1x128
  slices_S4096x128_S4096x1_0_0 : S4096x128.Slices ![0, 0] S4096x1
  slices_S4096x128_S4096x1_0_1 : S4096x128.Slices ![0, 1] S4096x1
  shapeCasts_S4096x1_S1x4096 : S4096x1.ShapeCasts S1x4096
  inb_S512x128_S512x128_0_0 : ∀ a, (![0, 0] : Fin 2 → Nat) a + S512x128.size a ≤ S512x128.size a
  h_S512x128 : 0 < S512x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x128 : S256x1.Broadcasts S256x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S4096x1_S4096x256 : S4096x1.Broadcasts S4096x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  reduces_S4096x256_S256 : S4096x256.Reduces [0] S256
  shapeCasts_S256_S1x256 : S256.ShapeCasts S1x256
  inb_S256x128_S256x128_0_0 : ∀ a, (![0, 0] : Fin 2 → Nat) a + S256x128.size a ≤ S256x128.size a
  h_S256x128 : 0 < S256x128.numel
  dot_S512x128_S128x128_S512x128_1_0_0_1_n_n_wf : DotDims.WF S512x128 S128x128 S512x128 [1] [0] [0] [1] [] []
  dot_S256x4096_S4096x128_S256x128_1_0_0_1_n_n_wf : DotDims.WF S256x4096 S4096x128 S256x128 [1] [0] [0] [1] [] []
  dot_S4096x256_S4096x128_S256x128_0_0_1_1_n_n_wf : DotDims.WF S4096x256 S4096x128 S256x128 [0] [0] [1] [1] [] []
  dot_S4096x256_S4096x1_S256x1_0_0_1_1_n_n_wf : DotDims.WF S4096x256 S4096x1 S256x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x4096.size a
  hwx1_1 : ∀ i : grid1.Coords, EltTy.bits .f32 = 32 ∨ (Rect.block (s := S4096x4096) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x4096.size a
  hwx1_3 : ∀ i : grid1.Coords, EltTy.bits .f32 = 32 ∨ (Rect.block (s := S1x4096) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x1.size a ≤ S4096x1.size a
  hwx1_5 : ∀ i : grid1.Coords, EltTy.bits .f32 = 32 ∨ (Rect.block (s := S4096x1) S4096x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096x128.size a ≤ S4096x128.size a
  hwx1_6 : ∀ i : grid1.Coords, EltTy.bits .f32 = 32 ∨ (Rect.block (s := S4096x128) S4096x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S4096x128.size a
  hwx1_7 : ∀ i : grid1.Coords, EltTy.bits .f32 = 32 ∨ (Rect.block (s := S4096x128) S256x128.size (cc1_transform_7 i) (hinb1_7 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S4096x256_S4096x128_S256x128_0_0_1_1_n_n : DotDims S4096x256 S4096x128 S256x128 where
  lhsContracting := [0]
  rhsContracting := [0]
  lhsNonContracting := [1]
  rhsNonContracting := [1]
  lhsBatch := []
  rhsBatch := []
  wf := dot_S4096x256_S4096x128_S256x128_0_0_1_1_n_n_wf
def dot_S4096x256_S4096x1_S256x1_0_0_1_1_n_n : DotDims S4096x256 S4096x1 S256x1 where
  lhsContracting := [0]
  rhsContracting := [0]
  lhsNonContracting := [1]
  rhsNonContracting := [1]
  lhsBatch := []
  rhsBatch := []
  wf := dot_S4096x256_S4096x1_S256x1_0_0_1_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3_0) S512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3_1) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v6) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v7) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v5) S4096x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v3_0) S4096x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S256x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S4096x1 : Shape := ⟨2, ![4096, 1]⟩
abbrev S1x4096 : Shape := ⟨2, ![1, 4096]⟩
abbrev S_ : Shape := ⟨0, ![]⟩
abbrev S4096 : Shape := ⟨1, ![4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128x1, .f32⟩
  | .hbm, ⟨4, _⟩ => ⟨S128x1, .f32⟩
  | .hbm, ⟨5, _⟩ => ⟨S128, .f32⟩
  | .hbm, ⟨6, _⟩ => ⟨S4096x128, .f32⟩
  | .hbm, ⟨7, _⟩ => ⟨S1x128, .f32⟩
  | .hbm, ⟨8, _⟩ => ⟨S4096x128, .f32⟩
  | .hbm, ⟨9, _⟩ => ⟨S4096x128, .f32⟩
  | .hbm, ⟨10, _⟩ => ⟨S4096x1, .f32⟩
  | .hbm, ⟨11, _⟩ => ⟨S4096x1, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .i1⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S4096x128, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .i1⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x4096, .f32⟩
  | .hbm, ⟨65, _⟩ => ⟨S4096x4096, .f32⟩
  | .hbm, ⟨66, _⟩ => ⟨S4096x128, .f32⟩
  | .hbm, ⟨67, _⟩ => ⟨S4096x128, .f32⟩
  | .hbm, ⟨68, _⟩ => ⟨S_, .f32⟩
  | .hbm, ⟨69, _⟩ => ⟨S4096x128, .f32⟩
  | .hbm, ⟨70, _⟩ => ⟨S4096x128, .f32⟩
  | .hbm, ⟨71, _⟩ => ⟨S_, .f32⟩
  | .hbm, ⟨72, _⟩ => ⟨S4096x128, .f32⟩
  | .hbm, ⟨73, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_call1_v0 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_call2_v0 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  transposes_S4096x4096_S4096x4096_1_0 : S4096x4096.Transposes [1, 0] S4096x4096
  bcast_S_S4096x128 : S_.BroadcastsInDim S4096x128 (![] : Fin 0 → Fin S4096x128.rank)
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KReg0.lean ====
import proofs.«153251_g30992484008437_cont_sun_m_229_4_alg».proof.Proof.Gen.Kernel.Launch
import proofs.«153251_g30992484008437_cont_sun_m_229_4_alg».proof.Proof.Gen.Kernel.Skeleton
import proofs.«153251_g30992484008437_cont_sun_m_229_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The first pipelined region of the program (the preparation kernel on a grid of eight points), at a
    PARAMETER `V`: the contents of the core's buffers when the region is entered.

    The kernel at a point reads a block of 512 rows of `x` and three whole arrays (a 128×128 matrix, a
    bias row, a second 128×128 matrix), and writes two blocks of 512 rows: the first is
    `x·W + bias` on the block, the second is that product times the second matrix. Both are closed
    functions of the four input blocks at the point, so the proof data of the pipeline is stated in closed
    form and the body's obligation is discharged once, at a generic point. -/

-- membership in a rectangle of these extents is decided structurally, one step per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the block was
    fetched at that point or not, for any proof data whose array is the entry contents and whose body leaves
    the block in place: where nothing is fetched the block index has not moved since the point before, and the
    buffer still holds the same block. Window 0 moves with the point; windows 1, 2, 3 are whole arrays, fetched
    at the first point only. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S512x128 := Rect.unit (s := S512x128) ![0, 0] S512x128.size inb_S512x128_S512x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in each output window's buffer -/

/-- The first output's buffer after the body: its one store, of the sum of the matrix product of the `x` block
    with the first matrix and the broadcast bias row. -/
def out0_4 (x0 : Vec F S512x128 .f32) (x1 : Vec F S128x128 .f32) (x2 : Vec F S1x128 .f32) : Vec F S512x128 .f32 :=
  View.canon [⟨r0_0, k0_pay1 (View.ld x0 r0_0) (View.ld x1 r0_1) (View.ld x2 r0_2)⟩]

/-- The second output's buffer after the body: its one store, of the matrix product of the first output's value
    with the second matrix. -/
def out0_5 (x0 : Vec F S512x128 .f32) (x1 : Vec F S128x128 .f32) (x2 : Vec F S1x128 .f32) (x3 : Vec F S128x128 .f32) : Vec F S512x128 .f32 :=
  View.canon [⟨r0_0, k0_pay2 (View.ld x0 r0_0) (View.ld x1 r0_1) (View.ld x2 r0_2) (View.ld x3 r0_1)⟩]

/-- A single store through the whole-buffer rectangle covers the buffer. -/
theorem cover0_4 (p0 : Vec F S512x128 .f32) (y : S512x128.Idx) :
    ∃ pc ∈ ([⟨r0_0, p0⟩] : List (View.Piece (Elt F) S512x128 .f32)), y ∈ pc.1.set :=
  View.cover_of_tiled [⟨r0_0, p0⟩] S512x128.size (by rfl) y

/-! ## The body's triple -/

set_option maxHeartbeats 1000000 in
/-- The kernel body on whole staging buffers — the four inputs' holding `x0 … x3`, the two outputs' holding
    anything — runs to a state where the inputs' are as they were and the outputs' hold `out0_4`, `out0_5` of
    the inputs. The body reads each output buffer once before it stores to it; the value read is never used, so
    the prior contents do not enter the result. -/
theorem sound_kernel0 (c : Dev nD) (E : Set ℕ) (i : grid0.Coords)
    (arg1 : Memref sig .tc .vmem S512x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S512x128 .f32) (harg5 : arg5.IsWhole) (arg6 : Memref sig .tc .vmem S512x128 .f32) (harg6 : arg6.IsWhole)
    (x0 : Vec F S512x128 .f32) (x1 : Vec F S128x128 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E (cc0__prep_kernel i arg1 harg1 arg2 harg2 arg3 harg3 arg4 harg4 arg5 harg5 arg6 harg6) K := by
  simp only [cc0__prep_kernel_eq_skeleton]; unfold cc0__prep_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-! ## The pipeline's proof data -/

/-- The proof data of this pipeline on core `c`: the arrays as the region finds them; after the body at point
    `t` each input's buffer at its block and each output's at the closed form of the input blocks; the invariant
    is the untouched rest of the core's state; nothing is owed; the shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand
-- ==== Proof.KReg1.lean ====
/- Region 1 of the kernel program (the attention kernel, the second pipeline) at a parameter `V`, the
   TensorCore's buffer contents when the region is entered: each window's block at a grid point read off its array,
   what the body's one store leaves in the output window's staging buffer as a function of the seven input blocks,
   the body's triple on whole staging memrefs, the pipeline's proof data with the shares of the windowed arrays left
   as a parameter (windows 0 and 1 stage the same array, so neither can hold it whole), and the body obligation. -/
import proofs.«153251_g30992484008437_cont_sun_m_229_4_alg».proof.Proof.Gen.Kernel.Launch
import proofs.«153251_g30992484008437_cont_sun_m_229_4_alg».proof.Proof.Gen.Kernel.Skeleton
import proofs.«153251_g30992484008437_cont_sun_m_229_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents on entry to the region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: where the window is not fetched its block index
    has not moved, so the block of the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: where the window is not fetched its block index
    has not moved, so the block of the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: where the window is not fetched its block index
    has not moved, so the block of the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: where the window is not fetched its block index
    has not moved, so the block of the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: where the window is not fetched its block index
    has not moved, so the block of the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: where the window is not fetched its block index
    has not moved, so the block of the point before is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: where the window is not fetched its block index
    has not moved, so the block of the point before is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole staging buffer -/

abbrev r1_0 : Rect S256x4096 := Rect.unit (s := S256x4096) ![0, 0] S256x4096.size inb_S256x4096_S256x4096_0_0
abbrev r1_1 : Rect S4096x256 := Rect.unit (s := S4096x256) ![0, 0] S4096x256.size inb_S4096x256_S4096x256_0_0
abbrev r1_2 : Rect S256x1 := Rect.unit (s := S256x1) ![0, 0] S256x1.size inb_S256x1_S256x1_0_0
abbrev r1_3 : Rect S1x256 := Rect.unit (s := S1x256) ![0, 0] S1x256.size inb_S1x256_S1x256_0_0
abbrev r1_4 : Rect S1x4096 := Rect.unit (s := S1x4096) ![0, 0] S1x4096.size inb_S1x4096_S1x4096_0_0
abbrev r1_5 : Rect S4096x1 := Rect.unit (s := S4096x1) ![0, 0] S4096x1.size inb_S4096x1_S4096x1_0_0
abbrev r1_6 : Rect S4096x128 := Rect.unit (s := S4096x128) ![0, 0] S4096x128.size inb_S4096x128_S4096x128_0_0
abbrev r1_7 : Rect S256x128 := Rect.unit (s := S256x128) ![0, 0] S256x128.size inb_S256x128_S256x128_0_0

/-! ## What the body leaves in the output window's buffer -/

/-- The output window's staging buffer after the body, from the seven input blocks: its one store. The stored value
    is the half-sum of two softmax-weighted averages of the feature rows `x6`: one over the row strip `x0` of the
    adjacency (scores from `x2` and `x4`), one over the column strip `x1` (scores from `x5` and `x3`). -/
def out1_7 (x0 : Vec F S256x4096 .f32) (x1 : Vec F S4096x256 .f32) (x2 : Vec F S256x1 .f32) (x3 : Vec F S1x256 .f32) (x4 : Vec F S1x4096 .f32) (x5 : Vec F S4096x1 .f32) (x6 : Vec F S4096x128 .f32) : Vec F S256x128 .f32 :=
  View.canon [⟨r1_7, k1_pay1 (k1_pay2 (View.ld x6 r1_6)) (k1_pay3 (View.ld x6 r1_6) (View.ld x2 r1_2) (View.ld x4 r1_4) (View.ld x0 r1_0))
    (k1_pay4 (View.ld x5 r1_5) (View.ld x3 r1_3)) (k1_pay5 (View.ld x5 r1_5) (View.ld x3 r1_3)) (Scalar.ofBits .f32 0x3E4CCCCD#32) (View.ld x1 r1_1)⟩]

/-- The one store is the whole buffer, so it covers it. -/
theorem cover1_7 (p0 : Vec F S256x128 .f32) (y : S256x128.Idx) :
    ∃ pc ∈ ([⟨r1_7, p0⟩] : List (View.Piece (Elt F) S256x128 .f32)), y ∈ pc.1.set :=
  View.cover_of_tiled [⟨r1_7, p0⟩] S256x128.size (by rfl) y

/-! ## The body's triple -/

set_option maxHeartbeats 4000000 in
/-- The kernel body on whole staging memrefs, the inputs' at read contents `xW` and the output's at anything, runs to
    the continuation holding the inputs' as they were and the output's at `out1_7` of the inputs'. The output is
    loaded once before it is stored to, and the loaded value is not used. -/
theorem sound_kernel1 (c : Dev nD) (E : Set ℕ) (i : grid1.Coords) (arg0 : Memref sig .tc .vmem S256x4096 .f32) (harg0 : arg0.IsWhole) (arg1 : Memref sig .tc .vmem S4096x256 .f32) (harg1 : arg1.IsWhole) (arg2 : Memref sig .tc .vmem S256x1 .f32) (harg2 : arg2.IsWhole) (arg3 : Memref sig .tc .vmem S1x256 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S4096x128 .f32) (harg6 : arg6.IsWhole) (arg7 : Memref sig .tc .vmem S256x128 .f32) (harg7 : arg7.IsWhole)
    (x0 : Vec F S256x4096 .f32) (x1 : Vec F S4096x256 .f32) (x2 : Vec F S256x1 .f32) (x3 : Vec F S1x256 .f32) (x4 : Vec F S1x4096 .f32) (x5 : Vec F S4096x1 .f32) (x6 : Vec F S4096x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__attn_kernel i arg0 harg0 arg1 harg1 arg2 harg2 arg3 harg3 arg4 harg4 arg5 harg5 arg6 harg6 arg7 harg7) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of this pipeline on core `c`: the arrays as the region finds them; after the body at point `t`
    each input's buffer at its block and the output's at `out1_7` of the input blocks; the invariant the scoped rest
    and the generator register, untouched; nothing owed; the share held of each windowed array the parameter `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = iblk1 V c 4 t := by dsimp only [dat1]
theorem after1_5 (q : Fin cfg1.W → PosShare TreeShare) (c : Dev nD) (t : Fin cfg1.N) : (dat1 V q c).after 5 t = iblk1 V c 5 t := by dsimp only [dat1]
theorem after1_6 (q : Fin cfg1.W → PosShare TreeShare) (c : Dev nD) (t : Fin cfg1.N) : (dat1 V q c).after 6 t = iblk1 V c 6 t := by dsimp only [dat1]
theorem after1_7 (q : Fin cfg1.W → PosShare TreeShare) (c : Dev nD) (t : Fin cfg1.N) :
    (dat1 V q c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d
theorem before1_4 (q : Fin cfg1.W → PosShare TreeShare) (c : Dev nD) (t : Fin cfg1.N) (d) : (dat1 V q c).before 4 t d = iblk1 V c 4 t :=
  before1_4_of V (dat1 V q c) (A_eq1 V q c 4) (after1_4 V q c) t d
theorem before1_5 (q : Fin cfg1.W → PosShare TreeShare) (c : Dev nD) (t : Fin cfg1.N) (d) : (dat1 V q c).before 5 t d = iblk1 V c 5 t :=
  before1_5_of V (dat1 V q c) (A_eq1 V q c 5) (after1_5 V q c) t d
theorem before1_6 (q : Fin cfg1.W → PosShare TreeShare) (c : Dev nD) (t : Fin cfg1.N) (d) : (dat1 V q c).before 6 t d = iblk1 V c 6 t :=
  before1_6_of V (dat1 V q c) (A_eq1 V q c 6) (after1_6 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d))
    ∗ (∃ d, owns (c : Thread nD τ) (st1_7 t) fullShare ((dat1 V q c).before 7 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t)
    ∗ owns (c : Thread nD τ) (st1_7 t) fullShare ((dat1 V q c).after 7 t))

set_option maxHeartbeats 4000000 in
/-- The body at any point: the inputs' memrefs hold their blocks, so the body's triple applies; the invariant and the
    core's debts pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5, before1_6]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point and for any shares `q` of the windowed arrays (the obligation speaks
    of the staging buffers only, which are held whole). -/
theorem body_obligation1 (q : Fin cfg1.W → PosShare TreeShare) (c : Dev nD) :
    BodyObligation (dat1 (F := F) V q c) (defs₀ (F := F)) Variants.none () Set.univ := fun t => by
  rw [bigSep_W1, bigSep_W1]
  exact sound_body1 V q c t

end Region1

end Cert.Kernel.Hand

end
-- ==== Proof.KArr1.lean ====
/-
  The second region's arrays and the core's unscoped buffers.

  The second region stages the adjacency matrix through TWO windows, a strip of rows and a strip of columns, so its eight
  arrays stand on seven distinct buffers. Between regions the core holds every unscoped buffer whole. At the region's
  entry the buffer behind the adjacency is divided into two complementary half shares, one per window (reading needs
  only a share), and every other array is handed over whole; at the exit the two halves are joined again. Both
  directions are the same bookkeeping: list the seven buffers, list the eight windows, and match them, the first buffer
  against the first two windows.
-/
import proofs.«153251_g30992484008437_cont_sun_m_229_4_alg».proof.Proof.Gen.Kernel.Launch
import proofs.«153251_g30992484008437_cont_sun_m_229_4_alg».proof.Proof.Gen.Kernel.Skeleton
import proofs.«153251_g30992484008437_cont_sun_m_229_4_alg».proof.Proof.Gen.Kernel.Points
import proofs.«153251_g30992484008437_cont_sun_m_229_4_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the second region's windows hold their arrays at: the two windows on the adjacency a complementary
    half each, every other window its array whole. -/
def q1 : Fin cfg1.W → PosShare TreeShare
  | ⟨0, _⟩ => fullShare.left
  | ⟨1, _⟩ => fullShare.right
  | _ => fullShare

/-- The seven distinct buffers behind the second region's eight arrays. -/
theorem arrRefs1 : Finset.univ.image (Pipeline.arrRef spec1)
    = [main_arg1, main_call0_v4, main_call0_v6, main_call0_v7, main_call0_v5, main_call0_v3_0, main_v0].toFinset := by decide

section

/-- The buffers behind the second region's arrays, one by one, each whole at contents `V`. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_call0_v4) ↦{fullShare} V main_call0_v4)
          ∗ (((c : Thread nD τ).loc main_call0_v6) ↦{fullShare} V main_call0_v6) ∗ (((c : Thread nD τ).loc main_call0_v7) ↦{fullShare} V main_call0_v7)
          ∗ (((c : Thread nD τ).loc main_call0_v5) ↦{fullShare} V main_call0_v5) ∗ (((c : Thread nD τ).loc main_call0_v3_0) ↦{fullShare} V main_call0_v3_0)
          ∗ (((c : Thread nD τ).loc main_v0) ↦{fullShare} V main_v0)) := by
  unfold Pipeline.arrBufs
  exact bigSep_eq_bigSepL_of_eq _ arrRefs1 (by decide) _

variable (V : (c : Dev nD) → (b : Ref sig .tc) → Buf (Elt F) ((c : Thread nD τ).loc b)) (c : Dev nD)

/-- The second region's arrays at contents `Fa`, window by window: each a whole buffer at its share — the adjacency's
    two windows a half each. -/
theorem arrays1_eq (Fa : (w : Fin cfg1.W) → Buf (Elt F) ((cfg1.win w).arr.view.loc (c : Thread nD τ))) :
    ((dat1 V q1 c).arrays Fa : sProp 𝕄)
      = iprop((((c : Thread nD τ).loc main_arg1) ↦{fullShare.left} Fa 0) ∗ (((c : Thread nD τ).loc main_arg1) ↦{fullShare.right} Fa 1)
          ∗ (((c : Thread nD τ).loc main_call0_v4) ↦{fullShare} Fa 2) ∗ (((c : Thread nD τ).loc main_call0_v6) ↦{fullShare} Fa 3)
          ∗ (((c : Thread nD τ).loc main_call0_v7) ↦{fullShare} Fa 4) ∗ (((c : Thread nD τ).loc main_call0_v5) ↦{fullShare} Fa 5)
          ∗ (((c : Thread nD τ).loc main_call0_v3_0) ↦{fullShare} Fa 6) ∗ (((c : Thread nD τ).loc main_v0) ↦{fullShare} Fa 7)) := by
  have e : ((dat1 V q1 c).arrays Fa : sProp 𝕄)
      = bigSep Finset.univ fun w : Fin cfg1.W =>
          (pointsTo ((c : Thread nD τ).loc (Pipeline.arrRef spec1 w)) Finset.univ ((dat1 V q1 c).share w) (Fa w) : sProp 𝕄) := by
    unfold Dat.arrays
    exact bigSep_congr fun w _ => by rw [(arr_whole1 w).set_eq_univ]
  rw [e, bigSep_W1]
  rfl

/-- ENTRY: the core's unscoped buffers at `V` are the second region's arrays at their entry contents — the buffer behind
    the adjacency divided into its two half shares, one per window — and the unscoped rest. -/
theorem arrays1_in :
    (unscopedBufs c (V c) : sProp 𝕄) ⊢ iprop((dat1 V q1 c).arrays ((dat1 V q1 c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  iintro ⟨⟨H1, H4, H6, H7, H5, H3, H0⟩, Hrest⟩
  ihave H := (pointsTo_share (PosShare.mem_left_op_right fullShare)).1 $$ H1
  icases H with ⟨Hl, Hr⟩
  isplitr [Hrest]
  · isplitl [Hl]; · iexact Hl
    isplitl [Hr]; · iexact Hr
    isplitl [H4]; · iexact H4
    isplitl [H6]; · iexact H6
    isplitl [H7]; · iexact H7
    isplitl [H5]; · iexact H5
    isplitl [H3]; · iexact H3
    iexact H0
  iexact Hrest

/-- EXIT: the arrays at contents `Fa` and the unscoped rest at `V` are the core's unscoped buffers at any valuation that
    has the arrays at `Fa` and agrees with `V` off them: the two halves of the adjacency joined again. -/
theorem arrays1_out (V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V c b) :
    iprop((dat1 V q1 c).arrays Fa ∗ Pipeline.unscopedRest spec1 c (V c)) ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hs, arrBufs1_eq, arrays1_eq, hr, hF 0, hF 1, hF 2, hF 3, hF 4, hF 5, hF 6, hF 7]
  iintro ⟨⟨Hl, Hr, H4, H6, H7, H5, H3, H0⟩, Hrest⟩
  isplitr [Hrest]
  · ihave H1 := (pointsTo_share (PosShare.mem_left_op_right fullShare)).2 $$ [Hl Hr]
    · isplitl [Hl]; · iexact Hl
      iexact Hr
    isplitl [H1]; · iexact H1
    isplitl [H4]; · iexact H4
    isplitl [H6]; · iexact H6
    isplitl [H7]; · iexact H7
    isplitl [H5]; · iexact H5
    isplitl [H3]; · iexact H3
    iexact H0
  iexact Hrest

end

end Cert.Kernel.Hand

end
-- ==== Proof.KRun.lean ====
/-
  The run of the fused program from launch to return, with its result array named.

  @main is four items: a stretch of host operations (the two coefficient columns side by side, padded to 128 columns;
  the bias as a one-row matrix), the first region (eight row blocks: H = x·W + bias and H against the padded
  coefficients), a second stretch (columns 0 and 1 of that product, each also laid out as a row) and the second region
  (sixteen row blocks of the attention). Between items every unscoped buffer is held at a valuation that is a fold from
  the launch memory: a stretch applies its operations, a region replaces its output arrays by what its write-backs leave.

  The second region stages the adjacency matrix through TWO windows (a row strip and a column strip), so its arrays are
  not distinct buffers: at entry the buffer behind the adjacency is divided into two complementary half shares, one per
  window, and at exit the halves are joined again; reading needs only a share. Every other array is held whole.
-/
import proofs.«153251_g30992484008437_cont_sun_m_229_4_alg».proof.Proof.Gen.Kernel.Launch
import proofs.«153251_g30992484008437_cont_sun_m_229_4_alg».proof.Proof.Gen.Kernel.Skeleton
import proofs.«153251_g30992484008437_cont_sun_m_229_4_alg».proof.Proof.Gen.Kernel.Points
import proofs.«153251_g30992484008437_cont_sun_m_229_4_alg».proof.Proof.Gen.Kernel.Regions
import proofs.«153251_g30992484008437_cont_sun_m_229_4_alg».proof.Proof.KReg0
import proofs.«153251_g30992484008437_cont_sun_m_229_4_alg».proof.Proof.KReg1
import proofs.«153251_g30992484008437_cont_sun_m_229_4_alg».proof.Proof.KArr1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the first host stretch: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the write-backs leave, everything else as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At the second region's exit: the result array at what the write-backs leave, everything else as entered. -/
def W4 (c : Dev nD) : Valuation τ sig (Elt F) :=
  Function.update (W3 m ρ c) (Proc.devRef .tc main_v0) ((dat1 (V3 m ρ) q1 c).arrAt 7 cfg1.N)
abbrev V4 : (c : Dev nD) → (b : Ref sig .tc) → Buf (Elt F) ((c : Thread nD τ).loc b) := fun c b => W4 m ρ c b
theorem W4_main_v0 (c : Dev nD) : W4 m ρ c (Proc.devRef .tc main_v0) = (dat1 (V3 m ρ) q1 c).arrAt 7 cfg1.N := by
  unfold W4; exact Function.update_self _ _ _
theorem W4_of_ne (c : Dev nD) (b : Ref sig .tc) (hb : b ≠ main_v0) :
    W4 m ρ c (Proc.devRef .tc b) = W3 m ρ c (Proc.devRef .tc b) := by
  unfold W4; exact Function.update_of_ne (StableHlo.devRef_ne_of_ne hb) _ _

/-! ### The arguments end as launched: no host operation and no region writes one -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl
/-- An argument that is no array of the first region. -/
theorem W4_bypass (c : Dev nD) (r : Ref sig .tc) (h4 : r ≠ main_v0) (h3 : r ∉ hostOps1_W) (h2 : ∀ w, Pipeline.arrRef spec0 w ≠ r)
    (h1 : r ∉ hostOps0_W) : W4 m ρ c (Proc.devRef .tc r) = m ((c : Thread nD τ).loc r) :=
  calc W4 m ρ c (Proc.devRef .tc r)
    _ = W3 m ρ c (Proc.devRef .tc r) := W4_of_ne m ρ c r h4
    _ = W2 m ρ c (Proc.devRef .tc r) := W3_of m ρ c r h3
    _ = W1 m ρ c (Proc.devRef .tc r) := W2_of_ne m ρ c r h2
    _ = W0 m ρ c (Proc.devRef .tc r) := W1_of m ρ c r h1
    _ = m ((c : Thread nD τ).loc r) := rfl
theorem W4_main_arg1 (c : Dev nD) : W4 m ρ c (Proc.devRef .tc main_arg1) = m ((c : Thread nD τ).loc main_arg1) :=
  W4_bypass m ρ c main_arg1 (by decide) (by decide) (by decide) (by decide)
theorem W4_main_arg3 (c : Dev nD) : W4 m ρ c (Proc.devRef .tc main_arg3) = m ((c : Thread nD τ).loc main_arg3) :=
  W4_bypass m ρ c main_arg3 (by decide) (by decide) (by decide) (by decide)
theorem W4_main_arg4 (c : Dev nD) : W4 m ρ c (Proc.devRef .tc main_arg4) = m ((c : Thread nD τ).loc main_arg4) :=
  W4_bypass m ρ c main_arg4 (by decide) (by decide) (by decide) (by decide)
theorem W4_main_arg5 (c : Dev nD) : W4 m ρ c (Proc.devRef .tc main_arg5) = m ((c : Thread nD τ).loc main_arg5) :=
  W4_bypass m ρ c main_arg5 (by decide) (by decide) (by decide) (by decide)

/-- At the second region's exit each of its arrays holds what the pipeline leaves: an input its entry contents, the
    output the write-backs' fold. -/
theorem hF1 (c : Dev nD) (w : Fin cfg1.W) : (dat1 (V3 m ρ) q1 c).arrAt w cfg1.N = V4 m ρ c (Pipeline.arrRef spec1 w) := by
  match w with
  | ⟨0, _⟩ => exact (((dat1 (V3 m ρ) q1 c).arrAt_in 0 rfl _).trans (A_eq1 (V3 m ρ) q1 c 0)).trans (W4_of_ne m ρ c _ (by decide)).symm
  | ⟨1, _⟩ => exact (((dat1 (V3 m ρ) q1 c).arrAt_in 1 rfl _).trans (A_eq1 (V3 m ρ) q1 c 1)).trans (W4_of_ne m ρ c _ (by decide)).symm
  | ⟨2, _⟩ => exact (((dat1 (V3 m ρ) q1 c).arrAt_in 2 rfl _).trans (A_eq1 (V3 m ρ) q1 c 2)).trans (W4_of_ne m ρ c _ (by decide)).symm
  | ⟨3, _⟩ => exact (((dat1 (V3 m ρ) q1 c).arrAt_in 3 rfl _).trans (A_eq1 (V3 m ρ) q1 c 3)).trans (W4_of_ne m ρ c _ (by decide)).symm
  | ⟨4, _⟩ => exact (((dat1 (V3 m ρ) q1 c).arrAt_in 4 rfl _).trans (A_eq1 (V3 m ρ) q1 c 4)).trans (W4_of_ne m ρ c _ (by decide)).symm
  | ⟨5, _⟩ => exact (((dat1 (V3 m ρ) q1 c).arrAt_in 5 rfl _).trans (A_eq1 (V3 m ρ) q1 c 5)).trans (W4_of_ne m ρ c _ (by decide)).symm
  | ⟨6, _⟩ => exact (((dat1 (V3 m ρ) q1 c).arrAt_in 6 rfl _).trans (A_eq1 (V3 m ρ) q1 c 6)).trans (W4_of_ne m ρ c _ (by decide)).symm
  | ⟨7, _⟩ => exact (W4_main_v0 m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨7, Finset.mem_univ _, e.symm⟩)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) q1 c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) q1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays1_in (F := F) (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (unscopedBufs c (V4 m ρ c) : sProp 𝕄) :=
      arrays1_out (F := F) (V3 m ρ) c (V4 m ρ c) ((dat1 (V3 m ρ) q1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last region's exit state regrouped as the chain's end: the buffers and the register, beside nothing owed. -/
theorem chain_end (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting; the
    result array ends at what the second region's write-backs leave and every argument array as launched. -/
theorem run_main : θ_run defs (onTc (τ := τ) (main (F := F))) ⟨m, fun _ => 0, ρ⟩ (fun r => ∀ c : Dev nD,
      r.2.mem ((c.tc : Thread nD τ).loc main_v0) = (dat1 (V3 m ρ) q1 c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => chain_end m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v0 (by decide))).trans (W4_main_v0 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Kernel.Hand

end
-- ==== Proof.KiReg0.lean ====
import proofs.«153251_g30992484008437_cont_sun_m_229_4_alg».proof.Proof.Gen.KernelIdeal.Launch
import proofs.«153251_g30992484008437_cont_sun_m_229_4_alg».proof.Proof.Gen.KernelIdeal.Skeleton
import proofs.«153251_g30992484008437_cont_sun_m_229_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The first pipelined region of the program (the preparation kernel on a grid of eight points), at a
    PARAMETER `V`: the contents of the core's buffers when the region is entered.

    The kernel at a point reads a block of 512 rows of `x` and three whole arrays (a 128×128 matrix, a
    bias row, a second 128×128 matrix), and writes two blocks of 512 rows: the first is
    `x·W + bias` on the block, the second is that product times the second matrix. Both are closed
    functions of the four input blocks at the point, so the proof data of the pipeline is stated in closed
    form and the body's obligation is discharged once, at a generic point. -/

-- membership in a rectangle of these extents is decided structurally, one step per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the block was
    fetched at that point or not, for any proof data whose array is the entry contents and whose body leaves
    the block in place: where nothing is fetched the block index has not moved since the point before, and the
    buffer still holds the same block. Window 0 moves with the point; windows 1, 2, 3 are whole arrays, fetched
    at the first point only. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S512x128 := Rect.unit (s := S512x128) ![0, 0] S512x128.size inb_S512x128_S512x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in each output window's buffer -/

/-- The first output's buffer after the body: its one store, of the sum of the matrix product of the `x` block
    with the first matrix and the broadcast bias row. -/
def out0_4 (x0 : Vec F S512x128 .f32) (x1 : Vec F S128x128 .f32) (x2 : Vec F S1x128 .f32) : Vec F S512x128 .f32 :=
  View.canon [⟨r0_0, k0_pay1 (View.ld x0 r0_0) (View.ld x1 r0_1) (View.ld x2 r0_2)⟩]

/-- The second output's buffer after the body: its one store, of the matrix product of the first output's value
    with the second matrix. -/
def out0_5 (x0 : Vec F S512x128 .f32) (x1 : Vec F S128x128 .f32) (x2 : Vec F S1x128 .f32) (x3 : Vec F S128x128 .f32) : Vec F S512x128 .f32 :=
  View.canon [⟨r0_0, k0_pay2 (View.ld x0 r0_0) (View.ld x1 r0_1) (View.ld x2 r0_2) (View.ld x3 r0_1)⟩]

/-- A single store through the whole-buffer rectangle covers the buffer. -/
theorem cover0_4 (p0 : Vec F S512x128 .f32) (y : S512x128.Idx) :
    ∃ pc ∈ ([⟨r0_0, p0⟩] : List (View.Piece (Elt F) S512x128 .f32)), y ∈ pc.1.set :=
  View.cover_of_tiled [⟨r0_0, p0⟩] S512x128.size (by rfl) y

/-! ## The body's triple -/

set_option maxHeartbeats 1000000 in
/-- The kernel body on whole staging buffers — the four inputs' holding `x0 … x3`, the two outputs' holding
    anything — runs to a state where the inputs' are as they were and the outputs' hold `out0_4`, `out0_5` of
    the inputs. The body reads each output buffer once before it stores to it; the value read is never used, so
    the prior contents do not enter the result. -/
theorem sound_kernel0 (c : Dev nD) (E : Set ℕ) (i : grid0.Coords)
    (arg1 : Memref sig .tc .vmem S512x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S512x128 .f32) (harg5 : arg5.IsWhole) (arg6 : Memref sig .tc .vmem S512x128 .f32) (harg6 : arg6.IsWhole)
    (x0 : Vec F S512x128 .f32) (x1 : Vec F S128x128 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E (cc0__prep_kernel i arg1 harg1 arg2 harg2 arg3 harg3 arg4 harg4 arg5 harg5 arg6 harg6) K := by
  simp only [cc0__prep_kernel_eq_skeleton]; unfold cc0__prep_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-! ## The pipeline's proof data -/

/-- The proof data of this pipeline on core `c`: the arrays as the region finds them; after the body at point
    `t` each input's buffer at its block and each output's at the closed form of the input blocks; the invariant
    is the untouched rest of the core's state; nothing is owed; the shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand
-- ==== Proof.KiReg1.lean ====
/- Region 1 of the kernel program (the attention kernel, the second pipeline) at a parameter `V`, the
   TensorCore's buffer contents when the region is entered: each window's block at a grid point read off its array,
   what the body's one store leaves in the output window's staging buffer as a function of the seven input blocks,
   the body's triple on whole staging memrefs, the pipeline's proof data with the shares of the windowed arrays left
   as a parameter (windows 0 and 1 stage the same array, so neither can hold it whole), and the body obligation. -/
import proofs.«153251_g30992484008437_cont_sun_m_229_4_alg».proof.Proof.Gen.KernelIdeal.Launch
import proofs.«153251_g30992484008437_cont_sun_m_229_4_alg».proof.Proof.Gen.KernelIdeal.Skeleton
import proofs.«153251_g30992484008437_cont_sun_m_229_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents on entry to the region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: where the window is not fetched its block index
    has not moved, so the block of the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: where the window is not fetched its block index
    has not moved, so the block of the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: where the window is not fetched its block index
    has not moved, so the block of the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: where the window is not fetched its block index
    has not moved, so the block of the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: where the window is not fetched its block index
    has not moved, so the block of the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: where the window is not fetched its block index
    has not moved, so the block of the point before is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: where the window is not fetched its block index
    has not moved, so the block of the point before is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole staging buffer -/

abbrev r1_0 : Rect S256x4096 := Rect.unit (s := S256x4096) ![0, 0] S256x4096.size inb_S256x4096_S256x4096_0_0
abbrev r1_1 : Rect S4096x256 := Rect.unit (s := S4096x256) ![0, 0] S4096x256.size inb_S4096x256_S4096x256_0_0
abbrev r1_2 : Rect S256x1 := Rect.unit (s := S256x1) ![0, 0] S256x1.size inb_S256x1_S256x1_0_0
abbrev r1_3 : Rect S1x256 := Rect.unit (s := S1x256) ![0, 0] S1x256.size inb_S1x256_S1x256_0_0
abbrev r1_4 : Rect S1x4096 := Rect.unit (s := S1x4096) ![0, 0] S1x4096.size inb_S1x4096_S1x4096_0_0
abbrev r1_5 : Rect S4096x1 := Rect.unit (s := S4096x1) ![0, 0] S4096x1.size inb_S4096x1_S4096x1_0_0
abbrev r1_6 : Rect S4096x128 := Rect.unit (s := S4096x128) ![0, 0] S4096x128.size inb_S4096x128_S4096x128_0_0
abbrev r1_7 : Rect S256x128 := Rect.unit (s := S256x128) ![0, 0] S256x128.size inb_S256x128_S256x128_0_0

/-! ## What the body leaves in the output window's buffer -/

/-- The output window's staging buffer after the body, from the seven input blocks: its one store. The stored value
    is the half-sum of two softmax-weighted averages of the feature rows `x6`: one over the row strip `x0` of the
    adjacency (scores from `x2` and `x4`), one over the column strip `x1` (scores from `x5` and `x3`). -/
def out1_7 (x0 : Vec F S256x4096 .f32) (x1 : Vec F S4096x256 .f32) (x2 : Vec F S256x1 .f32) (x3 : Vec F S1x256 .f32) (x4 : Vec F S1x4096 .f32) (x5 : Vec F S4096x1 .f32) (x6 : Vec F S4096x128 .f32) : Vec F S256x128 .f32 :=
  View.canon [⟨r1_7, k1_pay1 (k1_pay2 (View.ld x6 r1_6)) (k1_pay3 (View.ld x6 r1_6) (View.ld x2 r1_2) (View.ld x4 r1_4) (View.ld x0 r1_0))
    (k1_pay4 (View.ld x5 r1_5) (View.ld x3 r1_3)) (k1_pay5 (View.ld x5 r1_5) (View.ld x3 r1_3)) (Scalar.ofBits .f32 0x3E4CCCCD#32) (View.ld x1 r1_1)⟩]

/-- The one store is the whole buffer, so it covers it. -/
theorem cover1_7 (p0 : Vec F S256x128 .f32) (y : S256x128.Idx) :
    ∃ pc ∈ ([⟨r1_7, p0⟩] : List (View.Piece (Elt F) S256x128 .f32)), y ∈ pc.1.set :=
  View.cover_of_tiled [⟨r1_7, p0⟩] S256x128.size (by rfl) y

/-! ## The body's triple -/

set_option maxHeartbeats 4000000 in
/-- The kernel body on whole staging memrefs, the inputs' at read contents `xW` and the output's at anything, runs to
    the continuation holding the inputs' as they were and the output's at `out1_7` of the inputs'. The output is
    loaded once before it is stored to, and the loaded value is not used. -/
theorem sound_kernel1 (c : Dev nD) (E : Set ℕ) (i : grid1.Coords) (arg0 : Memref sig .tc .vmem S256x4096 .f32) (harg0 : arg0.IsWhole) (arg1 : Memref sig .tc .vmem S4096x256 .f32) (harg1 : arg1.IsWhole) (arg2 : Memref sig .tc .vmem S256x1 .f32) (harg2 : arg2.IsWhole) (arg3 : Memref sig .tc .vmem S1x256 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S4096x128 .f32) (harg6 : arg6.IsWhole) (arg7 : Memref sig .tc .vmem S256x128 .f32) (harg7 : arg7.IsWhole)
    (x0 : Vec F S256x4096 .f32) (x1 : Vec F S4096x256 .f32) (x2 : Vec F S256x1 .f32) (x3 : Vec F S1x256 .f32) (x4 : Vec F S1x4096 .f32) (x5 : Vec F S4096x1 .f32) (x6 : Vec F S4096x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__attn_kernel i arg0 harg0 arg1 harg1 arg2 harg2 arg3 harg3 arg4 harg4 arg5 harg5 arg6 harg6 arg7 harg7) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of this pipeline on core `c`: the arrays as the region finds them; after the body at point `t`
    each input's buffer at its block and the output's at `out1_7` of the input blocks; the invariant the scoped rest
    and the generator register, untouched; nothing owed; the share held of each windowed array the parameter `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = iblk1 V c 4 t := by dsimp only [dat1]
theorem after1_5 (q : Fin cfg1.W → PosShare TreeShare) (c : Dev nD) (t : Fin cfg1.N) : (dat1 V q c).after 5 t = iblk1 V c 5 t := by dsimp only [dat1]
theorem after1_6 (q : Fin cfg1.W → PosShare TreeShare) (c : Dev nD) (t : Fin cfg1.N) : (dat1 V q c).after 6 t = iblk1 V c 6 t := by dsimp only [dat1]
theorem after1_7 (q : Fin cfg1.W → PosShare TreeShare) (c : Dev nD) (t : Fin cfg1.N) :
    (dat1 V q c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d
theorem before1_4 (q : Fin cfg1.W → PosShare TreeShare) (c : Dev nD) (t : Fin cfg1.N) (d) : (dat1 V q c).before 4 t d = iblk1 V c 4 t :=
  before1_4_of V (dat1 V q c) (A_eq1 V q c 4) (after1_4 V q c) t d
theorem before1_5 (q : Fin cfg1.W → PosShare TreeShare) (c : Dev nD) (t : Fin cfg1.N) (d) : (dat1 V q c).before 5 t d = iblk1 V c 5 t :=
  before1_5_of V (dat1 V q c) (A_eq1 V q c 5) (after1_5 V q c) t d
theorem before1_6 (q : Fin cfg1.W → PosShare TreeShare) (c : Dev nD) (t : Fin cfg1.N) (d) : (dat1 V q c).before 6 t d = iblk1 V c 6 t :=
  before1_6_of V (dat1 V q c) (A_eq1 V q c 6) (after1_6 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d))
    ∗ (∃ d, owns (c : Thread nD τ) (st1_7 t) fullShare ((dat1 V q c).before 7 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t)
    ∗ owns (c : Thread nD τ) (st1_7 t) fullShare ((dat1 V q c).after 7 t))

set_option maxHeartbeats 4000000 in
/-- The body at any point: the inputs' memrefs hold their blocks, so the body's triple applies; the invariant and the
    core's debts pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5, before1_6]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point and for any shares `q` of the windowed arrays (the obligation speaks
    of the staging buffers only, which are held whole). -/
theorem body_obligation1 (q : Fin cfg1.W → PosShare TreeShare) (c : Dev nD) :
    BodyObligation (dat1 (F := F) V q c) (defs₀ (F := F)) Variants.none () Set.univ := fun t => by
  rw [bigSep_W1, bigSep_W1]
  exact sound_body1 V q c t

end Region1

end Cert.KernelIdeal.Hand

end
-- ==== Proof.KiArr1.lean ====
/-
  The second region's arrays and the core's unscoped buffers.

  The second region stages the adjacency matrix through TWO windows, a strip of rows and a strip of columns, so its eight
  arrays stand on seven distinct buffers. Between regions the core holds every unscoped buffer whole. At the region's
  entry the buffer behind the adjacency is divided into two complementary half shares, one per window (reading needs
  only a share), and every other array is handed over whole; at the exit the two halves are joined again. Both
  directions are the same bookkeeping: list the seven buffers, list the eight windows, and match them, the first buffer
  against the first two windows.
-/
import proofs.«153251_g30992484008437_cont_sun_m_229_4_alg».proof.Proof.Gen.KernelIdeal.Launch
import proofs.«153251_g30992484008437_cont_sun_m_229_4_alg».proof.Proof.Gen.KernelIdeal.Skeleton
import proofs.«153251_g30992484008437_cont_sun_m_229_4_alg».proof.Proof.Gen.KernelIdeal.Points
import proofs.«153251_g30992484008437_cont_sun_m_229_4_alg».proof.Proof.KiReg1
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the second region's windows hold their arrays at: the two windows on the adjacency a complementary
    half each, every other window its array whole. -/
def q1 : Fin cfg1.W → PosShare TreeShare
  | ⟨0, _⟩ => fullShare.left
  | ⟨1, _⟩ => fullShare.right
  | _ => fullShare

/-- The seven distinct buffers behind the second region's eight arrays. -/
theorem arrRefs1 : Finset.univ.image (Pipeline.arrRef spec1)
    = [main_arg1, main_call0_v4, main_call0_v6, main_call0_v7, main_call0_v5, main_call0_v3_0, main_v0].toFinset := by decide

section

/-- The buffers behind the second region's arrays, one by one, each whole at contents `V`. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_call0_v4) ↦{fullShare} V main_call0_v4)
          ∗ (((c : Thread nD τ).loc main_call0_v6) ↦{fullShare} V main_call0_v6) ∗ (((c : Thread nD τ).loc main_call0_v7) ↦{fullShare} V main_call0_v7)
          ∗ (((c : Thread nD τ).loc main_call0_v5) ↦{fullShare} V main_call0_v5) ∗ (((c : Thread nD τ).loc main_call0_v3_0) ↦{fullShare} V main_call0_v3_0)
          ∗ (((c : Thread nD τ).loc main_v0) ↦{fullShare} V main_v0)) := by
  unfold Pipeline.arrBufs
  exact bigSep_eq_bigSepL_of_eq _ arrRefs1 (by decide) _

variable (V : (c : Dev nD) → (b : Ref sig .tc) → Buf (Elt F) ((c : Thread nD τ).loc b)) (c : Dev nD)

/-- The second region's arrays at contents `Fa`, window by window: each a whole buffer at its share — the adjacency's
    two windows a half each. -/
theorem arrays1_eq (Fa : (w : Fin cfg1.W) → Buf (Elt F) ((cfg1.win w).arr.view.loc (c : Thread nD τ))) :
    ((dat1 V q1 c).arrays Fa : sProp 𝕄)
      = iprop((((c : Thread nD τ).loc main_arg1) ↦{fullShare.left} Fa 0) ∗ (((c : Thread nD τ).loc main_arg1) ↦{fullShare.right} Fa 1)
          ∗ (((c : Thread nD τ).loc main_call0_v4) ↦{fullShare} Fa 2) ∗ (((c : Thread nD τ).loc main_call0_v6) ↦{fullShare} Fa 3)
          ∗ (((c : Thread nD τ).loc main_call0_v7) ↦{fullShare} Fa 4) ∗ (((c : Thread nD τ).loc main_call0_v5) ↦{fullShare} Fa 5)
          ∗ (((c : Thread nD τ).loc main_call0_v3_0) ↦{fullShare} Fa 6) ∗ (((c : Thread nD τ).loc main_v0) ↦{fullShare} Fa 7)) := by
  have e : ((dat1 V q1 c).arrays Fa : sProp 𝕄)
      = bigSep Finset.univ fun w : Fin cfg1.W =>
          (pointsTo ((c : Thread nD τ).loc (Pipeline.arrRef spec1 w)) Finset.univ ((dat1 V q1 c).share w) (Fa w) : sProp 𝕄) := by
    unfold Dat.arrays
    exact bigSep_congr fun w _ => by rw [(arr_whole1 w).set_eq_univ]
  rw [e, bigSep_W1]
  rfl

/-- ENTRY: the core's unscoped buffers at `V` are the second region's arrays at their entry contents — the buffer behind
    the adjacency divided into its two half shares, one per window — and the unscoped rest. -/
theorem arrays1_in :
    (unscopedBufs c (V c) : sProp 𝕄) ⊢ iprop((dat1 V q1 c).arrays ((dat1 V q1 c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  iintro ⟨⟨H1, H4, H6, H7, H5, H3, H0⟩, Hrest⟩
  ihave H := (pointsTo_share (PosShare.mem_left_op_right fullShare)).1 $$ H1
  icases H with ⟨Hl, Hr⟩
  isplitr [Hrest]
  · isplitl [Hl]; · iexact Hl
    isplitl [Hr]; · iexact Hr
    isplitl [H4]; · iexact H4
    isplitl [H6]; · iexact H6
    isplitl [H7]; · iexact H7
    isplitl [H5]; · iexact H5
    isplitl [H3]; · iexact H3
    iexact H0
  iexact Hrest

/-- EXIT: the arrays at contents `Fa` and the unscoped rest at `V` are the core's unscoped buffers at any valuation that
    has the arrays at `Fa` and agrees with `V` off them: the two halves of the adjacency joined again. -/
theorem arrays1_out (V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V c b) :
    iprop((dat1 V q1 c).arrays Fa ∗ Pipeline.unscopedRest spec1 c (V c)) ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hs, arrBufs1_eq, arrays1_eq, hr, hF 0, hF 1, hF 2, hF 3, hF 4, hF 5, hF 6, hF 7]
  iintro ⟨⟨Hl, Hr, H4, H6, H7, H5, H3, H0⟩, Hrest⟩
  isplitr [Hrest]
  · ihave H1 := (pointsTo_share (PosShare.mem_left_op_right fullShare)).2 $$ [Hl Hr]
    · isplitl [Hl]; · iexact Hl
      iexact Hr
    isplitl [H1]; · iexact H1
    isplitl [H4]; · iexact H4
    isplitl [H6]; · iexact H6
    isplitl [H7]; · iexact H7
    isplitl [H5]; · iexact H5
    isplitl [H3]; · iexact H3
    iexact H0
  iexact Hrest

end

end Cert.KernelIdeal.Hand

end
-- ==== Proof.KiRun.lean ====
/-
  The run of the fused program from launch to return, with its result array named.

  @main is four items: a stretch of host operations (the two coefficient columns side by side, padded to 128 columns;
  the bias as a one-row matrix), the first region (eight row blocks: H = x·W + bias and H against the padded
  coefficients), a second stretch (columns 0 and 1 of that product, each also laid out as a row) and the second region
  (sixteen row blocks of the attention). Between items every unscoped buffer is held at a valuation that is a fold from
  the launch memory: a stretch applies its operations, a region replaces its output arrays by what its write-backs leave.

  The second region stages the adjacency matrix through TWO windows (a row strip and a column strip), so its arrays are
  not distinct buffers: at entry the buffer behind the adjacency is divided into two complementary half shares, one per
  window, and at exit the halves are joined again; reading needs only a share. Every other array is held whole.
-/
import proofs.«153251_g30992484008437_cont_sun_m_229_4_alg».proof.Proof.Gen.KernelIdeal.Launch
import proofs.«153251_g30992484008437_cont_sun_m_229_4_alg».proof.Proof.Gen.KernelIdeal.Skeleton
import proofs.«153251_g30992484008437_cont_sun_m_229_4_alg».proof.Proof.Gen.KernelIdeal.Points
import proofs.«153251_g30992484008437_cont_sun_m_229_4_alg».proof.Proof.Gen.KernelIdeal.Regions
import proofs.«153251_g30992484008437_cont_sun_m_229_4_alg».proof.Proof.KiReg0
import proofs.«153251_g30992484008437_cont_sun_m_229_4_alg».proof.Proof.KiReg1
import proofs.«153251_g30992484008437_cont_sun_m_229_4_alg».proof.Proof.KiArr1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the first host stretch: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the write-backs leave, everything else as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At the second region's exit: the result array at what the write-backs leave, everything else as entered. -/
def W4 (c : Dev nD) : Valuation τ sig (Elt F) :=
  Function.update (W3 m ρ c) (Proc.devRef .tc main_v0) ((dat1 (V3 m ρ) q1 c).arrAt 7 cfg1.N)
abbrev V4 : (c : Dev nD) → (b : Ref sig .tc) → Buf (Elt F) ((c : Thread nD τ).loc b) := fun c b => W4 m ρ c b
theorem W4_main_v0 (c : Dev nD) : W4 m ρ c (Proc.devRef .tc main_v0) = (dat1 (V3 m ρ) q1 c).arrAt 7 cfg1.N := by
  unfold W4; exact Function.update_self _ _ _
theorem W4_of_ne (c : Dev nD) (b : Ref sig .tc) (hb : b ≠ main_v0) :
    W4 m ρ c (Proc.devRef .tc b) = W3 m ρ c (Proc.devRef .tc b) := by
  unfold W4; exact Function.update_of_ne (StableHlo.devRef_ne_of_ne hb) _ _

/-! ### The arguments end as launched: no host operation and no region writes one -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl
/-- An argument that is no array of the first region. -/
theorem W4_bypass (c : Dev nD) (r : Ref sig .tc) (h4 : r ≠ main_v0) (h3 : r ∉ hostOps1_W) (h2 : ∀ w, Pipeline.arrRef spec0 w ≠ r)
    (h1 : r ∉ hostOps0_W) : W4 m ρ c (Proc.devRef .tc r) = m ((c : Thread nD τ).loc r) :=
  calc W4 m ρ c (Proc.devRef .tc r)
    _ = W3 m ρ c (Proc.devRef .tc r) := W4_of_ne m ρ c r h4
    _ = W2 m ρ c (Proc.devRef .tc r) := W3_of m ρ c r h3
    _ = W1 m ρ c (Proc.devRef .tc r) := W2_of_ne m ρ c r h2
    _ = W0 m ρ c (Proc.devRef .tc r) := W1_of m ρ c r h1
    _ = m ((c : Thread nD τ).loc r) := rfl
theorem W4_main_arg1 (c : Dev nD) : W4 m ρ c (Proc.devRef .tc main_arg1) = m ((c : Thread nD τ).loc main_arg1) :=
  W4_bypass m ρ c main_arg1 (by decide) (by decide) (by decide) (by decide)
theorem W4_main_arg3 (c : Dev nD) : W4 m ρ c (Proc.devRef .tc main_arg3) = m ((c : Thread nD τ).loc main_arg3) :=
  W4_bypass m ρ c main_arg3 (by decide) (by decide) (by decide) (by decide)
theorem W4_main_arg4 (c : Dev nD) : W4 m ρ c (Proc.devRef .tc main_arg4) = m ((c : Thread nD τ).loc main_arg4) :=
  W4_bypass m ρ c main_arg4 (by decide) (by decide) (by decide) (by decide)
theorem W4_main_arg5 (c : Dev nD) : W4 m ρ c (Proc.devRef .tc main_arg5) = m ((c : Thread nD τ).loc main_arg5) :=
  W4_bypass m ρ c main_arg5 (by decide) (by decide) (by decide) (by decide)

/-- At the second region's exit each of its arrays holds what the pipeline leaves: an input its entry contents, the
    output the write-backs' fold. -/
theorem hF1 (c : Dev nD) (w : Fin cfg1.W) : (dat1 (V3 m ρ) q1 c).arrAt w cfg1.N = V4 m ρ c (Pipeline.arrRef spec1 w) := by
  match w with
  | ⟨0, _⟩ => exact (((dat1 (V3 m ρ) q1 c).arrAt_in 0 rfl _).trans (A_eq1 (V3 m ρ) q1 c 0)).trans (W4_of_ne m ρ c _ (by decide)).symm
  | ⟨1, _⟩ => exact (((dat1 (V3 m ρ) q1 c).arrAt_in 1 rfl _).trans (A_eq1 (V3 m ρ) q1 c 1)).trans (W4_of_ne m ρ c _ (by decide)).symm
  | ⟨2, _⟩ => exact (((dat1 (V3 m ρ) q1 c).arrAt_in 2 rfl _).trans (A_eq1 (V3 m ρ) q1 c 2)).trans (W4_of_ne m ρ c _ (by decide)).symm
  | ⟨3, _⟩ => exact (((dat1 (V3 m ρ) q1 c).arrAt_in 3 rfl _).trans (A_eq1 (V3 m ρ) q1 c 3)).trans (W4_of_ne m ρ c _ (by decide)).symm
  | ⟨4, _⟩ => exact (((dat1 (V3 m ρ) q1 c).arrAt_in 4 rfl _).trans (A_eq1 (V3 m ρ) q1 c 4)).trans (W4_of_ne m ρ c _ (by decide)).symm
  | ⟨5, _⟩ => exact (((dat1 (V3 m ρ) q1 c).arrAt_in 5 rfl _).trans (A_eq1 (V3 m ρ) q1 c 5)).trans (W4_of_ne m ρ c _ (by decide)).symm
  | ⟨6, _⟩ => exact (((dat1 (V3 m ρ) q1 c).arrAt_in 6 rfl _).trans (A_eq1 (V3 m ρ) q1 c 6)).trans (W4_of_ne m ρ c _ (by decide)).symm
  | ⟨7, _⟩ => exact (W4_main_v0 m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨7, Finset.mem_univ _, e.symm⟩)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) q1 c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) q1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays1_in (F := F) (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (unscopedBufs c (V4 m ρ c) : sProp 𝕄) :=
      arrays1_out (F := F) (V3 m ρ) c (V4 m ρ c) ((dat1 (V3 m ρ) q1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last region's exit state regrouped as the chain's end: the buffers and the register, beside nothing owed. -/
theorem chain_end (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting; the
    result array ends at what the second region's write-backs leave and every argument array as launched. -/
theorem run_main : θ_run defs (onTc (τ := τ) (main (F := F))) ⟨m, fun _ => 0, ρ⟩ (fun r => ∀ c : Dev nD,
      r.2.mem ((c.tc : Thread nD τ).loc main_v0) = (dat1 (V3 m ρ) q1 c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => chain_end m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v0 (by decide))).trans (W4_main_v0 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Hand

end
-- ==== Proof.RefRun.lean ====
/-
  The reference program's run, written out by hand.

  @main of the reference is a straight line of host tensor operations: sixty statements, three of which
  call an outlined function (the leaky rectifier, which itself calls a three-way select, and twice a
  masked select against a scalar).  A call executes the callee's body on the caller's buffers, so the
  whole program is ONE list of sixty-eight operations: the callee's operations stand, in order, at the
  call site, over the buffers that call names.

  From that list the run follows: every weakly fair execution terminates, each buffer ends at the fold of
  the operations' results over the launch contents, and what the result buffer holds is a pure function
  `result` of the six argument arrays.  `result` is stated as a chain of small definitions, one per
  mathematical stage of the dense graph-attention head:

    H      = x · W + b                                    (node features)
    f1, f2 = H · a1,  H · a2                              (the two score vectors)
    e      = leaky_relu (f1 ⊕ f2ᵀ)                        (pairwise scores, slope 0.2)
    L      = where (mask > 0, e, -1e9)                    (mask = A, and mask = Aᵀ)
    softmax over each row of L, in its stable form: subtract the row maximum, exponentiate,
             divide by the row sum
    out    = (0.5 · (softmax(L₁) · H + softmax(L₂) · H)) / 1
-/
import proofs.«153251_g30992484008437_cont_sun_m_229_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- The sixty-eight operations: @main's own, and at each call site the callee's over that call's buffers. -/
abbrev ops : List (HloOp τ sig (Elt F)) :=
  [ binary main_arg0 main_arg2 main_v0 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg5 main_v1 (broadcastInDim S1x128 ![1] bcast_S128_S1x128_1 : (⟨S128, .f32⟩ : BufTy).Contents (Elt F) → (⟨S1x128, .f32⟩ : BufTy).Contents (Elt F)),
    unary main_v1 main_v2 (broadcastInDim S4096x128 ![0, 1] bcast_S1x128_S4096x128_0_1 : (⟨S1x128, .f32⟩ : BufTy).Contents (Elt F) → (⟨S4096x128, .f32⟩ : BufTy).Contents (Elt F)),
    binary main_v0 main_v2 main_v3 (addf : (⟨S4096x128, .f32⟩ : BufTy).Contents (Elt F) → (⟨S4096x128, .f32⟩ : BufTy).Contents (Elt F) → (⟨S4096x128, .f32⟩ : BufTy).Contents (Elt F)),
    binary main_v3 main_arg3 main_v4 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    binary main_v3 main_arg4 main_v5 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    unary main_v5 main_v6 ((transpose S1x4096 [1, 0] · transposes_S4096x1_S1x4096_1_0) : (⟨S4096x1, .f32⟩ : BufTy).Contents (Elt F) → (⟨S1x4096, .f32⟩ : BufTy).Contents (Elt F)),
    unary main_v4 main_v7 (broadcastInDim S4096x4096 ![0, 1] bcast_S4096x1_S4096x4096_0_1 : (⟨S4096x1, .f32⟩ : BufTy).Contents (Elt F) → (⟨S4096x4096, .f32⟩ : BufTy).Contents (Elt F)),
    unary main_v6 main_v8 (broadcastInDim S4096x4096 ![0, 1] bcast_S1x4096_S4096x4096_0_1 : (⟨S1x4096, .f32⟩ : BufTy).Contents (Elt F) → (⟨S4096x4096, .f32⟩ : BufTy).Contents (Elt F)),
    binary main_v7 main_v8 main_v9 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S4096x4096 ![] bcast_S_S4096x4096),
    TRef.binary (.of main_v9 : TRef sig ⟨S4096x4096, .f32⟩) main_call0.v0 main_call0.v1 (cmpf .oge),
    TRef.unary (.of main_cst : TRef sig ⟨S_, .f32⟩) main_call0.v2 id,
    TRef.unary main_call0.v2 main_call0.v3 (broadcastInDim S4096x4096 ![] bcast_S_S4096x4096),
    TRef.binary main_call0.v3 (.of main_v9 : TRef sig ⟨S4096x4096, .f32⟩) main_call0.v4 mulf,
    TRef.ternary main_call0.v1 (.of main_v9 : TRef sig ⟨S4096x4096, .f32⟩) main_call0.v4 main_call0.call0.v0 select,
    nullary main_cst_0 (constant S_ .f32 0x00000000#32),
    unary main_cst_0 main_v11 (broadcastInDim S4096x4096 ![] bcast_S_S4096x4096 : (⟨S_, .f32⟩ : BufTy).Contents (Elt F) → (⟨S4096x4096, .f32⟩ : BufTy).Contents (Elt F)),
    binary main_arg1 main_v11 main_v12 (cmpf .ogt : (⟨S4096x4096, .f32⟩ : BufTy).Contents (Elt F) → (⟨S4096x4096, .f32⟩ : BufTy).Contents (Elt F) → (⟨S4096x4096, .i1⟩ : BufTy).Contents (Elt F)),
    nullary main_cst_1 (constant S_ .f32 0xCE6E6B28#32),
    TRef.unary (.of main_cst_1 : TRef sig ⟨S_, .f32⟩) main_call1.v0 (broadcastInDim S4096x4096 ![] bcast_S_S4096x4096),
    TRef.ternary (.of main_v12 : TRef sig ⟨S4096x4096, .i1⟩) (.of main_v10 : TRef sig ⟨S4096x4096, .f32⟩) main_call1.v0 main_call1.v1 select,
    nullary main_cst_2 (constant S_ .f32 0xFF800000#32),
    binary main_v13 main_cst_2 main_v14 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v15 (broadcastInDim S4096 ![] bcast_S_S4096 : (⟨S_, .f32⟩ : BufTy).Contents (Elt F) → (⟨S4096, .f32⟩ : BufTy).Contents (Elt F)),
    binary main_v15 main_v14 main_v16 (maximumf : (⟨S4096, .f32⟩ : BufTy).Contents (Elt F) → (⟨S4096, .f32⟩ : BufTy).Contents (Elt F) → (⟨S4096, .f32⟩ : BufTy).Contents (Elt F)),
    unary main_v16 main_v17 (broadcastInDim S4096x1 ![0] bcast_S4096_S4096x1_0 : (⟨S4096, .f32⟩ : BufTy).Contents (Elt F) → (⟨S4096x1, .f32⟩ : BufTy).Contents (Elt F)),
    unary main_v17 main_v18 (broadcastInDim S4096x4096 ![0, 1] bcast_S4096x1_S4096x4096_0_1 : (⟨S4096x1, .f32⟩ : BufTy).Contents (Elt F) → (⟨S4096x4096, .f32⟩ : BufTy).Contents (Elt F)),
    binary main_v13 main_v18 main_v19 (subf : (⟨S4096x4096, .f32⟩ : BufTy).Contents (Elt F) → (⟨S4096x4096, .f32⟩ : BufTy).Contents (Elt F) → (⟨S4096x4096, .f32⟩ : BufTy).Contents (Elt F)),
    unary main_v19 main_v20 (Host.exp : (⟨S4096x4096, .f32⟩ : BufTy).Contents (Elt F) → (⟨S4096x4096, .f32⟩ : BufTy).Contents (Elt F)),
    nullary main_cst_4 (constant S_ .f32 0x00000000#32),
    binary main_v20 main_cst_4 main_v21 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v21 main_v22 (broadcastInDim S4096x1 ![0] bcast_S4096_S4096x1_0 : (⟨S4096, .f32⟩ : BufTy).Contents (Elt F) → (⟨S4096x1, .f32⟩ : BufTy).Contents (Elt F)),
    unary main_v22 main_v23 (broadcastInDim S4096x4096 ![0, 1] bcast_S4096x1_S4096x4096_0_1 : (⟨S4096x1, .f32⟩ : BufTy).Contents (Elt F) → (⟨S4096x4096, .f32⟩ : BufTy).Contents (Elt F)),
    binary main_v20 main_v23 main_v24 (Host.divf : (⟨S4096x4096, .f32⟩ : BufTy).Contents (Elt F) → (⟨S4096x4096, .f32⟩ : BufTy).Contents (Elt F) → (⟨S4096x4096, .f32⟩ : BufTy).Contents (Elt F)),
    binary main_v24 main_v3 main_v25 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    unary main_arg1 main_v26 ((transpose S4096x4096 [1, 0] · transposes_S4096x4096_S4096x4096_1_0) : (⟨S4096x4096, .f32⟩ : BufTy).Contents (Elt F) → (⟨S4096x4096, .f32⟩ : BufTy).Contents (Elt F)),
    nullary main_cst_5 (constant S_ .f32 0x00000000#32),
    unary main_cst_5 main_v27 (broadcastInDim S4096x4096 ![] bcast_S_S4096x4096 : (⟨S_, .f32⟩ : BufTy).Contents (Elt F) → (⟨S4096x4096, .f32⟩ : BufTy).Contents (Elt F)),
    binary main_v26 main_v27 main_v28 (cmpf .ogt : (⟨S4096x4096, .f32⟩ : BufTy).Contents (Elt F) → (⟨S4096x4096, .f32⟩ : BufTy).Contents (Elt F) → (⟨S4096x4096, .i1⟩ : BufTy).Contents (Elt F)),
    nullary main_cst_6 (constant S_ .f32 0xCE6E6B28#32),
    TRef.unary (.of main_cst_6 : TRef sig ⟨S_, .f32⟩) main_call2.v0 (broadcastInDim S4096x4096 ![] bcast_S_S4096x4096),
    TRef.ternary (.of main_v28 : TRef sig ⟨S4096x4096, .i1⟩) (.of main_v10 : TRef sig ⟨S4096x4096, .f32⟩) main_call2.v0 main_call2.v1 select,
    nullary main_cst_7 (constant S_ .f32 0xFF800000#32),
    binary main_v29 main_cst_7 main_v30 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_8 (constant S_ .f32 0xFF800000#32),
    unary main_cst_8 main_v31 (broadcastInDim S4096 ![] bcast_S_S4096 : (⟨S_, .f32⟩ : BufTy).Contents (Elt F) → (⟨S4096, .f32⟩ : BufTy).Contents (Elt F)),
    binary main_v31 main_v30 main_v32 (maximumf : (⟨S4096, .f32⟩ : BufTy).Contents (Elt F) → (⟨S4096, .f32⟩ : BufTy).Contents (Elt F) → (⟨S4096, .f32⟩ : BufTy).Contents (Elt F)),
    unary main_v32 main_v33 (broadcastInDim S4096x1 ![0] bcast_S4096_S4096x1_0 : (⟨S4096, .f32⟩ : BufTy).Contents (Elt F) → (⟨S4096x1, .f32⟩ : BufTy).Contents (Elt F)),
    unary main_v33 main_v34 (broadcastInDim S4096x4096 ![0, 1] bcast_S4096x1_S4096x4096_0_1 : (⟨S4096x1, .f32⟩ : BufTy).Contents (Elt F) → (⟨S4096x4096, .f32⟩ : BufTy).Contents (Elt F)),
    binary main_v29 main_v34 main_v35 (subf : (⟨S4096x4096, .f32⟩ : BufTy).Contents (Elt F) → (⟨S4096x4096, .f32⟩ : BufTy).Contents (Elt F) → (⟨S4096x4096, .f32⟩ : BufTy).Contents (Elt F)),
    unary main_v35 main_v36 (Host.exp : (⟨S4096x4096, .f32⟩ : BufTy).Contents (Elt F) → (⟨S4096x4096, .f32⟩ : BufTy).Contents (Elt F)),
    nullary main_cst_9 (constant S_ .f32 0x00000000#32),
    binary main_v36 main_cst_9 main_v37 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v37 main_v38 (broadcastInDim S4096x1 ![0] bcast_S4096_S4096x1_0 : (⟨S4096, .f32⟩ : BufTy).Contents (Elt F) → (⟨S4096x1, .f32⟩ : BufTy).Contents (Elt F)),
    unary main_v38 main_v39 (broadcastInDim S4096x4096 ![0, 1] bcast_S4096x1_S4096x4096_0_1 : (⟨S4096x1, .f32⟩ : BufTy).Contents (Elt F) → (⟨S4096x4096, .f32⟩ : BufTy).Contents (Elt F)),
    binary main_v36 main_v39 main_v40 (Host.divf : (⟨S4096x4096, .f32⟩ : BufTy).Contents (Elt F) → (⟨S4096x4096, .f32⟩ : BufTy).Contents (Elt F) → (⟨S4096x4096, .f32⟩ : BufTy).Contents (Elt F)),
    binary main_v40 main_v3 main_v41 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    binary main_v25 main_v41 main_v42 (addf : (⟨S4096x128, .f32⟩ : BufTy).Contents (Elt F) → (⟨S4096x128, .f32⟩ : BufTy).Contents (Elt F) → (⟨S4096x128, .f32⟩ : BufTy).Contents (Elt F)),
    nullary main_cst_10 (constant S_ .f32 0x3F000000#32),
    unary main_cst_10 main_v43 (broadcastInDim S4096x128 ![] bcast_S_S4096x128 : (⟨S_, .f32⟩ : BufTy).Contents (Elt F) → (⟨S4096x128, .f32⟩ : BufTy).Contents (Elt F)),
    binary main_v43 main_v42 main_v44 (mulf : (⟨S4096x128, .f32⟩ : BufTy).Contents (Elt F) → (⟨S4096x128, .f32⟩ : BufTy).Contents (Elt F) → (⟨S4096x128, .f32⟩ : BufTy).Contents (Elt F)),
    nullary main_cst_11 (constant S_ .f32 0x3F800000#32),
    unary main_cst_11 main_v45 (broadcastInDim S4096x128 ![] bcast_S_S4096x128 : (⟨S_, .f32⟩ : BufTy).Contents (Elt F) → (⟨S4096x128, .f32⟩ : BufTy).Contents (Elt F)),
    binary main_v44 main_v45 main_v46 (Host.divf : (⟨S4096x128, .f32⟩ : BufTy).Contents (Elt F) → (⟨S4096x128, .f32⟩ : BufTy).Contents (Elt F) → (⟨S4096x128, .f32⟩ : BufTy).Contents (Elt F)) ]

-- one bind per statement to re-associate: the rewriting recurses once per statement
set_option maxRecDepth 4096 in
set_option maxHeartbeats 4000000 in
/-- @main is that straight line: with the outlined functions unfolded at their calls, both sides are one chain of
    operation steps once the sequencing is re-associated. -/
theorem main_eq (c : Dev nD) : main (F := F) c = seq ops := by
  simp only [main, main_part0, main_part1, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub ..⟩

/-! ## The result as a function of the arguments

One definition per stage, each written with the very operation terms of the program, so that the run's composed term
is `result` once these names are opened. -/

/-- A per-row vector spread along each row of a square array: entry (i, j) is the vector's entry i. -/
def spreadRows (r : (⟨S4096, .f32⟩ : BufTy).Contents (Elt F)) : (⟨S4096x4096, .f32⟩ : BufTy).Contents (Elt F) :=
  broadcastInDim S4096x4096 ![0, 1] bcast_S4096x1_S4096x4096_0_1 (broadcastInDim S4096x1 ![0] bcast_S4096_S4096x1_0 r)

/-- The node features H = x · W + b (the bias spread over the rows). -/
def hfeat (x : (⟨S4096x128, .f32⟩ : BufTy).Contents (Elt F)) (W : (⟨S128x128, .f32⟩ : BufTy).Contents (Elt F)) (b : (⟨S128, .f32⟩ : BufTy).Contents (Elt F)) : (⟨S4096x128, .f32⟩ : BufTy).Contents (Elt F) :=
  addf (Host.dotGeneral dot_S4096x128_S128x128_S4096x128_1_0_0_1_n_n none x W)
    (broadcastInDim S4096x128 ![0, 1] bcast_S1x128_S4096x128_0_1 (broadcastInDim S1x128 ![1] bcast_S128_S1x128_1 b))

/-- The source score vector f1 = H · a1. -/
def f1 (H : (⟨S4096x128, .f32⟩ : BufTy).Contents (Elt F)) (a1 : (⟨S128x1, .f32⟩ : BufTy).Contents (Elt F)) : (⟨S4096x1, .f32⟩ : BufTy).Contents (Elt F) :=
  Host.dotGeneral dot_S4096x128_S128x1_S4096x1_1_0_0_1_n_n none H a1

/-- The target score vector f2 = H · a2. -/
def f2 (H : (⟨S4096x128, .f32⟩ : BufTy).Contents (Elt F)) (a2 : (⟨S128x1, .f32⟩ : BufTy).Contents (Elt F)) : (⟨S4096x1, .f32⟩ : BufTy).Contents (Elt F) :=
  Host.dotGeneral dot_S4096x128_S128x1_S4096x1_1_0_0_1_n_n none H a2

/-- The raw pairwise sum: entry (i, j) is f1 i + f2 j (f1 spread along rows, f2 transposed and spread along columns). -/
def esum (u : (⟨S4096x1, .f32⟩ : BufTy).Contents (Elt F)) (v : (⟨S4096x1, .f32⟩ : BufTy).Contents (Elt F)) : (⟨S4096x4096, .f32⟩ : BufTy).Contents (Elt F) :=
  addf (broadcastInDim S4096x4096 ![0, 1] bcast_S4096x1_S4096x4096_0_1 u)
    (broadcastInDim S4096x4096 ![0, 1] bcast_S1x4096_S4096x4096_0_1 (transpose S1x4096 [1, 0] v transposes_S4096x1_S1x4096_1_0))

/-- The leaky rectifier with slope 0.2: s where s ≥ 0, else 0.2 · s. -/
def leaky (s : (⟨S4096x4096, .f32⟩ : BufTy).Contents (Elt F)) : (⟨S4096x4096, .f32⟩ : BufTy).Contents (Elt F) :=
  select (cmpf .oge s (broadcastInDim S4096x4096 ![] bcast_S_S4096x4096 (constant S_ .f32 0x00000000#32))) s
    (mulf (broadcastInDim S4096x4096 ![] bcast_S_S4096x4096 (constant S_ .f32 0x3E4CCCCD#32)) s)

/-- The pairwise scores e = leaky_relu (f1 ⊕ f2ᵀ). -/
def escore (u : (⟨S4096x1, .f32⟩ : BufTy).Contents (Elt F)) (v : (⟨S4096x1, .f32⟩ : BufTy).Contents (Elt F)) : (⟨S4096x4096, .f32⟩ : BufTy).Contents (Elt F) :=
  leaky (esum u v)

/-- Masked scores: e where the mask is positive, else the finite stand-in -1e9. -/
def masked (M : (⟨S4096x4096, .f32⟩ : BufTy).Contents (Elt F)) (e : (⟨S4096x4096, .f32⟩ : BufTy).Contents (Elt F)) : (⟨S4096x4096, .f32⟩ : BufTy).Contents (Elt F) :=
  select (cmpf .ogt M (broadcastInDim S4096x4096 ![] bcast_S_S4096x4096 (constant S_ .f32 0x00000000#32))) e
    (broadcastInDim S4096x4096 ![] bcast_S_S4096x4096 (constant S_ .f32 0xCE6E6B28#32))

/-- The logits of the forward pass: masked by the adjacency itself. -/
def logits1 (A : (⟨S4096x4096, .f32⟩ : BufTy).Contents (Elt F)) (e : (⟨S4096x4096, .f32⟩ : BufTy).Contents (Elt F)) : (⟨S4096x4096, .f32⟩ : BufTy).Contents (Elt F) :=
  masked A e

/-- The logits of the reverse pass: masked by the adjacency's transpose. -/
def logits2 (A : (⟨S4096x4096, .f32⟩ : BufTy).Contents (Elt F)) (e : (⟨S4096x4096, .f32⟩ : BufTy).Contents (Elt F)) : (⟨S4096x4096, .f32⟩ : BufTy).Contents (Elt F) :=
  masked (transpose S4096x4096 [1, 0] A transposes_S4096x4096_S4096x4096_1_0) e

/-- Each row's maximum: the maximum-reduction along axis 1 from -∞, then once more against -∞. -/
def rowmax (L : (⟨S4096x4096, .f32⟩ : BufTy).Contents (Elt F)) : (⟨S4096, .f32⟩ : BufTy).Contents (Elt F) :=
  maximumf (broadcastInDim S4096 ![] bcast_S_S4096 (constant S_ .f32 0xFF800000#32))
    (Host.reduce FloatOps.maximumf L (constant S_ .f32 0xFF800000#32) reducesTo_S4096x4096_S4096_d1 h_S_)

/-- The shifted exponentials exp (L − rowmax). -/
def pexp (L : (⟨S4096x4096, .f32⟩ : BufTy).Contents (Elt F)) : (⟨S4096x4096, .f32⟩ : BufTy).Contents (Elt F) :=
  Host.exp (subf L (spreadRows (rowmax L)))

/-- Each row's sum of the shifted exponentials. -/
def rowsum (L : (⟨S4096x4096, .f32⟩ : BufTy).Contents (Elt F)) : (⟨S4096, .f32⟩ : BufTy).Contents (Elt F) :=
  Host.reduceAdd (pexp L) (constant S_ .f32 0x00000000#32) reducesTo_S4096x4096_S4096_d1 h_S_

/-- The attention weights: each row of shifted exponentials divided by its sum. -/
def alpha (L : (⟨S4096x4096, .f32⟩ : BufTy).Contents (Elt F)) : (⟨S4096x4096, .f32⟩ : BufTy).Contents (Elt F) :=
  Host.divf (pexp L) (spreadRows (rowsum L))

/-- One attention pass: the weights times the node features. -/
def attend (L : (⟨S4096x4096, .f32⟩ : BufTy).Contents (Elt F)) (H : (⟨S4096x128, .f32⟩ : BufTy).Contents (Elt F)) : (⟨S4096x128, .f32⟩ : BufTy).Contents (Elt F) :=
  Host.dotGeneral dot_S4096x4096_S4096x128_S4096x128_1_0_0_1_n_n none (alpha L) H

/-- Half the sum of the two passes, over the head count 1. -/
def combine (o1 o2 : (⟨S4096x128, .f32⟩ : BufTy).Contents (Elt F)) : (⟨S4096x128, .f32⟩ : BufTy).Contents (Elt F) :=
  Host.divf (mulf (broadcastInDim S4096x128 ![] bcast_S_S4096x128 (constant S_ .f32 0x3F000000#32)) (addf o1 o2))
    (broadcastInDim S4096x128 ![] bcast_S_S4096x128 (constant S_ .f32 0x3F800000#32))

/-- The reference's result array as one function of its six arguments (x, A, W, a1, a2, b). -/
def result (x : (⟨S4096x128, .f32⟩ : BufTy).Contents (Elt F)) (A : (⟨S4096x4096, .f32⟩ : BufTy).Contents (Elt F)) (W : (⟨S128x128, .f32⟩ : BufTy).Contents (Elt F)) (a1 a2 : (⟨S128x1, .f32⟩ : BufTy).Contents (Elt F)) (b : (⟨S128, .f32⟩ : BufTy).Contents (Elt F)) : (⟨S4096x128, .f32⟩ : BufTy).Contents (Elt F) :=
  combine
    (attend (logits1 A (escore (f1 (hfeat x W b) a1) (f2 (hfeat x W b) a2))) (hfeat x W b))
    (attend (logits2 A (escore (f1 (hfeat x W b) a1) (f2 (hfeat x W b) a2))) (hfeat x W b))

/-! ## What the buffers hold after the line -/

attribute [local irreducible] Host.reduce Host.reduceAdd in
set_option maxRecDepth 8192 in
set_option maxHeartbeats 4000000 in
/-- The fold at the result buffer is `result` of the argument buffers' contents: each operation's result at its own
    buffer is its function's value, at any other buffer what was there; the composed term is `result` with its stages'
    names opened (the typed references' transports are the identity at these literal references). -/
theorem res_eq (V : Valuation τ sig (Elt F)) :
    after ops V (main_v46 : DevRef τ sig)
      = result (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  simp only [result, combine, attend, alpha, rowsum, pexp, rowmax, spreadRows, logits1, logits2, masked, escore, leaky, esum,
    f1, f2, hfeat]
  rfl

set_option maxRecDepth 8192 in
/-- No operation writes an argument buffer. -/
theorem arg0_eq (V : Valuation τ sig (Elt F)) : after ops V (main_arg0 : DevRef τ sig) = (V (main_arg0 : DevRef τ sig)) := by
  after_results_simp

set_option maxRecDepth 8192 in
/-- No operation writes an argument buffer. -/
theorem arg1_eq (V : Valuation τ sig (Elt F)) : after ops V (main_arg1 : DevRef τ sig) = (V (main_arg1 : DevRef τ sig)) := by
  after_results_simp

set_option maxRecDepth 8192 in
/-- No operation writes an argument buffer. -/
theorem arg2_eq (V : Valuation τ sig (Elt F)) : after ops V (main_arg2 : DevRef τ sig) = (V (main_arg2 : DevRef τ sig)) := by
  after_results_simp

set_option maxRecDepth 8192 in
/-- No operation writes an argument buffer. -/
theorem arg3_eq (V : Valuation τ sig (Elt F)) : after ops V (main_arg3 : DevRef τ sig) = (V (main_arg3 : DevRef τ sig)) := by
  after_results_simp

set_option maxRecDepth 8192 in
/-- No operation writes an argument buffer. -/
theorem arg4_eq (V : Valuation τ sig (Elt F)) : after ops V (main_arg4 : DevRef τ sig) = (V (main_arg4 : DevRef τ sig)) := by
  after_results_simp

set_option maxRecDepth 8192 in
/-- No operation writes an argument buffer. -/
theorem arg5_eq (V : Valuation τ sig (Elt F)) : after ops V (main_arg5 : DevRef τ sig) = (V (main_arg5 : DevRef τ sig)) := by
  after_results_simp

/-! ## The run -/

/-- On every device, for any float values, from any memory with zero counters: every weakly fair execution of @main
    terminates with the result buffer at `result` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v46) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v46).trans (res_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

/-- The frame alone: the program runs to its end, faults nowhere, and leaves its six arguments as they were. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.ReferenceIdeal.RefRun

end
-- ==== Proof.Frames.lean ====
/-
  The three programs run to their end and leave their six argument arrays as launched.

  Each program's run is proved elsewhere with its result array named as the first conjunct of what holds at the end;
  that the arguments are unchanged are the remaining conjuncts. Forgetting the first conjunct leaves exactly the
  statement that the program terminates, faults nowhere, and returns its arguments untouched. The array program's
  run already comes in that form.
-/
import proofs.«153251_g30992484008437_cont_sun_m_229_4_alg».proof.Defs
import proofs.«153251_g30992484008437_cont_sun_m_229_4_alg».proof.Proof.Gen.Kernel
import proofs.«153251_g30992484008437_cont_sun_m_229_4_alg».proof.Proof.Gen.KernelIdeal
import proofs.«153251_g30992484008437_cont_sun_m_229_4_alg».proof.Proof.Gen.ReferenceIdeal
import proofs.«153251_g30992484008437_cont_sun_m_229_4_alg».proof.Proof.Gen.Pre_finite_inputs
import proofs.«153251_g30992484008437_cont_sun_m_229_4_alg».proof.Proof.KRun
import proofs.«153251_g30992484008437_cont_sun_m_229_4_alg».proof.Proof.KiRun
import proofs.«153251_g30992484008437_cont_sun_m_229_4_alg».proof.Proof.RefRun

noncomputable section

namespace Cert.Frames

open Idealize.ShloMosaic Idealize.SL.Sem

/-- The array program, at the exact values: its run with the result dropped. -/
theorem frame_ReferenceIdeal : Cert.frame_ReferenceIdeal :=
  fun m ρ _ => Cert.ReferenceIdeal.RefRun.frame (F := Ideal) m ρ

/-- The fused program at the exact values: its run with the result array forgotten. -/
theorem frame_KernelIdeal : Cert.frame_KernelIdeal :=
  fun m ρ _ => (θ_run Cert.KernelIdeal.defs _ _).mono (fun _ h c => (h c).2) (Cert.KernelIdeal.Hand.run_main (F := Ideal) m ρ)

/-- The fused program on machine words: the same run at the word-level values, the result array forgotten. -/
theorem frame_Kernel : Cert.frame_Kernel :=
  fun m ρ _ => (θ_run Cert.Kernel.defs _ _).mono (fun _ h c => (h c).2) (Cert.Kernel.Hand.run_main (F := Bits) m ρ)

end Cert.Frames

end
-- ==== Proof.Spec.lean ====
/-
  Single-head dense graph attention with reverse diffusion, as ONE function of the six argument arrays, entry by entry,
  on the extended reals — the function both programs compute.

  With  H = x·W + b  (a bias row added to every row),  f₁ = H·a₁,  f₂ = H·a₂,  the score of the pair (i, j) is
  e(i, j) = leaky(f₁ i + f₂ j),  where  leaky s = s  for  0 ≤ s  and  slope·s  otherwise.  An attend over a mask M keeps the
  score where the mask is positive and puts the large negative fill elsewhere,  l(i, j) = if 0 < M(i, j) then e(i, j) else fill,
  takes the row-wise soft maximum  α(i, j) = exp(l(i, j) − maxⱼ l(i, j)) / Σⱼ exp(l(i, j) − maxⱼ l(i, j))  and returns  α·H.
  The result is half the sum of the attend over the adjacency A and the attend over its transpose.

  The two programs differ in ONE arrangement: one normalises the weights before the product with H
  (`attendN`:  Σⱼ (pⱼ / s)·Hⱼ), the other divides the product by the row sum afterwards (`attendD`:  (Σⱼ pⱼ·Hⱼ) / s).
  Both forms are stated here, over plain functions of coordinates; that they agree on finite entries is proved in
  the module of laws.
-/
import Idealize.ShloMosaic.PureOps.Ideal
import Idealize.ShloMosaic.Lib.ValueIdx

noncomputable section

open scoped BigOperators

namespace Cert.Spec

open Idealize.ShloMosaic Idealize.ShloMosaic.ValueIdx

/-- The three float literals both programs spell with the same words: the slope 0.2, the fill −10⁹, one half. -/
def slope : EReal := Ideal.ofBits .f32 0x3E4CCCCD#32
def fill : EReal := Ideal.ofBits .f32 0xCE6E6B28#32
def half : EReal := Ideal.ofBits .f32 0x3F000000#32

/-- A rank-2 array read by its two coordinates, a rank-1 array by its one, a one-column matrix by its row. -/
def m2 {n0 n1 : Nat} (X : (⟨2, ![n0, n1]⟩ : Shape).Idx → EReal) (i : Fin n0) (j : Fin n1) : EReal := X (ix2 i j)
def v1 {n : Nat} (X : (⟨1, ![n]⟩ : Shape).Idx → EReal) (i : Fin n) : EReal := X (ix1 i)
def col {n : Nat} (X : (⟨2, ![n, 1]⟩ : Shape).Idx → EReal) (i : Fin n) : EReal := X (ix2 i (0 : Fin 1))
def row {n : Nat} (X : (⟨2, ![1, n]⟩ : Shape).Idx → EReal) (j : Fin n) : EReal := X (ix2 (0 : Fin 1) j)

section

variable (x : Fin 4096 → Fin 128 → EReal) (A : Fin 4096 → Fin 4096 → EReal) (W : Fin 128 → Fin 128 → EReal)
  (a1 a2 : Fin 128 → EReal) (b : Fin 128 → EReal)

/-- The transformed features  H = x·W + b. -/
def hfeat (i : Fin 4096) (f : Fin 128) : EReal := (∑ k : Fin 128, x i k * W k f) + b f

/-- A row of features against a coefficient vector:  (H·a) i. -/
def proj (a : Fin 128 → EReal) (i : Fin 4096) : EReal := ∑ k : Fin 128, hfeat x W b i k * a k

/-- The leaky rectifier with the programs' slope. -/
def leaky (s : EReal) : EReal := if 0 ≤ s then s else slope * s

/-- The score of the pair (i, j). -/
def escore (i j : Fin 4096) : EReal := leaky (proj x W b a1 i + proj x W b a2 j)

/-- A score kept where the mask entry is positive, the fill elsewhere. -/
def masked (a e : EReal) : EReal := if 0 < a then e else fill

/-- The logits over any mask M from any two score vectors:  l(i, j) = masked (M i j) (leaky (u i + v j)). -/
def logitsOf (M : Fin 4096 → Fin 4096 → EReal) (u v : Fin 4096 → EReal) (i j : Fin 4096) : EReal :=
  masked (M i j) (leaky (u i + v j))

/-- The logits of the attend over the adjacency, and over its transpose. -/
def logitsA (i j : Fin 4096) : EReal := masked (A i j) (escore x W a1 a2 b i j)
def logitsT (i j : Fin 4096) : EReal := masked (A j i) (escore x W a1 a2 b i j)

/-- Both are `logitsOf` of the two projections, over the adjacency and over its transpose. -/
theorem logitsA_eq : logitsA x A W a1 a2 b = logitsOf A (proj x W b a1) (proj x W b a2) := rfl
theorem logitsT_eq : logitsT x A W a1 a2 b = logitsOf (fun i j => A j i) (proj x W b a1) (proj x W b a2) := rfl

end

section

variable (l : Fin 4096 → Fin 4096 → EReal) (H : Fin 4096 → Fin 128 → EReal)

/-- A row's largest logit, the shifted exponentials, their row sum. -/
def rowmax (i : Fin 4096) : EReal := ⨆ j : Fin 4096, l i j
def pexp (i j : Fin 4096) : EReal := Ideal.exp (l i j - rowmax l i)
def rowsum (i : Fin 4096) : EReal := ∑ j : Fin 4096, pexp l i j

/-- The attend with the weights NORMALISED FIRST:  Σⱼ (pⱼ / s)·H(j, f). -/
def attendN (i : Fin 4096) (f : Fin 128) : EReal := ∑ j : Fin 4096, Ideal.div (pexp l i j) (rowsum l i) * H j f

/-- The attend DIVIDED AFTERWARDS:  (Σⱼ pⱼ·H(j, f)) / s. -/
def attendD (i : Fin 4096) (f : Fin 128) : EReal := Ideal.div (∑ j : Fin 4096, pexp l i j * H j f) (rowsum l i)

end

section

variable (x : Fin 4096 → Fin 128 → EReal) (A : Fin 4096 → Fin 4096 → EReal) (W : Fin 128 → Fin 128 → EReal)
  (a1 a2 : Fin 128 → EReal) (b : Fin 128 → EReal)

/-- The result with normalised weights and the closing quotient by one: the arrangement of the plain array program. -/
def outN (i : Fin 4096) (f : Fin 128) : EReal :=
  Ideal.div (half * (attendN (logitsA x A W a1 a2 b) (hfeat x W b) i f + attendN (logitsT x A W a1 a2 b) (hfeat x W b) i f)) 1

/-- The result with the quotient after the product: the arrangement of the fused program. -/
def outD (i : Fin 4096) (f : Fin 128) : EReal :=
  half * (attendD (logitsA x A W a1 a2 b) (hfeat x W b) i f + attendD (logitsT x A W a1 a2 b) (hfeat x W b) i f)

end

/-! ## The comparisons' words as conditions -/

/-- A select on "greater or equal" is the `if` on `≤`. -/
theorem select_oge {α : Type} (s t : EReal) (u v : α) :
    Scalar.select (Ideal.cmp .oge s t) u v = if t ≤ s then u else v := by
  unfold Scalar.select Ideal.cmp
  by_cases h : t ≤ s <;> simp [h]

/-- A select on "greater" is the `if` on `<`. -/
theorem select_ogt {α : Type} (s t : EReal) (u v : α) :
    Scalar.select (Ideal.cmp .ogt s t) u v = if t < s then u else v := by
  unfold Scalar.select Ideal.cmp
  by_cases h : t < s <;> simp [h]

end Cert.Spec

end
-- ==== Proof.SpecLaws.lean ====
/-
  The law that joins the two arrangements of the attend, and the finiteness that carries it.

  On finite real entries every intermediate of the attend is a finite real: the features are finite sums of products
  of reals, the scores are a piecewise-linear function of reals, the masked logits choose between a score and a real
  fill, the row maximum of a nonempty finite family of reals is attained, the shifted exponentials are positive reals
  and so is their row sum.  With a nonzero real row sum  s  both quotients are products with the real  1/s,  and
  (Σⱼ pⱼ·Hⱼ)·(1/s) = Σⱼ (pⱼ·(1/s))·Hⱼ  is distributivity in ℝ.  The closing quotient by one is the identity.
-/
import proofs.«153251_g30992484008437_cont_sun_m_229_4_alg».proof.Proof.Spec

noncomputable section

open scoped BigOperators

namespace Cert.Spec

open Idealize.ShloMosaic

/-! ## Finite reals inside the extended reals -/

/-- An extended real that is the image of a real. -/
def IsReal (z : EReal) : Prop := ∃ r : ℝ, z = (r : EReal)

theorem IsReal.add {a b : EReal} (ha : IsReal a) (hb : IsReal b) : IsReal (a + b) := by
  obtain ⟨r, rfl⟩ := ha; obtain ⟨t, rfl⟩ := hb
  exact ⟨r + t, (EReal.coe_add r t).symm⟩

theorem IsReal.mul {a b : EReal} (ha : IsReal a) (hb : IsReal b) : IsReal (a * b) := by
  obtain ⟨r, rfl⟩ := ha; obtain ⟨t, rfl⟩ := hb
  exact ⟨r * t, (EReal.coe_mul r t).symm⟩

/-- The coercion of a finite real sum is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsReal.sum {ι : Type*} (s : Finset ι) (g : ι → EReal) (h : ∀ i, IsReal (g i)) : IsReal (∑ i ∈ s, g i) := by
  choose r hr using h
  refine ⟨∑ i ∈ s, r i, ?_⟩
  rw [coe_sum]
  exact Finset.sum_congr rfl fun i _ => hr i

/-- The supremum of a nonempty finite family of reals is attained, hence a real. -/
theorem iSup_coe_real {ι : Type*} [Fintype ι] [Nonempty ι] (g : ι → ℝ) :
    ∃ r : ℝ, (⨆ i, (g i : EReal)) = (r : EReal) := by
  obtain ⟨i0, -, hi0⟩ := Finset.exists_max_image Finset.univ g Finset.univ_nonempty
  refine ⟨g i0, le_antisymm (iSup_le fun i => ?_) (le_iSup (fun i => (g i : EReal)) i0)⟩
  exact EReal.coe_le_coe_iff.2 (hi0 i (Finset.mem_univ _))

/-- A single-precision word whose exponent field is not all ones denotes a real. -/
theorem ieee_f32_real (w : BitVec 32) (h : (w.extractLsb' 23 8).toNat ≠ 2 ^ 8 - 1) :
    IsReal (Ideal.ofBits .f32 w) := by
  unfold Ideal.ofBits Ideal.ieee
  simp only
  rw [if_neg h]
  split_ifs <;> exact ⟨_, rfl⟩

theorem slope_real : IsReal slope := ieee_f32_real _ (by decide)
theorem fill_real : IsReal fill := ieee_f32_real _ (by decide)
theorem half_real : IsReal half := ieee_f32_real _ (by decide)

/-! ## The pieces of the score are finite reals -/

section

variable (x : Fin 4096 → Fin 128 → EReal) (A : Fin 4096 → Fin 4096 → EReal) (W : Fin 128 → Fin 128 → EReal)
  (a1 a2 : Fin 128 → EReal) (b : Fin 128 → EReal)

theorem hfeat_real (hx : ∀ i k, IsReal (x i k)) (hW : ∀ k f, IsReal (W k f)) (hb : ∀ f, IsReal (b f))
    (i : Fin 4096) (f : Fin 128) : IsReal (hfeat x W b i f) :=
  (IsReal.sum _ _ fun k => (hx i k).mul (hW k f)).add (hb f)

theorem proj_real (hx : ∀ i k, IsReal (x i k)) (hW : ∀ k f, IsReal (W k f)) (hb : ∀ f, IsReal (b f))
    (a : Fin 128 → EReal) (ha : ∀ k, IsReal (a k)) (i : Fin 4096) : IsReal (proj x W b a i) :=
  IsReal.sum _ _ fun k => (hfeat_real x W b hx hW hb i k).mul (ha k)

theorem leaky_real {s : EReal} (hs : IsReal s) : IsReal (leaky s) := by
  unfold leaky
  split_ifs
  · exact hs
  · exact slope_real.mul hs

theorem masked_real (a : EReal) {e : EReal} (he : IsReal e) : IsReal (masked a e) := by
  unfold masked
  split_ifs
  · exact he
  · exact fill_real

theorem escore_real (hx : ∀ i k, IsReal (x i k)) (hW : ∀ k f, IsReal (W k f)) (ha1 : ∀ k, IsReal (a1 k))
    (ha2 : ∀ k, IsReal (a2 k)) (hb : ∀ f, IsReal (b f)) (i j : Fin 4096) : IsReal (escore x W a1 a2 b i j) :=
  leaky_real ((proj_real x W b hx hW hb a1 ha1 i).add (proj_real x W b hx hW hb a2 ha2 j))

end

/-! ## The two arrangements of a weighted sum over a nonzero total -/

/-- With a nonzero real total, the quotient of the weighted sum is the sum weighted by the quotients. -/
theorem div_sum_eq_sum_div {ι : Type*} (s : Finset ι) (p h : ι → ℝ) (t : ℝ) (ht : t ≠ 0) :
    Ideal.div (∑ j ∈ s, (p j : EReal) * (h j : EReal)) (t : EReal)
      = ∑ j ∈ s, Ideal.div (p j : EReal) (t : EReal) * (h j : EReal) := by
  rw [Ideal.div_coe ht]
  have e1 : ∀ j, Ideal.div (p j : EReal) (t : EReal) * (h j : EReal) = ((p j * (1 / t) * h j : ℝ) : EReal) := by
    intro j
    rw [Ideal.div_coe ht, ← EReal.coe_mul, ← EReal.coe_mul]
  have e2 : ∀ j, (p j : EReal) * (h j : EReal) = ((p j * h j : ℝ) : EReal) := fun j => (EReal.coe_mul _ _).symm
  rw [Finset.sum_congr rfl fun j _ => e1 j, Finset.sum_congr rfl fun j _ => e2 j, ← coe_sum, ← coe_sum,
    ← EReal.coe_mul, Finset.sum_mul]
  exact congrArg _ (Finset.sum_congr rfl fun j _ => by ring)

/-- The attend over real logits and real features: dividing afterwards is normalising first. -/
theorem attendD_eq_attendN (l : Fin 4096 → Fin 4096 → EReal) (H : Fin 4096 → Fin 128 → EReal)
    (hl : ∀ i j, IsReal (l i j)) (hH : ∀ j f, IsReal (H j f)) (i : Fin 4096) (f : Fin 128) :
    attendD l H i f = attendN l H i f := by
  choose lr hlr using hl
  choose Hr hHr using hH
  -- the row maximum is a real
  obtain ⟨m, hm⟩ : ∃ m : ℝ, rowmax l i = (m : EReal) := by
    have e : rowmax l i = ⨆ j, ((lr i j : ℝ) : EReal) := by
      unfold rowmax
      exact congrArg _ (funext fun j => hlr i j)
    rw [e]
    exact iSup_coe_real _
  -- the shifted exponentials are positive reals
  have hp : ∀ j, pexp l i j = ((Real.exp (lr i j - m) : ℝ) : EReal) := by
    intro j
    unfold pexp
    rw [hm, hlr i j, ← EReal.coe_sub]
    rfl
  -- their sum is a positive real
  have hs : rowsum l i = ((∑ j, Real.exp (lr i j - m) : ℝ) : EReal) := by
    unfold rowsum
    rw [coe_sum]
    exact Finset.sum_congr rfl fun j _ => hp j
  have hpos : (∑ j : Fin 4096, Real.exp (lr i j - m)) ≠ 0 :=
    ne_of_gt (Finset.sum_pos (fun j _ => Real.exp_pos _) Finset.univ_nonempty)
  unfold attendD attendN
  rw [hs]
  rw [Finset.sum_congr rfl fun j _ => show pexp l i j * H j f = ((Real.exp (lr i j - m) : ℝ) : EReal) * ((Hr j f : ℝ) : EReal) by
    rw [hp j, hHr j f]]
  rw [Finset.sum_congr rfl fun j _ => show Ideal.div (pexp l i j) _ * H j f
      = Ideal.div ((Real.exp (lr i j - m) : ℝ) : EReal) ((∑ j, Real.exp (lr i j - m) : ℝ) : EReal) * ((Hr j f : ℝ) : EReal) by
    rw [hp j, hHr j f]]
  exact div_sum_eq_sum_div _ _ _ _ hpos

/-- The quotient by one is the identity. -/
theorem div_one' (z : EReal) : Ideal.div z 1 = z := by
  have h := Ideal.div_coe (y := 1) one_ne_zero z
  rw [EReal.coe_one, one_div_one, EReal.coe_one, mul_one] at h
  exact h

/-! ## The law -/

theorem outD_eq_outN (x : Fin 4096 → Fin 128 → EReal) (A : Fin 4096 → Fin 4096 → EReal) (W : Fin 128 → Fin 128 → EReal)
    (a1 a2 : Fin 128 → EReal) (b : Fin 128 → EReal)
    (hx : ∀ i k, ∃ r : ℝ, x i k = (r : EReal)) (hA : ∀ i j, ∃ r : ℝ, A i j = (r : EReal))
    (hW : ∀ k f, ∃ r : ℝ, W k f = (r : EReal)) (ha1 : ∀ k, ∃ r : ℝ, a1 k = (r : EReal))
    (ha2 : ∀ k, ∃ r : ℝ, a2 k = (r : EReal)) (hb : ∀ f, ∃ r : ℝ, b f = (r : EReal))
    (i : Fin 4096) (f : Fin 128) : outD x A W a1 a2 b i f = outN x A W a1 a2 b i f := by
  have hH : ∀ j f, IsReal (hfeat x W b j f) := hfeat_real x W b hx hW hb
  have hlA : ∀ i j, IsReal (logitsA x A W a1 a2 b i j) := fun i j =>
    masked_real _ (escore_real x W a1 a2 b hx hW ha1 ha2 hb i j)
  have hlT : ∀ i j, IsReal (logitsT x A W a1 a2 b i j) := fun i j =>
    masked_real _ (escore_real x W a1 a2 b hx hW ha1 ha2 hb i j)
  unfold outD outN
  rw [div_one', attendD_eq_attendN _ _ hlA hH, attendD_eq_attendN _ _ hlT hH]

end Cert.Spec

end
-- ==== Proof.LibReduceInf.lean ====
/-
  Minimum and maximum reductions read at the extended reals as infimum and supremum.

  At the exact values a float minimum is `min` and a float maximum is `max` on the extended reals, the
  pattern of `+∞` is the top element and the pattern of `-∞` the bottom. A fold of `min` from the top over
  a finite set is therefore the infimum over the set, and a fold of `max` from the bottom the supremum.
  The lemmas below say so of a host reduction and of a kernel's vector reduction, over the set of source
  indices that reduce to a result index, over all source indices when every result axis has size one,
  and over the coordinates of the one reduced axis.
-/
import Idealize.ShloMosaic.PureOps.Ideal
import Idealize.ShloMosaic.PureOps.Ideal.Laws
import Idealize.ShloMosaic.PureOps.Reduce
import Idealize.ShloMosaic.Lib.ValueIdx
import Mathlib.Order.CompleteLattice.Finset

noncomputable section

namespace Cert.LibReduceInf

open Idealize.ShloMosaic Idealize.ShloMosaic.ValueIdx

/-- The binary32 pattern of `+∞` denotes the top extended real. -/
theorem ofBits_posInf_f32 : Ideal.ofBits .f32 0x7F800000#32 = ⊤ := by
  simp [Ideal.ofBits, Ideal.ieee]

/-- The binary32 pattern of `-∞` denotes the bottom extended real. -/
theorem ofBits_negInf_f32 : Ideal.ofBits .f32 0xFF800000#32 = ⊥ := by
  simp [Ideal.ofBits, Ideal.ieee]

/-- A fold from the top element of an operation that is `min` is the infimum over the set. -/
theorem fold_eq_inf {ι : Type} (op : EReal → EReal → EReal) [Std.Commutative op] [Std.Associative op]
    (hop : ∀ x y, op x y = min x y) (S : Finset ι) (f : ι → EReal) : S.fold op ⊤ f = S.inf f := by
  induction S using Finset.cons_induction with
  | empty => simp
  | cons a S ha ih => rw [Finset.fold_cons, Finset.inf_cons, ih, hop]

/-- A fold from the bottom element of an operation that is `max` is the supremum over the set. -/
theorem fold_eq_sup {ι : Type} (op : EReal → EReal → EReal) [Std.Commutative op] [Std.Associative op]
    (hop : ∀ x y, op x y = max x y) (S : Finset ι) (f : ι → EReal) : S.fold op ⊥ f = S.sup f := by
  induction S using Finset.cons_induction with
  | empty => simp
  | cons a S ha ih => rw [Finset.fold_cons, Finset.sup_cons, ih, hop]

/-! ## The host's reduction -/

/-- A host reduction with a minimum body from `+∞`, at a result index: the infimum over the set of
    source indices that reduce to it. -/
theorem hostReduce_minimumf_eq_inf {s t u : Shape} {axes : List (Fin s.rank)} (x : s.Idx → EReal)
    (h : s.ReducesTo axes t) (hu : 0 < u.numel) (j : t.Idx) :
    Host.reduce (FloatOps.minimumf (F := Ideal) (φ := .f32)) x (constant (F := Ideal) u .f32 0x7F800000#32) h hu j
      = (Finset.univ.filter fun i => h.drop i = j).inf x := by
  rw [Host.reduce_eq_fold]
  show Finset.fold _ (Ideal.ofBits .f32 0x7F800000#32) x _ = _
  rw [ofBits_posInf_f32, fold_eq_inf (FloatOps.minimumf (F := Ideal) (φ := .f32)) (fun _ _ => rfl)]

/-- A host reduction with a maximum body from `-∞`, at a result index: the supremum over the set of
    source indices that reduce to it. -/
theorem hostReduce_maximumf_eq_sup {s t u : Shape} {axes : List (Fin s.rank)} (x : s.Idx → EReal)
    (h : s.ReducesTo axes t) (hu : 0 < u.numel) (j : t.Idx) :
    Host.reduce (FloatOps.maximumf (F := Ideal) (φ := .f32)) x (constant (F := Ideal) u .f32 0xFF800000#32) h hu j
      = (Finset.univ.filter fun i => h.drop i = j).sup x := by
  rw [Host.reduce_eq_fold]
  show Finset.fold _ (Ideal.ofBits .f32 0xFF800000#32) x _ = _
  rw [ofBits_negInf_f32, fold_eq_sup (FloatOps.maximumf (F := Ideal) (φ := .f32)) (fun _ _ => rfl)]

/-- Into a shape whose every axis has size one every source index reduces to the one result index. -/
theorem filter_drop_eq_univ {s t : Shape} {axes : List (Fin s.rank)} (h : s.ReducesTo axes t)
    (ht : ∀ b, t.size b = 1) (j : t.Idx) : (Finset.univ.filter fun i => h.drop i = j) = Finset.univ :=
  Finset.filter_true_of_mem fun i _ => funext fun b => Fin.ext (by
    have := (h.drop i b).isLt; have := (j b).isLt; have := ht b; omega)

/-- A host reduction with a minimum body from `+∞` into a shape whose every axis has size one (a full
    reduction to rank zero, where the size hypothesis is vacuous): the infimum of the whole operand. -/
theorem hostReduce_minimumf_total {s t u : Shape} {axes : List (Fin s.rank)} (x : s.Idx → EReal)
    (h : s.ReducesTo axes t) (ht : ∀ b, t.size b = 1) (hu : 0 < u.numel) :
    Host.reduce (FloatOps.minimumf (F := Ideal) (φ := .f32)) x (constant (F := Ideal) u .f32 0x7F800000#32) h hu
      = fun _ => ⨅ i, x i := by
  funext j
  rw [hostReduce_minimumf_eq_inf, filter_drop_eq_univ h ht, Finset.inf_univ_eq_iInf]

/-- A host reduction with a maximum body from `-∞` into a shape whose every axis has size one: the
    supremum of the whole operand. -/
theorem hostReduce_maximumf_total {s t u : Shape} {axes : List (Fin s.rank)} (x : s.Idx → EReal)
    (h : s.ReducesTo axes t) (ht : ∀ b, t.size b = 1) (hu : 0 < u.numel) :
    Host.reduce (FloatOps.maximumf (F := Ideal) (φ := .f32)) x (constant (F := Ideal) u .f32 0xFF800000#32) h hu
      = fun _ => ⨆ i, x i := by
  funext j
  rw [hostReduce_maximumf_eq_sup, filter_drop_eq_univ h ht, Finset.sup_univ_eq_iSup]

/-! ## A kernel's vector reduction -/

/-- A kernel's minimum reduction from `+∞`, at a result index: the infimum over the set of source
    indices that reduce to it. -/
theorem multiReduction_minimumf_eq_inf {s t : Shape} {axes : List (Fin s.rank)} (src : FVec Ideal s .f32)
    (h : s.Reduces axes t) (hφ : FKind.Formats .f32) (hacc : (0x7F800000#32 : BitVec 32) = 0x7F800000#32) (j : t.Idx) :
    multiReduction (F := Ideal) .minimumf axes t src 0x7F800000#32 h hφ hacc j
      = (Finset.univ.filter fun i => h.drop i = j).inf src := by
  refine (multiReduction_minimumf_eq_fold src 0x7F800000#32 h hφ hacc j).trans ?_
  show Finset.fold _ (Ideal.ofBits .f32 0x7F800000#32) src _ = _
  rw [ofBits_posInf_f32, fold_eq_inf (FloatOps.minimumf (F := Ideal) (φ := .f32)) (fun _ _ => rfl)]

/-- A kernel's maximum reduction from `-∞`, at a result index: the supremum over the set of source
    indices that reduce to it. -/
theorem multiReduction_maximumf_eq_sup {s t : Shape} {axes : List (Fin s.rank)} (src : FVec Ideal s .f32)
    (h : s.Reduces axes t) (hφ : FKind.Formats .f32) (hacc : (0xFF800000#32 : BitVec 32) = 0xFF800000#32) (j : t.Idx) :
    multiReduction (F := Ideal) .maximumf axes t src 0xFF800000#32 h hφ hacc j
      = (Finset.univ.filter fun i => h.drop i = j).sup src := by
  refine (multiReduction_maximumf_eq_fold src 0xFF800000#32 h hφ hacc j).trans ?_
  show Finset.fold _ (Ideal.ofBits .f32 0xFF800000#32) src _ = _
  rw [ofBits_negInf_f32, fold_eq_sup (FloatOps.maximumf (F := Ideal) (φ := .f32)) (fun _ _ => rfl)]

/-- A kernel's minimum reduction over ONE axis from `+∞`, at a result index `j`: the infimum over that
    axis's coordinates `k` of the source at `j` with `k` inserted. -/
theorem multiReduction_minimumf_single {s t : Shape} {a : Fin s.rank} (src : FVec Ideal s .f32)
    (h : s.Reduces [a] t) (hφ : FKind.Formats .f32) (hacc : (0x7F800000#32 : BitVec 32) = 0x7F800000#32) (j : t.Idx) :
    multiReduction (F := Ideal) .minimumf [a] t src 0x7F800000#32 h hφ hacc j
      = ⨅ k : Fin (s.size a), src (h.lift j k) := by
  refine (multiReduction_minimumf_eq_fold src 0x7F800000#32 h hφ hacc j).trans ?_
  rw [h.fold_filter_drop_single]
  show Finset.fold _ (Ideal.ofBits .f32 0x7F800000#32) _ _ = _
  rw [ofBits_posInf_f32, fold_eq_inf (FloatOps.minimumf (F := Ideal) (φ := .f32)) (fun _ _ => rfl), Finset.inf_univ_eq_iInf]
  rfl

/-- A kernel's maximum reduction over ONE axis from `-∞`, at a result index `j`: the supremum over that
    axis's coordinates `k` of the source at `j` with `k` inserted. -/
theorem multiReduction_maximumf_single {s t : Shape} {a : Fin s.rank} (src : FVec Ideal s .f32)
    (h : s.Reduces [a] t) (hφ : FKind.Formats .f32) (hacc : (0xFF800000#32 : BitVec 32) = 0xFF800000#32) (j : t.Idx) :
    multiReduction (F := Ideal) .maximumf [a] t src 0xFF800000#32 h hφ hacc j
      = ⨆ k : Fin (s.size a), src (h.lift j k) := by
  refine (multiReduction_maximumf_eq_fold src 0xFF800000#32 h hφ hacc j).trans ?_
  rw [h.fold_filter_drop_single]
  show Finset.fold _ (Ideal.ofBits .f32 0xFF800000#32) _ _ = _
  rw [ofBits_negInf_f32, fold_eq_sup (FloatOps.maximumf (F := Ideal) (φ := .f32)) (fun _ _ => rfl), Finset.sup_univ_eq_iSup]
  rfl

end Cert.LibReduceInf

end
-- ==== Proof.RefRead.lean ====
/-
  The plain array program's result, read entry by entry.

  The result of the straight line of host tensor operations is a chain of stages: the features H = x·W + b, the
  two score vectors H·a₁ and H·a₂, the pairwise scores, the masked logits over the adjacency and over its transpose,
  each row's maximum, the shifted exponentials, their row sums, the normalised weights, the product of the weights
  with H, and the closing half-sum over one.  Each stage is read here at one entry (i, j) of its array: a matrix
  product with one contracted axis is the sum over that axis of the products of the entries, a broadcast and a
  transpose read one entry of their operand, a compare-and-select is an `if`, a maximum-reduction from −∞ is the
  supremum over the row, a sum-reduction from zero is the sum over the row.  Put together, entry (i, f) of the result
  is the specification's `outN`: the weights are normalised BEFORE the product with H, and the whole is divided by one.
-/
import proofs.«153251_g30992484008437_cont_sun_m_229_4_alg».proof.Proof.RefRun
import proofs.«153251_g30992484008437_cont_sun_m_229_4_alg».proof.Proof.Spec
import proofs.«153251_g30992484008437_cont_sun_m_229_4_alg».proof.Proof.SpecLaws
import proofs.«153251_g30992484008437_cont_sun_m_229_4_alg».proof.Proof.LibReduceInf
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.StackMember

noncomputable section

open scoped BigOperators

namespace Cert.ReferenceIdeal.RefRead

open Cert.ReferenceIdeal Cert.ReferenceIdeal.Gen Idealize.ShloMosaic Idealize.ShloMosaic.ValueIdx

/-! ## Broadcasts, the transpose and the scalar constants at an entry -/

/-- A scalar constant spread over any shape reads the value its word denotes. -/
theorem splat_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- A per-row vector spread along the rows: entry (i, j) is the vector's entry i. -/
theorem spreadRows_apply (r : S4096.Idx → EReal) (i j : Fin 4096) :
    RefRun.spreadRows (F := Ideal) r (ix2 i j) = r (ix1 i) := by
  unfold RefRun.spreadRows
  refine (broadcastInDim_apply _ _ _ (ix2 i j) (ix2 i (0 : Fin 1))
    (fun a => match a with | ⟨0, _⟩ => rfl | ⟨1, _⟩ => rfl)).trans ?_
  exact broadcastInDim_apply _ _ r (ix2 i (0 : Fin 1)) (ix1 i) (fun a => match a with | ⟨0, _⟩ => rfl)

/-! ## The features and the two score vectors -/

/-- The features at (i, f): the sum over the contracted axis plus the bias entry f. -/
theorem hfeat_apply (x : S4096x128.Idx → EReal) (W : S128x128.Idx → EReal) (b : S128.Idx → EReal)
    (i : Fin 4096) (f : Fin 128) :
    RefRun.hfeat (F := Ideal) x W b (ix2 i f) = Spec.hfeat (Spec.m2 x) (Spec.m2 W) (Spec.v1 b) i f := by
  unfold RefRun.hfeat
  rw [addf_apply]
  show _ + _ = (∑ k : Fin 128, x (ix2 i k) * W (ix2 k f)) + b (ix1 f)
  refine congrArg₂ (· + ·) ?_ ?_
  · exact StackMember.dotGeneral_plain_apply none x W i f
  · refine (broadcastInDim_apply _ _ _ (ix2 i f) (ix2 (0 : Fin 1) f)
      (fun a => match a with | ⟨0, _⟩ => rfl | ⟨1, _⟩ => rfl)).trans ?_
    exact broadcastInDim_apply _ _ b (ix2 (0 : Fin 1) f) (ix1 f) (fun a => match a with | ⟨0, _⟩ => rfl)

/-- The features as a function of the two coordinates. -/
theorem hfeat_m2 (x : S4096x128.Idx → EReal) (W : S128x128.Idx → EReal) (b : S128.Idx → EReal) :
    Spec.m2 (RefRun.hfeat (F := Ideal) x W b) = Spec.hfeat (Spec.m2 x) (Spec.m2 W) (Spec.v1 b) :=
  funext fun i => funext fun f => hfeat_apply x W b i f

/-- A score vector at row i: the features' row i against the coefficient column. -/
theorem f1_apply (x : S4096x128.Idx → EReal) (W : S128x128.Idx → EReal) (b : S128.Idx → EReal)
    (a : S128x1.Idx → EReal) (i : Fin 4096) :
    RefRun.f1 (F := Ideal) (RefRun.hfeat (F := Ideal) x W b) a (ix2 i (0 : Fin 1))
      = Spec.proj (Spec.m2 x) (Spec.m2 W) (Spec.v1 b) (Spec.col a) i := by
  unfold RefRun.f1
  refine (StackMember.dotGeneral_plain_apply none (RefRun.hfeat (F := Ideal) x W b) a i (0 : Fin 1)).trans ?_
  show _ = ∑ k : Fin 128, Spec.hfeat (Spec.m2 x) (Spec.m2 W) (Spec.v1 b) i k * a (ix2 k (0 : Fin 1))
  exact Finset.sum_congr rfl fun k _ => congrArg (· * a (ix2 k (0 : Fin 1))) (hfeat_apply x W b i k)

/-- The second score vector is the same product against the other column. -/
theorem f2_apply (x : S4096x128.Idx → EReal) (W : S128x128.Idx → EReal) (b : S128.Idx → EReal)
    (a : S128x1.Idx → EReal) (i : Fin 4096) :
    RefRun.f2 (F := Ideal) (RefRun.hfeat (F := Ideal) x W b) a (ix2 i (0 : Fin 1))
      = Spec.proj (Spec.m2 x) (Spec.m2 W) (Spec.v1 b) (Spec.col a) i :=
  f1_apply x W b a i

/-! ## The pairwise scores and the masked logits -/

/-- The raw pairwise sum at (i, j): the first vector's entry i plus the second's entry j. -/
theorem esum_apply (u v : S4096x1.Idx → EReal) (i j : Fin 4096) :
    RefRun.esum (F := Ideal) u v (ix2 i j) = u (ix2 i (0 : Fin 1)) + v (ix2 j (0 : Fin 1)) := by
  unfold RefRun.esum
  rw [addf_apply]
  refine congrArg₂ (· + ·) ?_ ?_
  · exact broadcastInDim_apply _ _ u (ix2 i j) (ix2 i (0 : Fin 1))
      (fun a => match a with | ⟨0, _⟩ => rfl | ⟨1, _⟩ => rfl)
  · refine (broadcastInDim_apply _ _ _ (ix2 i j) (ix2 (0 : Fin 1) j)
      (fun a => match a with | ⟨0, _⟩ => rfl | ⟨1, _⟩ => rfl)).trans ?_
    exact transpose_apply [1, 0] v _ (ix2 (0 : Fin 1) j) (ix2 j (0 : Fin 1))
      (fun a => match a with | ⟨0, _⟩ => rfl | ⟨1, _⟩ => rfl)

/-- The rectifier at an entry: the entry where it is not negative, the slope times it otherwise. -/
theorem leaky_apply (s : S4096x4096.Idx → EReal) (y : S4096x4096.Idx) :
    RefRun.leaky (F := Ideal) s y = Spec.leaky (s y) := by
  unfold RefRun.leaky Spec.leaky
  rw [select_apply, cmpf_apply, mulf_apply, splat_apply, splat_apply, Ideal.cmpf_def, Spec.select_oge,
    Ideal.ofBits_zero_f32]
  rfl

/-- The mask at an entry: the score where the mask entry is positive, the fill elsewhere. -/
theorem masked_apply (M e : S4096x4096.Idx → EReal) (y : S4096x4096.Idx) :
    RefRun.masked (F := Ideal) M e y = Spec.masked (M y) (e y) := by
  unfold RefRun.masked Spec.masked
  rw [select_apply, cmpf_apply, splat_apply, splat_apply, Ideal.cmpf_def, Spec.select_ogt, Ideal.ofBits_zero_f32]
  rfl

/-- The pairwise score at (i, j). -/
theorem escore_apply (x : S4096x128.Idx → EReal) (W : S128x128.Idx → EReal) (a1 a2 : S128x1.Idx → EReal)
    (b : S128.Idx → EReal) (i j : Fin 4096) :
    RefRun.escore (F := Ideal) (RefRun.f1 (F := Ideal) (RefRun.hfeat (F := Ideal) x W b) a1)
        (RefRun.f2 (F := Ideal) (RefRun.hfeat (F := Ideal) x W b) a2) (ix2 i j)
      = Spec.escore (Spec.m2 x) (Spec.m2 W) (Spec.col a1) (Spec.col a2) (Spec.v1 b) i j := by
  unfold RefRun.escore Spec.escore
  rw [leaky_apply, esum_apply, f1_apply, f2_apply]

/-- The logits masked by the adjacency, as a function of the two coordinates. -/
theorem logits1_m2 (x : S4096x128.Idx → EReal) (A : S4096x4096.Idx → EReal) (W : S128x128.Idx → EReal)
    (a1 a2 : S128x1.Idx → EReal) (b : S128.Idx → EReal) :
    Spec.m2 (RefRun.logits1 (F := Ideal) A
        (RefRun.escore (F := Ideal) (RefRun.f1 (F := Ideal) (RefRun.hfeat (F := Ideal) x W b) a1)
          (RefRun.f2 (F := Ideal) (RefRun.hfeat (F := Ideal) x W b) a2)))
      = Spec.logitsA (Spec.m2 x) (Spec.m2 A) (Spec.m2 W) (Spec.col a1) (Spec.col a2) (Spec.v1 b) := by
  funext i j
  show RefRun.logits1 (F := Ideal) A _ (ix2 i j) = _
  unfold RefRun.logits1 Spec.logitsA
  rw [masked_apply, escore_apply]
  rfl

/-- The logits masked by the adjacency's transpose: the mask entry read is A (j, i). -/
theorem logits2_m2 (x : S4096x128.Idx → EReal) (A : S4096x4096.Idx → EReal) (W : S128x128.Idx → EReal)
    (a1 a2 : S128x1.Idx → EReal) (b : S128.Idx → EReal) :
    Spec.m2 (RefRun.logits2 (F := Ideal) A
        (RefRun.escore (F := Ideal) (RefRun.f1 (F := Ideal) (RefRun.hfeat (F := Ideal) x W b) a1)
          (RefRun.f2 (F := Ideal) (RefRun.hfeat (F := Ideal) x W b) a2)))
      = Spec.logitsT (Spec.m2 x) (Spec.m2 A) (Spec.m2 W) (Spec.col a1) (Spec.col a2) (Spec.v1 b) := by
  funext i j
  show RefRun.logits2 (F := Ideal) A _ (ix2 i j) = _
  unfold RefRun.logits2 Spec.logitsT
  rw [masked_apply, escore_apply]
  refine congrArg (fun m => Spec.masked m _) ?_
  exact transpose_apply [1, 0] A _ (ix2 i j) (ix2 j i) (fun a => match a with | ⟨0, _⟩ => rfl | ⟨1, _⟩ => rfl)

/-! ## The row-wise soft maximum -/

/-- Dropping the second axis of the square shape. -/
theorem red1 : S4096x4096.Reduces [1] S4096 := by decide

/-- The row index i with column k put back is (i, k). -/
theorem lift_ix2 (i : Fin 4096) (k : Fin (S4096x4096.size 1)) :
    red1.lift (ix1 i) k = ix2 i (⟨k.val, k.isLt⟩ : Fin 4096) := by
  funext c; apply Fin.ext
  fin_cases c <;> rfl

/-- A row's maximum: the maximum-reduction from −∞ is the supremum over the row, and the further maximum
    against −∞ changes nothing. -/
theorem rowmax_apply (L : S4096x4096.Idx → EReal) (i : Fin 4096) :
    RefRun.rowmax (F := Ideal) L (ix1 i) = Spec.rowmax (Spec.m2 L) i := by
  unfold RefRun.rowmax
  rw [maximumf_apply, splat_apply, LibReduceInf.ofBits_negInf_f32, bot_sup_eq]
  refine (Host.reduce_eq_fold_single (FloatOps.maximumf (F := Ideal) (φ := .f32)) L
    (constant (F := Ideal) S_ .f32 0xFF800000#32) reducesTo_S4096x4096_S4096_d1 red1 h_S_ (ix1 i)).trans ?_
  show Finset.fold _ (Ideal.ofBits .f32 0xFF800000#32) _ _ = _
  rw [LibReduceInf.ofBits_negInf_f32,
    LibReduceInf.fold_eq_sup (FloatOps.maximumf (F := Ideal) (φ := .f32)) (fun _ _ => rfl), Finset.sup_univ_eq_iSup]
  show (⨆ k : Fin 4096, L (red1.lift (ix1 i) k)) = ⨆ j : Fin 4096, L (ix2 i j)
  exact iSup_congr fun k => congrArg L (lift_ix2 i k)

/-- The shifted exponential at (i, j). -/
theorem pexp_apply (L : S4096x4096.Idx → EReal) (i j : Fin 4096) :
    RefRun.pexp (F := Ideal) L (ix2 i j) = Spec.pexp (Spec.m2 L) i j := by
  unfold RefRun.pexp Spec.pexp
  show Ideal.exp (subf (F := Ideal) (φ := .f32) L (RefRun.spreadRows (F := Ideal) (RefRun.rowmax (F := Ideal) L)) (ix2 i j)) = _
  rw [subf_apply, spreadRows_apply, rowmax_apply]
  rfl

/-- A row's sum of shifted exponentials: the sum-reduction from zero is the sum over the row. -/
theorem rowsum_apply (L : S4096x4096.Idx → EReal) (i : Fin 4096) :
    RefRun.rowsum (F := Ideal) L (ix1 i) = Spec.rowsum (Spec.m2 L) i := by
  unfold RefRun.rowsum Spec.rowsum
  rw [hostReduceAdd_apply, Ideal.hostReduceAdd_single reducesTo_S4096x4096_S4096_d1 red1]
  show Ideal.ofBits .f32 0x00000000#32 + _ = _
  rw [Ideal.ofBits_zero_f32, zero_add]
  show (∑ k : Fin 4096, RefRun.pexp (F := Ideal) L (red1.lift (ix1 i) k)) = ∑ j : Fin 4096, Spec.pexp (Spec.m2 L) i j
  exact Finset.sum_congr rfl fun k _ => (congrArg (RefRun.pexp (F := Ideal) L) (lift_ix2 i k)).trans (pexp_apply L i k)

/-- A normalised weight at (i, j): the shifted exponential over its row's sum. -/
theorem alpha_apply (L : S4096x4096.Idx → EReal) (i j : Fin 4096) :
    RefRun.alpha (F := Ideal) L (ix2 i j) = Ideal.div (Spec.pexp (Spec.m2 L) i j) (Spec.rowsum (Spec.m2 L) i) := by
  unfold RefRun.alpha
  rw [hostDivf_apply, spreadRows_apply, rowsum_apply, pexp_apply]

/-- One attention pass at (i, f): the weights, normalised first, against column f of the features. -/
theorem attend_apply (L : S4096x4096.Idx → EReal) (H : S4096x128.Idx → EReal) (i : Fin 4096) (f : Fin 128) :
    RefRun.attend (F := Ideal) L H (ix2 i f) = Spec.attendN (Spec.m2 L) (Spec.m2 H) i f := by
  unfold RefRun.attend
  refine (StackMember.dotGeneral_plain_apply none (RefRun.alpha (F := Ideal) L) H i f).trans ?_
  show _ = ∑ j : Fin 4096, Ideal.div (Spec.pexp (Spec.m2 L) i j) (Spec.rowsum (Spec.m2 L) i) * H (ix2 j f)
  exact Finset.sum_congr rfl fun j _ => congrArg (· * H (ix2 j f)) (alpha_apply L i j)

/-! ## The closing half-sum over one -/

/-- Half the sum of the two passes, over the word of one. -/
theorem combine_apply (o1 o2 : S4096x128.Idx → EReal) (y : S4096x128.Idx) :
    RefRun.combine (F := Ideal) o1 o2 y = Ideal.div (Spec.half * (o1 y + o2 y)) 1 := by
  unfold RefRun.combine
  rw [hostDivf_apply, mulf_apply, addf_apply, splat_apply, splat_apply, Ideal.ofBits_one_f32]
  rfl

/-- Entry (i, f) of the program's result is the specification with the weights normalised first. -/
theorem result_apply (x : S4096x128.Idx → EReal) (A : S4096x4096.Idx → EReal) (W : S128x128.Idx → EReal)
    (a1 a2 : S128x1.Idx → EReal) (b : S128.Idx → EReal) (i : Fin 4096) (f : Fin 128) :
    Cert.ReferenceIdeal.RefRun.result (F := Ideal) x A W a1 a2 b (ix2 i f)
      = Cert.Spec.outN (Cert.Spec.m2 x) (Cert.Spec.m2 A) (Cert.Spec.m2 W) (Cert.Spec.col a1) (Cert.Spec.col a2)
          (Cert.Spec.v1 b) i f := by
  unfold RefRun.result Spec.outN
  rw [combine_apply, attend_apply, attend_apply, logits1_m2, logits2_m2, hfeat_m2]

end Cert.ReferenceIdeal.RefRead

end
-- ==== Proof.Finite.lean ====
/-
  From the precondition to finite entries.

  The precondition says, per argument array, that every entry's absolute value lies strictly below plus infinity, all six
  statements joined by conjunction.  An extended real whose absolute value  max x (−x)  is below  ⊤  is neither  ⊤  nor  ⊥,
  hence the image of a real.
-/
import proofs.«153251_g30992484008437_cont_sun_m_229_4_alg».proof.Defs
import Idealize.ShloMosaic.Lib.ReduceAll
import Idealize.ShloMosaic.Lib.IdealHost

noncomputable section

namespace Cert.Finite

open Idealize.ShloMosaic Idealize.ShloMosaic.ValueIdx Idealize.SL.Sem

/-- The shape of a scalar has exactly one index. -/
instance : Subsingleton Cert.Pre_finite_inputs.S_.Idx := ⟨fun a b => funext fun d => d.elim0⟩

/-- The single-precision word with all-ones exponent and zero fraction denotes plus infinity. -/
theorem ofBits_inf : Ideal.ofBits .f32 0x7F800000#32 = (⊤ : EReal) := by
  simp [Ideal.ofBits, Ideal.ieee]

/-- An extended real whose absolute value is strictly below plus infinity is a real. -/
theorem real_of_abs_lt_top (x : EReal) (h : Ideal.cmp .olt (max x (-x)) (⊤ : EReal) = 1#1) :
    ∃ r : ℝ, x = (r : EReal) := by
  induction x using EReal.rec with
  | bot => exact absurd h (by simp [Ideal.cmp])
  | coe r => exact ⟨r, rfl⟩
  | top => exact absurd h (by simp [Ideal.cmp])

/-- One conjunct of the precondition read back: if the conjunction over all entries of "|x| < +∞" is one, every entry is a
    real. -/
theorem all_real {s : Shape} {axes : List (Fin s.rank)} (X : FVec Ideal s .f32)
    (hb : Cert.Pre_finite_inputs.S_.BroadcastsInDim s ![]) (hr : s.ReducesTo axes Cert.Pre_finite_inputs.S_)
    (hu : 0 < Cert.Pre_finite_inputs.S_.numel) (init : Cert.Pre_finite_inputs.S_.Idx → BitVec 1)
    (e : Host.reduce IntOp.andi
        (cmpf .olt (Host.absf X) (broadcastInDim s ![] hb (constant Cert.Pre_finite_inputs.S_ .f32 0x7F800000#32)))
        init hr hu ix0 = 1#1)
    (i : s.Idx) : ∃ r : ℝ, X i = (r : EReal) := by
  have h := Host.reduce_andi_all _ init hr hu ix0 e i
  rw [cmpf_apply, broadcastInDim_scalar_apply, constant_apply, ofBits_inf] at h
  exact real_of_abs_lt_top (X i) h

/-- Under the precondition every entry of each of the six argument arrays is a real. -/
theorem entries_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal)) ∧
    (∀ j, ∃ r : ℝ, m ((c.tc : Thread Cert.KernelIdeal.nD Cert.KernelIdeal.τ).loc Cert.KernelIdeal.main_arg1) j = (r : EReal)) ∧
    (∀ j, ∃ r : ℝ, m ((c.tc : Thread Cert.KernelIdeal.nD Cert.KernelIdeal.τ).loc Cert.KernelIdeal.main_arg2) j = (r : EReal)) ∧
    (∀ j, ∃ r : ℝ, m ((c.tc : Thread Cert.KernelIdeal.nD Cert.KernelIdeal.τ).loc Cert.KernelIdeal.main_arg3) j = (r : EReal)) ∧
    (∀ j, ∃ r : ℝ, m ((c.tc : Thread Cert.KernelIdeal.nD Cert.KernelIdeal.τ).loc Cert.KernelIdeal.main_arg4) j = (r : EReal)) ∧
    (∀ j, ∃ r : ℝ, m ((c.tc : Thread Cert.KernelIdeal.nD Cert.KernelIdeal.τ).loc Cert.KernelIdeal.main_arg5) j = (r : EReal)) := by
  have h0 := congrFun (h c) ix0
  dsimp only [Cert.Pre_finite_inputs.fn, Cert.Pre_finite_inputs.fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨all_real _ _ _ _ _ e0, all_real _ _ _ _ _ e1, all_real _ _ _ _ _ e2, all_real _ _ _ _ _ e3,
    all_real _ _ _ _ _ e4, all_real _ _ _ _ _ e5⟩

end Cert.Finite

end
-- ==== Proof.KiVal0.lean ====
import proofs.«153251_g30992484008437_cont_sun_m_229_4_alg».proof.Proof.KiReg0
import proofs.«153251_g30992484008437_cont_sun_m_229_4_alg».proof.Proof.Spec
import Idealize.ShloMosaic.Lib.Pipeline.Value
import Idealize.ShloMosaic.Lib.ValueIdx
import Idealize.ShloMosaic.PureOps.Ideal.Laws

/-! The VALUE of the first pipelined region, on the extended reals: what its two output arrays hold when the region
    ends, as functions of the four input arrays as the region finds them, entry by entry.

    Each grid point writes a block of 512 rows of each output. The first output's block is the product of the same
    rows of `x` with the whole first matrix, plus the bias row; the second is that block's product with the whole second
    matrix. A row of either output therefore depends on the same row of `x` only, so each output is ONE function of the
    input arrays of which every point writes its own rows, and the eight blocks tile the 4096 rows. -/

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The zero offsets of a whole-buffer access, as the constant function. -/
theorem offs_zero2 : (![0, 0] : Fin 2 → Nat) = fun _ => 0 := funext fun a => by fin_cases a <;> rfl

/-! ## The body's two stored values at an entry -/

/-- The kernel's product of a 512×128 block with a 128×128 matrix into a zero accumulator, read at an entry, is the
    sum over the contracted coordinate of the products of the entries. -/
theorem matmul0_apply (A : S512x128.Idx → EReal) (B : S128x128.Idx → EReal) (p : Fin 512) (q : Fin 128) :
    matmul (F := Ideal) (φ₁ := .f32) (φ₂ := .f32) dot_S512x128_S128x128_S512x128_1_0_0_1_n_n none A B (constant (F := Ideal) S512x128 .f32 0x00000000#32) (ix2 p q)
      = ∑ k : Fin 128, A (ix2 p k) * B (ix2 k q) := by
  show FloatOps.matmul (F := Ideal) (φ₁ := .f32) (φ₂ := .f32) dot_S512x128_S128x128_S512x128_1_0_0_1_n_n none A B (constant (F := Ideal) S512x128 .f32 0x00000000#32) (ix2 p q) = _
  rw [Ideal.matmul_constant_zero_apply, ← Equiv.sum_comp (contrEquiv1 dot_S512x128_S128x128_S512x128_1_0_0_1_n_n 128 rfl rfl).symm]
  refine Finset.sum_congr rfl fun k _ => ?_
  have ck := contrEquiv1_symm_val dot_S512x128_S128x128_S512x128_1_0_0_1_n_n 128 rfl rfl k
  have hl : (dot_S512x128_S128x128_S512x128_1_0_0_1_n_n).lhsIdx (ix2 p q) ((contrEquiv1 dot_S512x128_S128x128_S512x128_1_0_0_1_n_n 128 rfl rfl).symm k) = ix2 p k := by
    funext ax; apply Fin.ext
    match ax with
    | ⟨0, _⟩ => simp [DotDims.lhsIdx, dot_S512x128_S128x128_S512x128_1_0_0_1_n_n]; rfl
    | ⟨1, _⟩ => simp [DotDims.lhsIdx, dot_S512x128_S128x128_S512x128_1_0_0_1_n_n]; exact ck
  have hr : (dot_S512x128_S128x128_S512x128_1_0_0_1_n_n).rhsIdx (ix2 p q) ((contrEquiv1 dot_S512x128_S128x128_S512x128_1_0_0_1_n_n 128 rfl rfl).symm k) = ix2 k q := by
    funext ax; apply Fin.ext
    match ax with
    | ⟨0, _⟩ => simp [DotDims.rhsIdx, dot_S512x128_S128x128_S512x128_1_0_0_1_n_n]; exact ck
    | ⟨1, _⟩ => simp [DotDims.rhsIdx, dot_S512x128_S128x128_S512x128_1_0_0_1_n_n]; rfl
  rw [hl, hr]

/-- The first stored value at an entry: the row of the `x` block against the column of the first matrix, plus the
    bias row's entry of that column. -/
theorem pay0_1_apply (x0 : S512x128.Idx → EReal) (x1 : S128x128.Idx → EReal) (x2 : S1x128.Idx → EReal) (p : Fin 512) (q : Fin 128) :
    k0_pay1 (F := Ideal) x0 x1 x2 (ix2 p q) = (∑ k : Fin 128, x0 (ix2 p k) * x1 (ix2 k q)) + x2 (ix2 (0 : Fin 1) q) := by
  have e : k0_pay1 (F := Ideal) x0 x1 x2
      = addf (matmul (F := Ideal) (φ₁ := .f32) (φ₂ := .f32) dot_S512x128_S128x128_S512x128_1_0_0_1_n_n none x0 x1 (constant (F := Ideal) S512x128 .f32 0x00000000#32))
          (broadcastTo S512x128 (shapeCast S1x128 x2 shapeCasts_S1x128_S1x128) broadcasts_S1x128_S512x128) := rfl
  rw [e, addf_apply, matmul0_apply, shapeCast_self]
  refine congrArg _ (broadcastTo_apply _ _ _ _ fun a => ?_)
  match a with
  | ⟨0, _⟩ => rfl
  | ⟨1, _⟩ => rfl

/-- The second stored value at an entry: the row of the first stored value against the column of the second matrix. -/
theorem pay0_2_apply (x0 : S512x128.Idx → EReal) (x1 : S128x128.Idx → EReal) (x2 : S1x128.Idx → EReal) (x3 : S128x128.Idx → EReal)
    (p : Fin 512) (q : Fin 128) :
    k0_pay2 (F := Ideal) x0 x1 x2 x3 (ix2 p q) = ∑ k : Fin 128, k0_pay1 (F := Ideal) x0 x1 x2 (ix2 p k) * x3 (ix2 k q) := by
  have e : k0_pay2 (F := Ideal) x0 x1 x2 x3
      = matmul (F := Ideal) (φ₁ := .f32) (φ₂ := .f32) dot_S512x128_S128x128_S512x128_1_0_0_1_n_n none (k0_pay1 (F := Ideal) x0 x1 x2)
          (shapeCast S128x128 x3 shapeCasts_S128x128_S128x128) (constant (F := Ideal) S512x128 .f32 0x00000000#32) := rfl
  rw [e, matmul0_apply, shapeCast_self]

/-! ## The printed index maps, decided over the grid -/

/-- The `x` window and the two output windows move one block of rows per point; the three whole-array windows stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The two outputs as whole-array functions of the inputs -/

/-- An entry of `x·W + bias`: row `r` of `x` against column `q` of `W`, plus the bias row's entry of column `q`. -/
def hEnt (x : S4096x128.Idx → EReal) (W : S128x128.Idx → EReal) (b : S1x128.Idx → EReal) (r : Fin 4096) (q : Fin 128) : EReal :=
  (∑ k : Fin 128, x (ix2 r k) * W (ix2 k q)) + b (ix2 (0 : Fin 1) q)

/-- An entry of `(x·W + bias)·A`. -/
def fEnt (x : S4096x128.Idx → EReal) (W : S128x128.Idx → EReal) (b : S1x128.Idx → EReal) (A : S128x128.Idx → EReal)
    (r : Fin 4096) (q : Fin 128) : EReal :=
  ∑ k : Fin 128, hEnt x W b r k * A (ix2 k q)

/-- The two as arrays. -/
def hArr (x : S4096x128.Idx → EReal) (W : S128x128.Idx → EReal) (b : S1x128.Idx → EReal) : S4096x128.Idx → EReal :=
  fun i => hEnt x W b (i 0) (i 1)
def fArr (x : S4096x128.Idx → EReal) (W : S128x128.Idx → EReal) (b : S1x128.Idx → EReal) (A : S128x128.Idx → EReal) :
    S4096x128.Idx → EReal :=
  fun i => fEnt x W b A (i 0) (i 1)

/-- The first stored value of a block whose row `p` is row `r` of `x` is, on that row, row `r` of `x·W + bias`; -/
theorem pay1_eq_hEnt (x0 : S512x128.Idx → EReal) (X : S4096x128.Idx → EReal) (W : S128x128.Idx → EReal) (b : S1x128.Idx → EReal)
    (p : Fin 512) (q : Fin 128) (r : Fin 4096) (hrow : ∀ k : Fin 128, x0 (ix2 p k) = X (ix2 r k)) :
    k0_pay1 (F := Ideal) x0 W b (ix2 p q) = hArr X W b (ix2 r q) := by
  rw [pay0_1_apply]
  show _ = hEnt X W b r q
  unfold hEnt
  simp only [hrow]

/-- and the second stored value is row `r` of `(x·W + bias)·A`. -/
theorem pay2_eq_fEnt (x0 : S512x128.Idx → EReal) (X : S4096x128.Idx → EReal) (W : S128x128.Idx → EReal) (b : S1x128.Idx → EReal)
    (A : S128x128.Idx → EReal) (p : Fin 512) (q : Fin 128) (r : Fin 4096) (hrow : ∀ k : Fin 128, x0 (ix2 p k) = X (ix2 r k)) :
    k0_pay2 (F := Ideal) x0 W b A (ix2 p q) = fArr X W b A (ix2 r q) := by
  rw [pay0_2_apply]
  show _ = fEnt X W b A r q
  unfold fEnt
  refine Finset.sum_congr rfl fun k _ => ?_
  rw [pay1_eq_hEnt x0 X W b p k r hrow]
  rfl

section Region0
variable (V : (c : Dev nD) → (b : Ref sig .tc) → Buf (Elt Ideal) ((c : Thread nD τ).loc b))

/-- The four input arrays as the region finds them, under their literal types. -/
abbrev X0 (c : Dev nD) : S4096x128.Idx → EReal := V c (Pipeline.arrRef spec0 0)
abbrev X1 (c : Dev nD) : S128x128.Idx → EReal := V c (Pipeline.arrRef spec0 1)
abbrev X2 (c : Dev nD) : S1x128.Idx → EReal := V c (Pipeline.arrRef spec0 2)
abbrev X3 (c : Dev nD) : S128x128.Idx → EReal := V c (Pipeline.arrRef spec0 3)

/-! ## The input blocks as entries of the arrays -/

/-- Row `p` of the block of rows at point `t`, as a row of the array. -/
def rowAt (t : Fin cfg0.N) (p : Fin 512) : Fin 4096 :=
  ⟨t.val * 512 + p.val, by have := Nat.lt_of_lt_of_eq t.isLt N_0; have := p.isLt; omega⟩

/-- The `x` block at point `t` is rows `512·t … 512·t + 511` of `x`. -/
theorem blk0_0_apply (c : Dev nD) (t : Fin cfg0.N) (y : S512x128.Idx) (i : S4096x128.Idx)
    (h0 : (i 0).val = t.val * 512 + (y 0).val) (h1 : (i 1).val = (y 1).val) :
    (iblk0 V c 0 t : S512x128.Idx → EReal) y = X0 V c i := by
  obtain ⟨e0, e1, -⟩ := idx_facts0 t
  unfold iblk0
  show X0 V c (((cfg0.win 0).blk t).view.emb y) = _
  have h : ((cfg0.win 0).blk t).view.emb y = i := by
    funext a; apply Fin.ext
    match a with
    | ⟨0, _⟩ => show win0_0.index t (0 : Fin 2) * 512 + 1 * (y 0).val = (i 0).val; omega
    | ⟨1, _⟩ => show win0_0.index t (1 : Fin 2) * 128 + 1 * (y 1).val = (i 1).val; omega
  rw [h]

/-- The blocks of the three whole-array windows are the arrays, at every point. -/
theorem blk0_1_eq (c : Dev nD) (t : Fin cfg0.N) : (iblk0 V c 1 t : S128x128.Idx → EReal) = X1 V c := by
  obtain ⟨-, -, e2, e3, -⟩ := idx_facts0 t
  unfold iblk0
  funext y
  show X1 V c (((cfg0.win 1).blk t).view.emb y) = _
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [h]
theorem blk0_2_eq (c : Dev nD) (t : Fin cfg0.N) : (iblk0 V c 2 t : S1x128.Idx → EReal) = X2 V c := by
  obtain ⟨-, -, -, -, e4, e5, -⟩ := idx_facts0 t
  unfold iblk0
  funext y
  show X2 V c (((cfg0.win 2).blk t).view.emb y) = _
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [h]
theorem blk0_3_eq (c : Dev nD) (t : Fin cfg0.N) : (iblk0 V c 3 t : S128x128.Idx → EReal) = X3 V c := by
  obtain ⟨-, -, -, -, -, -, e6, e7, -⟩ := idx_facts0 t
  unfold iblk0
  funext y
  show X3 V c (((cfg0.win 3).blk t).view.emb y) = _
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [h]

/-! ## From the blocks to the arrays -/

/-- What point `t` writes back to output 4's array is its block of rows of `hArr` of the input arrays. -/
theorem flushed0_4_eq (c : Dev nD) (t : Fin cfg0.N) :
    (dat0 V c).flushed 4 t = ((cfg0.win 4).blk t).view.read (Elt Ideal) (hArr (X0 V c) (X1 V c) (X2 V c)) := by
  show (cfg0.win 4).cut (grid0.coords t) ((dat0 V c).after 4 t) = _
  rw [after0_4]
  unfold out0_4
  rw [View.canon_unit_zero offs_zero2]
  simp only [View.ld_unit_zero (S := S512x128) offs_zero2, View.ld_unit_zero (S := S128x128) offs_zero2,
    View.ld_unit_zero (S := S1x128) offs_zero2]
  rw [blk0_1_eq, blk0_2_eq]
  obtain ⟨-, -, -, -, -, -, -, -, e8, e9, e10, e11⟩ := idx_facts0 t
  funext j
  obtain ⟨p, q, rfl⟩ : ∃ (p : Fin 512) (q : Fin 128), j = ix2 p q := ⟨j 0, j 1, eq_ix2 j⟩
  show k0_pay1 (F := Ideal) (iblk0 V c 0 t) (X1 V c) (X2 V c) (ix2 p q)
    = hArr (X0 V c) (X1 V c) (X2 V c) (((cfg0.win 4).blk t).view.emb (ix2 p q))
  have hi : ((cfg0.win 4).blk t).view.emb (ix2 p q) = ix2 (rowAt t p) q := by
    funext a; apply Fin.ext
    match a with
    | ⟨0, _⟩ => show win0_4.index t (0 : Fin 2) * 512 + 1 * p.val = t.val * 512 + p.val; omega
    | ⟨1, _⟩ => show win0_4.index t (1 : Fin 2) * 128 + 1 * q.val = q.val; omega
  rw [hi]
  exact pay1_eq_hEnt _ _ _ _ p q (rowAt t p) fun k => blk0_0_apply V c t (ix2 p k) (ix2 (rowAt t p) k) rfl rfl

/-- An entry of the array is in point `t`'s block exactly when each coordinate is in the block's range on its axis. -/
theorem mem_blk0_4 (t : Fin cfg0.N) (i : S4096x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_call0_v3_0).slice (win0_4.rect t)).set ↔ _
  rw [View.set_slice_whole, Rect.mem_set_unit]
  exact Iff.rfl

/-- The eight blocks of 512 rows tile the 4096 rows: row `r` is in the block of point `r / 512`. -/
theorem tiles0_4 (i : S4096x128.Idx) : ∃ t : Fin cfg0.N, (cfg0.win 4).flush t = true ∧ i ∈ ((cfg0.win 4).blk t).view.set := by
  have hi0 : (i 0).val < 4096 := (i 0).isLt
  have hi1 : (i 1).val < 128 := (i 1).isLt
  have hN : cfg0.N = 8 := N_0
  have ht : (i 0).val / 512 < cfg0.N := by rw [hN]; omega
  obtain ⟨-, -, -, -, -, -, -, -, e8, e9, e10, e11⟩ := idx_facts0 ⟨(i 0).val / 512, ht⟩
  refine ⟨⟨(i 0).val / 512, ht⟩, flush0_4 _, ?_⟩
  rw [mem_blk0_4]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    have hv : (⟨(i 0).val / 512, ht⟩ : Fin cfg0.N).val = (i 0).val / 512 := rfl
    omega
  | ⟨1, _⟩ =>
    show win0_4.index ⟨(i 0).val / 512, ht⟩ (1 : Fin 2) * 128 ≤ (i 1).val ∧ (i 1).val < win0_4.index ⟨(i 0).val / 512, ht⟩ (1 : Fin 2) * 128 + 128
    omega

/-- So the array ends holding `hArr` of the input arrays. -/
theorem arr0_4 (c : Dev nD) : (dat0 V c).arrAt 4 cfg0.N = hArr (X0 V c) (X1 V c) (X2 V c) :=
  (dat0 V c).arrAt_eq_of_cover 4 (hArr (X0 V c) (X1 V c) (X2 V c)) (fun t _ => flushed0_4_eq V c t) tiles0_4

/-- What point `t` writes back to output 5's array is its block of rows of `fArr` of the input arrays. -/
theorem flushed0_5_eq (c : Dev nD) (t : Fin cfg0.N) :
    (dat0 V c).flushed 5 t = ((cfg0.win 5).blk t).view.read (Elt Ideal) (fArr (X0 V c) (X1 V c) (X2 V c) (X3 V c)) := by
  show (cfg0.win 5).cut (grid0.coords t) ((dat0 V c).after 5 t) = _
  rw [after0_5]
  unfold out0_5
  rw [View.canon_unit_zero offs_zero2]
  simp only [View.ld_unit_zero (S := S512x128) offs_zero2, View.ld_unit_zero (S := S128x128) offs_zero2,
    View.ld_unit_zero (S := S1x128) offs_zero2]
  rw [blk0_1_eq, blk0_2_eq, blk0_3_eq]
  obtain ⟨-, -, -, -, -, -, -, -, e8, e9, e10, e11⟩ := idx_facts0 t
  funext j
  obtain ⟨p, q, rfl⟩ : ∃ (p : Fin 512) (q : Fin 128), j = ix2 p q := ⟨j 0, j 1, eq_ix2 j⟩
  show k0_pay2 (F := Ideal) (iblk0 V c 0 t) (X1 V c) (X2 V c) (X3 V c) (ix2 p q)
    = fArr (X0 V c) (X1 V c) (X2 V c) (X3 V c) (((cfg0.win 5).blk t).view.emb (ix2 p q))
  have hi : ((cfg0.win 5).blk t).view.emb (ix2 p q) = ix2 (rowAt t p) q := by
    funext a; apply Fin.ext
    match a with
    | ⟨0, _⟩ => show win0_5.index t (0 : Fin 2) * 512 + 1 * p.val = t.val * 512 + p.val; omega
    | ⟨1, _⟩ => show win0_5.index t (1 : Fin 2) * 128 + 1 * q.val = q.val; omega
  rw [hi]
  exact pay2_eq_fEnt _ _ _ _ _ p q (rowAt t p) fun k => blk0_0_apply V c t (ix2 p k) (ix2 (rowAt t p) k) rfl rfl

/-- An entry of the array is in point `t`'s block exactly when each coordinate is in the block's range on its axis. -/
theorem mem_blk0_5 (t : Fin cfg0.N) (i : S4096x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_call0_v3_1).slice (win0_5.rect t)).set ↔ _
  rw [View.set_slice_whole, Rect.mem_set_unit]
  exact Iff.rfl

/-- The eight blocks of 512 rows tile the 4096 rows: row `r` is in the block of point `r / 512`. -/
theorem tiles0_5 (i : S4096x128.Idx) : ∃ t : Fin cfg0.N, (cfg0.win 5).flush t = true ∧ i ∈ ((cfg0.win 5).blk t).view.set := by
  have hi0 : (i 0).val < 4096 := (i 0).isLt
  have hi1 : (i 1).val < 128 := (i 1).isLt
  have hN : cfg0.N = 8 := N_0
  have ht : (i 0).val / 512 < cfg0.N := by rw [hN]; omega
  obtain ⟨-, -, -, -, -, -, -, -, e8, e9, e10, e11⟩ := idx_facts0 ⟨(i 0).val / 512, ht⟩
  refine ⟨⟨(i 0).val / 512, ht⟩, flush0_5 _, ?_⟩
  rw [mem_blk0_5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    have hv : (⟨(i 0).val / 512, ht⟩ : Fin cfg0.N).val = (i 0).val / 512 := rfl
    omega
  | ⟨1, _⟩ =>
    show win0_5.index ⟨(i 0).val / 512, ht⟩ (1 : Fin 2) * 128 ≤ (i 1).val ∧ (i 1).val < win0_5.index ⟨(i 0).val / 512, ht⟩ (1 : Fin 2) * 128 + 128
    omega

/-- So the array ends holding `fArr` of the input arrays. -/
theorem arr0_5 (c : Dev nD) : (dat0 V c).arrAt 5 cfg0.N = fArr (X0 V c) (X1 V c) (X2 V c) (X3 V c) :=
  (dat0 V c).arrAt_eq_of_cover 5 (fArr (X0 V c) (X1 V c) (X2 V c) (X3 V c)) (fun t _ => flushed0_5_eq V c t) tiles0_5

/-! ## The two outputs, entry by entry, in the words of the specification -/

/-- The first output: the transformed features `x·W + bias`. -/
theorem final0_4 (c : Dev nD) (i : Fin 4096) (f : Fin 128) :
    (dat0 V c).arrAt 4 cfg0.N (ix2 i f)
      = Cert.Spec.hfeat (Cert.Spec.m2 (X0 V c)) (Cert.Spec.m2 (X1 V c)) (Cert.Spec.row (X2 V c)) i f := by
  rw [arr0_4]; rfl

/-- The second output: the features against the columns of the coefficient matrix. -/
theorem final0_5 (c : Dev nD) (i : Fin 4096) (g : Fin 128) :
    (dat0 V c).arrAt 5 cfg0.N (ix2 i g)
      = ∑ k : Fin 128, Cert.Spec.hfeat (Cert.Spec.m2 (X0 V c)) (Cert.Spec.m2 (X1 V c)) (Cert.Spec.row (X2 V c)) i k * X3 V c (ix2 k g) := by
  rw [arr0_5]; rfl

end Region0

end Cert.KernelIdeal.Hand
-- ==== Proof.KiPay1.lean ====
import proofs.«153251_g30992484008437_cont_sun_m_229_4_alg».proof.Proof.Gen.KernelIdeal.Skeleton
import proofs.«153251_g30992484008437_cont_sun_m_229_4_alg».proof.Proof.Spec
import proofs.«153251_g30992484008437_cont_sun_m_229_4_alg».proof.Proof.LibReduceInf
import Idealize.ShloMosaic.Lib.Pipeline.Value
import Idealize.ShloMosaic.Lib.ValueIdx
import Idealize.ShloMosaic.Lib.ValueLayout
import Idealize.ShloMosaic.PureOps.Ideal.Laws

/-! The value the second region's body stores, on the extended reals, read at one entry of its block: half the sum of
    the two attention averages of the features, one over the adjacency's row and one over its column. -/

set_option maxRecDepth 16384

noncomputable section

open scoped BigOperators

namespace Cert.KernelIdeal.Hand

open Cert.KernelIdeal Cert.KernelIdeal.Gen
open Idealize.ShloMosaic
open Idealize.ShloMosaic.ValueIdx

/-! ## Layout operations at an entry -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The two reductions of the row layout and of the column layout at an entry -/

/-- The maximum along a row of a 256×4096 block is the supremum of the row's entries. -/
theorem rowMax_apply (src : FVec Ideal S256x4096 .f32) (p : Fin 256) :
    multiReduction (F := Ideal) .maximumf [1] S256 src 0xFF800000#32 reduces_S256x4096_S256 (.inl rfl) rfl (ix1 p)
      = ⨆ k : Fin 4096, src (ix2 p k) := by
  refine (Cert.LibReduceInf.multiReduction_maximumf_single src reduces_S256x4096_S256 (.inl rfl) rfl (ix1 p)).trans ?_
  refine iSup_congr fun k => congrArg src ?_
  funext ax; apply Fin.ext
  match ax with
  | ⟨0, _⟩ => rfl
  | ⟨1, _⟩ => rfl

/-- The sum along a row of a 256×4096 block. -/
theorem rowSum_apply (src : FVec Ideal S256x4096 .f32) (p : Fin 256) :
    multiReduction (F := Ideal) .add [1] S256 src 0x00000000#32 reduces_S256x4096_S256 (.inl rfl) rfl (ix1 p)
      = ∑ k : Fin 4096, src (ix2 p k) := by
  refine (Ideal.multiReduction_add_single src 0x00000000#32 reduces_S256x4096_S256 (.inl rfl) rfl (ix1 p)).trans ?_
  refine Finset.sum_congr rfl fun k _ => congrArg src ?_
  funext ax; apply Fin.ext
  match ax with
  | ⟨0, _⟩ => rfl
  | ⟨1, _⟩ => rfl

/-- The maximum along a column of a 4096×256 block is the supremum of the column's entries. -/
theorem colMax_apply (src : FVec Ideal S4096x256 .f32) (p : Fin 256) :
    multiReduction (F := Ideal) .maximumf [0] S256 src 0xFF800000#32 reduces_S4096x256_S256 (.inl rfl) rfl (ix1 p)
      = ⨆ k : Fin 4096, src (ix2 k p) := by
  refine (Cert.LibReduceInf.multiReduction_maximumf_single src reduces_S4096x256_S256 (.inl rfl) rfl (ix1 p)).trans ?_
  refine iSup_congr fun k => congrArg src ?_
  funext ax; apply Fin.ext
  match ax with
  | ⟨0, _⟩ => rfl
  | ⟨1, _⟩ => rfl

/-! ## The three products at an entry -/

/-- The product of a 256×4096 block with a 4096×128 matrix into a zero accumulator, at an entry: the sum over the block's columns. -/
theorem matmulRow_apply (L : S256x4096.Idx → EReal) (R : S4096x128.Idx → EReal) (p : Fin 256) (q : Fin 128) :
    matmul (F := Ideal) (φ₁ := .f32) (φ₂ := .f32) dot_S256x4096_S4096x128_S256x128_1_0_0_1_n_n none L R (constant (F := Ideal) S256x128 .f32 0x00000000#32) (ix2 p q)
      = ∑ k : Fin 4096, L (ix2 p k) * R (ix2 k q) := by
  show FloatOps.matmul (F := Ideal) (φ₁ := .f32) (φ₂ := .f32) dot_S256x4096_S4096x128_S256x128_1_0_0_1_n_n none L R (constant (F := Ideal) S256x128 .f32 0x00000000#32) (ix2 p q) = _
  rw [Ideal.matmul_constant_zero_apply, ← Equiv.sum_comp (contrEquiv1 dot_S256x4096_S4096x128_S256x128_1_0_0_1_n_n 4096 rfl rfl).symm]
  refine Finset.sum_congr rfl fun k _ => ?_
  have ck := contrEquiv1_symm_val dot_S256x4096_S4096x128_S256x128_1_0_0_1_n_n 4096 rfl rfl k
  have hl : (dot_S256x4096_S4096x128_S256x128_1_0_0_1_n_n).lhsIdx (ix2 p q) ((contrEquiv1 dot_S256x4096_S4096x128_S256x128_1_0_0_1_n_n 4096 rfl rfl).symm k) = ix2 p k := by
    funext ax; apply Fin.ext
    match ax with
    | ⟨0, _⟩ => simp [DotDims.lhsIdx, dot_S256x4096_S4096x128_S256x128_1_0_0_1_n_n]; rfl
    | ⟨1, _⟩ => simp [DotDims.lhsIdx, dot_S256x4096_S4096x128_S256x128_1_0_0_1_n_n]; exact ck
  have hr : (dot_S256x4096_S4096x128_S256x128_1_0_0_1_n_n).rhsIdx (ix2 p q) ((contrEquiv1 dot_S256x4096_S4096x128_S256x128_1_0_0_1_n_n 4096 rfl rfl).symm k) = ix2 k q := by
    funext ax; apply Fin.ext
    match ax with
    | ⟨0, _⟩ => simp [DotDims.rhsIdx, dot_S256x4096_S4096x128_S256x128_1_0_0_1_n_n]; exact ck
    | ⟨1, _⟩ => simp [DotDims.rhsIdx, dot_S256x4096_S4096x128_S256x128_1_0_0_1_n_n]; rfl
  rw [hl, hr]

/-- The product contracting the ROWS of a 4096×256 block with the rows of a 4096×128 matrix, at an entry: the sum over the block's rows. -/
theorem matmulCol_apply (L : S4096x256.Idx → EReal) (R : S4096x128.Idx → EReal) (p : Fin 256) (q : Fin 128) :
    matmul (F := Ideal) (φ₁ := .f32) (φ₂ := .f32) dot_S4096x256_S4096x128_S256x128_0_0_1_1_n_n none L R (constant (F := Ideal) S256x128 .f32 0x00000000#32) (ix2 p q)
      = ∑ k : Fin 4096, L (ix2 k p) * R (ix2 k q) := by
  show FloatOps.matmul (F := Ideal) (φ₁ := .f32) (φ₂ := .f32) dot_S4096x256_S4096x128_S256x128_0_0_1_1_n_n none L R (constant (F := Ideal) S256x128 .f32 0x00000000#32) (ix2 p q) = _
  rw [Ideal.matmul_constant_zero_apply, ← Equiv.sum_comp (contrEquiv1 dot_S4096x256_S4096x128_S256x128_0_0_1_1_n_n 4096 rfl rfl).symm]
  refine Finset.sum_congr rfl fun k _ => ?_
  have ck := contrEquiv1_symm_val dot_S4096x256_S4096x128_S256x128_0_0_1_1_n_n 4096 rfl rfl k
  have hl : (dot_S4096x256_S4096x128_S256x128_0_0_1_1_n_n).lhsIdx (ix2 p q) ((contrEquiv1 dot_S4096x256_S4096x128_S256x128_0_0_1_1_n_n 4096 rfl rfl).symm k) = ix2 k p := by
    funext ax; apply Fin.ext
    match ax with
    | ⟨0, _⟩ => simp [DotDims.lhsIdx, dot_S4096x256_S4096x128_S256x128_0_0_1_1_n_n]; exact ck
    | ⟨1, _⟩ => simp [DotDims.lhsIdx, dot_S4096x256_S4096x128_S256x128_0_0_1_1_n_n]; rfl
  have hr : (dot_S4096x256_S4096x128_S256x128_0_0_1_1_n_n).rhsIdx (ix2 p q) ((contrEquiv1 dot_S4096x256_S4096x128_S256x128_0_0_1_1_n_n 4096 rfl rfl).symm k) = ix2 k q := by
    funext ax; apply Fin.ext
    match ax with
    | ⟨0, _⟩ => simp [DotDims.rhsIdx, dot_S4096x256_S4096x128_S256x128_0_0_1_1_n_n]; exact ck
    | ⟨1, _⟩ => simp [DotDims.rhsIdx, dot_S4096x256_S4096x128_S256x128_0_0_1_1_n_n]; rfl
  rw [hl, hr]

/-- The same contraction against a one-column matrix. -/
theorem matmulOnes_apply (L : S4096x256.Idx → EReal) (R : S4096x1.Idx → EReal) (p : Fin 256) (q : Fin 1) :
    matmul (F := Ideal) (φ₁ := .f32) (φ₂ := .f32) dot_S4096x256_S4096x1_S256x1_0_0_1_1_n_n none L R (constant (F := Ideal) S256x1 .f32 0x00000000#32) (ix2 p q)
      = ∑ k : Fin 4096, L (ix2 k p) * R (ix2 k q) := by
  show FloatOps.matmul (F := Ideal) (φ₁ := .f32) (φ₂ := .f32) dot_S4096x256_S4096x1_S256x1_0_0_1_1_n_n none L R (constant (F := Ideal) S256x1 .f32 0x00000000#32) (ix2 p q) = _
  rw [Ideal.matmul_constant_zero_apply, ← Equiv.sum_comp (contrEquiv1 dot_S4096x256_S4096x1_S256x1_0_0_1_1_n_n 4096 rfl rfl).symm]
  refine Finset.sum_congr rfl fun k _ => ?_
  have ck := contrEquiv1_symm_val dot_S4096x256_S4096x1_S256x1_0_0_1_1_n_n 4096 rfl rfl k
  have hl : (dot_S4096x256_S4096x1_S256x1_0_0_1_1_n_n).lhsIdx (ix2 p q) ((contrEquiv1 dot_S4096x256_S4096x1_S256x1_0_0_1_1_n_n 4096 rfl rfl).symm k) = ix2 k p := by
    funext ax; apply Fin.ext
    match ax with
    | ⟨0, _⟩ => simp [DotDims.lhsIdx, dot_S4096x256_S4096x1_S256x1_0_0_1_1_n_n]; exact ck
    | ⟨1, _⟩ => simp [DotDims.lhsIdx, dot_S4096x256_S4096x1_S256x1_0_0_1_1_n_n]; rfl
  have hr : (dot_S4096x256_S4096x1_S256x1_0_0_1_1_n_n).rhsIdx (ix2 p q) ((contrEquiv1 dot_S4096x256_S4096x1_S256x1_0_0_1_1_n_n 4096 rfl rfl).symm k) = ix2 k q := by
    funext ax; apply Fin.ext
    match ax with
    | ⟨0, _⟩ => simp [DotDims.rhsIdx, dot_S4096x256_S4096x1_S256x1_0_0_1_1_n_n]; exact ck
    | ⟨1, _⟩ => simp [DotDims.rhsIdx, dot_S4096x256_S4096x1_S256x1_0_0_1_1_n_n]
  rw [hl, hr]

/-! ## A logit, and the body's two spellings of the logits block -/

/-- The body's two selects at an entry: the score `s` through the leaky rectifier, kept where the mask entry `a` is
    positive and replaced by the fill elsewhere. -/
theorem logit_entry (a s : EReal) :
    Scalar.select (FloatOps.cmpf (F := Ideal) (φ := .f32) .ogt a (Scalar.ofBits .f32 0x00000000#32))
        (Scalar.select (FloatOps.cmpf (F := Ideal) (φ := .f32) .oge s (Scalar.ofBits .f32 0x00000000#32)) s
          ((Scalar.ofBits .f32 0x3E4CCCCD#32 : Ideal .f32) * s))
        (Scalar.ofBits .f32 0xCE6E6B28#32 : Ideal .f32)
      = Cert.Spec.masked a (Cert.Spec.leaky s) := by
  show Scalar.select (Ideal.cmp .ogt a (Ideal.ofBits .f32 0x00000000#32))
        (Scalar.select (Ideal.cmp .oge s (Ideal.ofBits .f32 0x00000000#32)) s (Ideal.ofBits .f32 0x3E4CCCCD#32 * s))
        (Ideal.ofBits .f32 0xCE6E6B28#32) = _
  rw [Cert.Spec.select_ogt, Cert.Spec.select_oge, Ideal.ofBits_zero_f32]
  rfl

/-- The sum of a score column and a score row, over a 256×4096 block. -/
def sumRow (x2 : S256x1.Idx → EReal) (x4 : S1x4096.Idx → EReal) : FVec Ideal S256x4096 .f32 :=
  addf (broadcastTo S256x4096 (shapeCast S256x1 x2 shapeCasts_S256x1_S256x1) broadcasts_S256x1_S256x4096)
    (broadcastTo S256x4096 (shapeCast S1x4096 x4 shapeCasts_S1x4096_S1x4096) broadcasts_S1x4096_S256x4096)

theorem sumRow_apply (x2 : S256x1.Idx → EReal) (x4 : S1x4096.Idx → EReal) (p : Fin 256) (j : Fin 4096) :
    sumRow x2 x4 (ix2 p j) = x2 (ix2 p (0 : Fin 1)) + x4 (ix2 (0 : Fin 1) j) := by
  unfold sumRow
  rw [addf_apply, shapeCast_self, shapeCast_self, broadcastTo_a1_ab_apply, broadcastTo_1b_ab_apply]

/-- The logits block of the row layout, as the body spells it over a block of sums and a block of the mask. -/
def lgRow (s : FVec Ideal S256x4096 .f32) (x0 : FVec Ideal S256x4096 .f32) : FVec Ideal S256x4096 .f32 :=
  select (cmpf (F := Ideal) .ogt x0 (broadcast S256x4096 (Scalar.ofBits .f32 0x00000000#32)))
    (select (cmpf (F := Ideal) .oge s (broadcast S256x4096 (Scalar.ofBits .f32 0x00000000#32))) s
      (mulf (broadcast S256x4096 (Scalar.ofBits .f32 0x3E4CCCCD#32)) s))
    (broadcast S256x4096 (Scalar.ofBits .f32 0xCE6E6B28#32))

theorem lgRow_apply (s : FVec Ideal S256x4096 .f32) (x0 : FVec Ideal S256x4096 .f32) (p : Fin 256) (j : Fin 4096) :
    lgRow s x0 (ix2 p j) = Cert.Spec.masked (x0 (ix2 p j)) (Cert.Spec.leaky (s (ix2 p j))) :=
  logit_entry _ _

/-- The shifted exponentials of the row layout: each entry less its row's maximum, exponentiated. -/
def exRow (l : FVec Ideal S256x4096 .f32) : FVec Ideal S256x4096 .f32 :=
  exp (subf l (broadcastTo S256x4096
    (shapeCast S256x1 (multiReduction (F := Ideal) .maximumf [1] S256 l 0xFF800000#32 reduces_S256x4096_S256 (.inl rfl) rfl) shapeCasts_S256_S256x1)
    broadcasts_S256x1_S256x4096))

theorem exRow_apply (l : FVec Ideal S256x4096 .f32) (p : Fin 256) (j : Fin 4096) :
    exRow l (ix2 p j) = Ideal.exp (l (ix2 p j) - ⨆ k : Fin 4096, l (ix2 p k)) := by
  unfold exRow
  show Ideal.exp (subf l _ (ix2 p j)) = _
  rw [subf_apply, broadcastTo_a1_ab_apply, shapeCast_a_a1_apply, rowMax_apply]

/-! ## The first half: the attention average over the adjacency's row -/

/-- The first half as one term over the named blocks. -/
theorem pay3_eq (x6 : S4096x128.Idx → EReal) (x2 : S256x1.Idx → EReal) (x4 : S1x4096.Idx → EReal) (x0 : S256x4096.Idx → EReal) :
    k1_pay3 (F := Ideal) x6 x2 x4 x0
      = divf (matmul (F := Ideal) (φ₁ := .f32) (φ₂ := .f32) dot_S256x4096_S4096x128_S256x128_1_0_0_1_n_n none
            (exRow (lgRow (sumRow x2 x4) x0)) (shapeCast S4096x128 x6 shapeCasts_S4096x128_S4096x128)
            (constant (F := Ideal) S256x128 .f32 0x00000000#32))
          (broadcastTo S256x128
            (shapeCast S256x1
              (multiReduction (F := Ideal) .add [1] S256 (exRow (lgRow (sumRow x2 x4) x0)) 0x00000000#32 reduces_S256x4096_S256 (.inl rfl) rfl)
              shapeCasts_S256_S256x1)
            broadcasts_S256x1_S256x128) := rfl

/-- The first half at an entry: the row's exponentials against a column of the features, over the row's sum. -/
theorem pay3_apply (x6 : S4096x128.Idx → EReal) (x2 : S256x1.Idx → EReal) (x4 : S1x4096.Idx → EReal) (x0 : S256x4096.Idx → EReal)
    (p : Fin 256) (q : Fin 128) :
    k1_pay3 (F := Ideal) x6 x2 x4 x0 (ix2 p q)
      = Ideal.div (∑ k : Fin 4096, exRow (lgRow (sumRow x2 x4) x0) (ix2 p k) * x6 (ix2 k q))
          (∑ k : Fin 4096, exRow (lgRow (sumRow x2 x4) x0) (ix2 p k)) := by
  rw [pay3_eq, divf_apply, shapeCast_self, matmulRow_apply, broadcastTo_a1_ab_apply, shapeCast_a_a1_apply, rowSum_apply]

/-- The first half over a block whose row `p` is row `r` of the arrays. -/
theorem pay3_entry (x0 : S256x4096.Idx → EReal) (x2 : S256x1.Idx → EReal) (x4 : S1x4096.Idx → EReal) (x6 : S4096x128.Idx → EReal)
    (A : Fin 4096 → Fin 4096 → EReal) (u v : Fin 4096 → EReal) (H : Fin 4096 → Fin 128 → EReal)
    (p : Fin 256) (q : Fin 128) (r : Fin 4096)
    (h0 : ∀ j : Fin 4096, x0 (ix2 p j) = A r j) (h2 : x2 (ix2 p (0 : Fin 1)) = u r)
    (h4 : ∀ j : Fin 4096, x4 (ix2 (0 : Fin 1) j) = v j) (h6 : ∀ (j : Fin 4096) (k : Fin 128), x6 (ix2 j k) = H j k) :
    k1_pay3 (F := Ideal) x6 x2 x4 x0 (ix2 p q) = Cert.Spec.attendD (Cert.Spec.logitsOf A u v) H r q := by
  have hl : ∀ j : Fin 4096, lgRow (sumRow x2 x4) x0 (ix2 p j) = Cert.Spec.logitsOf A u v r j := fun j => by
    rw [lgRow_apply, sumRow_apply, h0, h2, h4]; rfl
  have he : ∀ j : Fin 4096, exRow (lgRow (sumRow x2 x4) x0) (ix2 p j) = Cert.Spec.pexp (Cert.Spec.logitsOf A u v) r j := fun j => by
    rw [exRow_apply]; simp only [hl]; rfl
  rw [pay3_apply]
  simp only [he, h6]
  rfl

/-! ## The second half, in the transposed layout: the attention average over the adjacency's column -/

/-- The word of one denotes one. -/
theorem ofBits_one_f32 : Ideal.ofBits .f32 0x3F800000#32 = 1 := IdealRules.sign_bit.ideal_onePat .f32

/-- The sum of a score column and a score row over a 4096×256 block, at an entry. -/
theorem pay4_apply (x5 : S4096x1.Idx → EReal) (x3 : S1x256.Idx → EReal) (j : Fin 4096) (p : Fin 256) :
    k1_pay4 (F := Ideal) x5 x3 (ix2 j p) = x5 (ix2 j (0 : Fin 1)) + x3 (ix2 (0 : Fin 1) p) := by
  have e : k1_pay4 (F := Ideal) x5 x3
      = addf (broadcastTo S4096x256 (shapeCast S4096x1 x5 shapeCasts_S4096x1_S4096x1) broadcasts_S4096x1_S4096x256)
          (broadcastTo S4096x256 (shapeCast S1x256 x3 shapeCasts_S1x256_S1x256) broadcasts_S1x256_S4096x256) := rfl
  rw [e, addf_apply, shapeCast_self, shapeCast_self, broadcastTo_a1_ab_apply, broadcastTo_1b_ab_apply]

/-- The logits block of the column layout, as the body spells it over a block of sums, the sign test of the sums, the
    slope and a block of the mask. -/
def lgCol (s : FVec Ideal S4096x256 .f32) (c : IVec S4096x256 1) (sl : Ideal .f32) (x1 : FVec Ideal S4096x256 .f32) : FVec Ideal S4096x256 .f32 :=
  select (cmpf (F := Ideal) .ogt x1 (broadcast S4096x256 (Scalar.ofBits .f32 0x00000000#32)))
    (select c s (mulf (broadcast S4096x256 sl) s))
    (broadcast S4096x256 (Scalar.ofBits .f32 0xCE6E6B28#32))

theorem lgCol_apply (x5 : S4096x1.Idx → EReal) (x3 : S1x256.Idx → EReal) (x1 : S4096x256.Idx → EReal) (j : Fin 4096) (p : Fin 256) :
    lgCol (k1_pay4 (F := Ideal) x5 x3) (k1_pay5 (F := Ideal) x5 x3) (Scalar.ofBits .f32 0x3E4CCCCD#32) x1 (ix2 j p)
      = Cert.Spec.masked (x1 (ix2 j p)) (Cert.Spec.leaky (k1_pay4 (F := Ideal) x5 x3 (ix2 j p))) :=
  logit_entry _ _

/-- The shifted exponentials of the column layout: each entry less its column's maximum, exponentiated. -/
def exCol (l : FVec Ideal S4096x256 .f32) : FVec Ideal S4096x256 .f32 :=
  exp (subf l (broadcastTo S4096x256
    (shapeCast S1x256 (multiReduction (F := Ideal) .maximumf [0] S256 l 0xFF800000#32 reduces_S4096x256_S256 (.inl rfl) rfl) shapeCasts_S256_S1x256)
    broadcasts_S1x256_S4096x256))

theorem exCol_apply (l : FVec Ideal S4096x256 .f32) (j : Fin 4096) (p : Fin 256) :
    exCol l (ix2 j p) = Ideal.exp (l (ix2 j p) - ⨆ k : Fin 4096, l (ix2 k p)) := by
  unfold exCol
  show Ideal.exp (subf l _ (ix2 j p)) = _
  rw [subf_apply, broadcastTo_1b_ab_apply, shapeCast_a_1a_apply, colMax_apply]

/-- The stored value as one term over the named blocks. -/
theorem pay1_eq (w1 : FVec Ideal S4096x128 .f32) (w28 : FVec Ideal S256x128 .f32) (w35 : FVec Ideal S4096x256 .f32)
    (w37 : IVec S4096x256 1) (sl : EReal) (x1 : S4096x256.Idx → EReal) :
    k1_pay1 (F := Ideal) w1 w28 w35 w37 sl x1
      = mulf (broadcast S256x128 (Scalar.ofBits .f32 0x3F000000#32))
          (addf w28
            (divf (matmul (F := Ideal) (φ₁ := .f32) (φ₂ := .f32) dot_S4096x256_S4096x128_S256x128_0_0_1_1_n_n none
                (exCol (lgCol w35 w37 sl x1)) w1 (constant (F := Ideal) S256x128 .f32 0x00000000#32))
              (broadcastTo S256x128
                (matmul (F := Ideal) (φ₁ := .f32) (φ₂ := .f32) dot_S4096x256_S4096x1_S256x1_0_0_1_1_n_n none
                  (exCol (lgCol w35 w37 sl x1)) (broadcast S4096x1 (Scalar.ofBits .f32 0x3F800000#32))
                  (constant (F := Ideal) S256x1 .f32 0x00000000#32))
                broadcasts_S256x1_S256x128))) := rfl

/-- The stored value at an entry: half the sum of the first half there and of the column's exponentials against a
    column of the features, over the column's sum. -/
theorem pay1_apply (w1 : FVec Ideal S4096x128 .f32) (w28 : FVec Ideal S256x128 .f32) (w35 : FVec Ideal S4096x256 .f32)
    (w37 : IVec S4096x256 1) (sl : EReal) (x1 : S4096x256.Idx → EReal) (p : Fin 256) (q : Fin 128) :
    k1_pay1 (F := Ideal) w1 w28 w35 w37 sl x1 (ix2 p q)
      = Cert.Spec.half * (w28 (ix2 p q)
          + Ideal.div (∑ k : Fin 4096, exCol (lgCol w35 w37 sl x1) (ix2 k p) * w1 (ix2 k q))
              (∑ k : Fin 4096, exCol (lgCol w35 w37 sl x1) (ix2 k p))) := by
  rw [pay1_eq, mulf_apply, broadcast_apply, addf_apply, divf_apply, matmulCol_apply, broadcastTo_a1_ab_apply, matmulOnes_apply]
  have h1 : ∀ k : Fin 4096, exCol (lgCol w35 w37 sl x1) (ix2 k p) * broadcast S4096x1 (Scalar.ofBits .f32 0x3F800000#32 : Ideal .f32) (ix2 k (0 : Fin 1))
      = exCol (lgCol w35 w37 sl x1) (ix2 k p) := fun k => by
    rw [broadcast_apply]
    show _ * Ideal.ofBits .f32 0x3F800000#32 = _
    rw [ofBits_one_f32, mul_one]
  simp only [h1]
  rfl

/-- The second half over a block whose column `p` is column `r` of the adjacency. -/
theorem col_entry (x1 : S4096x256.Idx → EReal) (x3 : S1x256.Idx → EReal) (x5 : S4096x1.Idx → EReal) (x6 : S4096x128.Idx → EReal)
    (A : Fin 4096 → Fin 4096 → EReal) (u v : Fin 4096 → EReal) (H : Fin 4096 → Fin 128 → EReal)
    (p : Fin 256) (q : Fin 128) (r : Fin 4096)
    (h1 : ∀ j : Fin 4096, x1 (ix2 j p) = A j r) (h3 : x3 (ix2 (0 : Fin 1) p) = u r)
    (h5 : ∀ j : Fin 4096, x5 (ix2 j (0 : Fin 1)) = v j) (h6 : ∀ (j : Fin 4096) (k : Fin 128), x6 (ix2 j k) = H j k) :
    Ideal.div (∑ k : Fin 4096, exCol (lgCol (k1_pay4 (F := Ideal) x5 x3) (k1_pay5 (F := Ideal) x5 x3) (Scalar.ofBits .f32 0x3E4CCCCD#32) x1) (ix2 k p)
          * k1_pay2 (F := Ideal) x6 (ix2 k q))
        (∑ k : Fin 4096, exCol (lgCol (k1_pay4 (F := Ideal) x5 x3) (k1_pay5 (F := Ideal) x5 x3) (Scalar.ofBits .f32 0x3E4CCCCD#32) x1) (ix2 k p))
      = Cert.Spec.attendD (Cert.Spec.logitsOf (fun i j => A j i) u v) H r q := by
  have hl : ∀ j : Fin 4096, lgCol (k1_pay4 (F := Ideal) x5 x3) (k1_pay5 (F := Ideal) x5 x3) (Scalar.ofBits .f32 0x3E4CCCCD#32) x1 (ix2 j p)
      = Cert.Spec.logitsOf (fun i j => A j i) u v r j := fun j => by
    rw [lgCol_apply, pay4_apply, h1, h3, h5, add_comm]; rfl
  have he : ∀ j : Fin 4096, exCol (lgCol (k1_pay4 (F := Ideal) x5 x3) (k1_pay5 (F := Ideal) x5 x3) (Scalar.ofBits .f32 0x3E4CCCCD#32) x1) (ix2 j p)
      = Cert.Spec.pexp (Cert.Spec.logitsOf (fun i j => A j i) u v) r j := fun j => by
    rw [exCol_apply]; simp only [hl]; rfl
  have h2 : ∀ k : Fin 4096, k1_pay2 (F := Ideal) x6 (ix2 k q) = H k q := fun k => by
    have e : k1_pay2 (F := Ideal) x6 = shapeCast S4096x128 x6 shapeCasts_S4096x128_S4096x128 := rfl
    rw [e, shapeCast_self, h6]
  simp only [he, h2]
  rfl

/-! ## The stored value at an entry -/

theorem pay_out_entry
    (x0 : S256x4096.Idx → EReal) (x1 : S4096x256.Idx → EReal) (x2 : S256x1.Idx → EReal) (x3 : S1x256.Idx → EReal)
    (x4 : S1x4096.Idx → EReal) (x5 : S4096x1.Idx → EReal) (x6 : S4096x128.Idx → EReal)
    (A : Fin 4096 → Fin 4096 → EReal) (u v : Fin 4096 → EReal) (H : Fin 4096 → Fin 128 → EReal)
    (p : Fin 256) (q : Fin 128) (r : Fin 4096)
    (h0 : ∀ j : Fin 4096, x0 (ix2 p j) = A r j) (h1 : ∀ j : Fin 4096, x1 (ix2 j p) = A j r)
    (h2 : x2 (ix2 p (0 : Fin 1)) = u r) (h3 : x3 (ix2 (0 : Fin 1) p) = u r)
    (h4 : ∀ j : Fin 4096, x4 (ix2 (0 : Fin 1) j) = v j) (h5 : ∀ j : Fin 4096, x5 (ix2 j (0 : Fin 1)) = v j)
    (h6 : ∀ (j : Fin 4096) (k : Fin 128), x6 (ix2 j k) = H j k) :
    k1_pay1 (F := Ideal) (k1_pay2 (F := Ideal) x6) (k1_pay3 (F := Ideal) x6 x2 x4 x0) (k1_pay4 (F := Ideal) x5 x3)
        (k1_pay5 (F := Ideal) x5 x3) (Scalar.ofBits .f32 0x3E4CCCCD#32) x1 (ix2 p q)
      = Cert.Spec.half * (Cert.Spec.attendD (Cert.Spec.logitsOf A u v) H r q
          + Cert.Spec.attendD (Cert.Spec.logitsOf (fun i j => A j i) u v) H r q) := by
  rw [pay1_apply, pay3_entry x0 x2 x4 x6 A u v H p q r h0 h2 h4 h6, col_entry x1 x3 x5 x6 A u v H p q r h1 h3 h5 h6]

end Cert.KernelIdeal.Hand
-- ==== Proof.KiVal1.lean ====
import proofs.«153251_g30992484008437_cont_sun_m_229_4_alg».proof.Proof.KiReg1
import proofs.«153251_g30992484008437_cont_sun_m_229_4_alg».proof.Proof.Spec
import proofs.«153251_g30992484008437_cont_sun_m_229_4_alg».proof.Proof.KiPay1
import Idealize.ShloMosaic.Lib.Pipeline.Value
import Idealize.ShloMosaic.Lib.ValueIdx
import Idealize.ShloMosaic.PureOps.Ideal.Laws

/-! The VALUE of the second pipelined region, on the extended reals: what its output array holds when the region ends,
    as a function of the seven input arrays as the region finds them, entry by entry.

    Each of the sixteen grid points writes a block of 256 rows of the 4096×128 output. Row `p` of the block of point `t`
    is row `r = 256·t + p` of the array, and the value stored there is computed from row `r` of the adjacency (the row
    strip), column `r` of the same adjacency (the column strip), entry `r` of the first score vector (held once as a
    column and once as a row), and the whole second score vector (again as a row and as a column) and the whole feature
    array. An output row therefore depends on its own row number only, so the output is ONE function of the input arrays
    of which every point writes its own rows, and the sixteen blocks tile the 4096 rows. -/

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.SL Idealize.SL.RA
open Idealize.ShloMosaic.ValueIdx

/-- The zero offsets of a whole-buffer access, as the constant function. -/
theorem offs1_zero : (![0, 0] : Fin 2 → Nat) = fun _ => 0 := funext fun a => by fin_cases a <;> rfl

/-! ## The windows' index maps, decided over the grid -/

/-- The row strip, the first score column and the output move one block of rows per point; the column strip and the
    first score row move one block of columns per point; the three whole-array windows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = t.val
    ∧ win1_2.index t (0 : Fin 2) = t.val ∧ win1_2.index t (1 : Fin 2) = 0
    ∧ win1_3.index t (0 : Fin 2) = 0 ∧ win1_3.index t (1 : Fin 2) = t.val
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Region1
variable (V : (c : Dev nD) → (b : Ref sig .tc) → Buf (Elt Ideal) ((c : Thread nD τ).loc b))

/-- The seven input arrays as the region finds them, under their literal types. The first two are the same array,
    staged once by rows and once by columns. -/
abbrev Arr1_0 (c : Dev nD) : S4096x4096.Idx → EReal := V c (Pipeline.arrRef spec1 0)
abbrev Arr1_1 (c : Dev nD) : S4096x4096.Idx → EReal := V c (Pipeline.arrRef spec1 1)
abbrev Arr1_2 (c : Dev nD) : S4096x1.Idx → EReal := V c (Pipeline.arrRef spec1 2)
abbrev Arr1_3 (c : Dev nD) : S1x4096.Idx → EReal := V c (Pipeline.arrRef spec1 3)
abbrev Arr1_4 (c : Dev nD) : S1x4096.Idx → EReal := V c (Pipeline.arrRef spec1 4)
abbrev Arr1_5 (c : Dev nD) : S4096x1.Idx → EReal := V c (Pipeline.arrRef spec1 5)
abbrev Arr1_6 (c : Dev nD) : S4096x128.Idx → EReal := V c (Pipeline.arrRef spec1 6)

/-! ## The input blocks as entries of the arrays -/

/-- Position `p` of the block of 256 at point `t`, as a position among the 4096. -/
def rowAt1 (t : Fin cfg1.N) (p : Fin 256) : Fin 4096 :=
  ⟨t.val * 256 + p.val, by have := Nat.lt_of_lt_of_eq t.isLt N_1; have := p.isLt; omega⟩

/-- The row strip at point `t` is rows `256·t … 256·t + 255` of the adjacency. -/
theorem blk1_0_apply (c : Dev nD) (t : Fin cfg1.N) (y : S256x4096.Idx) (i : S4096x4096.Idx)
    (h0 : (i 0).val = t.val * 256 + (y 0).val) (h1 : (i 1).val = (y 1).val) :
    (iblk1 V c 0 t : S256x4096.Idx → EReal) y = Arr1_0 V c i := by
  obtain ⟨e0, e1, -⟩ := idx_facts1 t
  unfold iblk1
  show Arr1_0 V c (((cfg1.win 0).blk t).view.emb y) = _
  have h : ((cfg1.win 0).blk t).view.emb y = i := by
    funext a; apply Fin.ext
    match a with
    | ⟨0, _⟩ => show win1_0.index t (0 : Fin 2) * 256 + 1 * (y 0).val = (i 0).val; omega
    | ⟨1, _⟩ => show win1_0.index t (1 : Fin 2) * 4096 + 1 * (y 1).val = (i 1).val; omega
  rw [h]

/-- The column strip at point `t` is columns `256·t … 256·t + 255` of the adjacency. -/
theorem blk1_1_apply (c : Dev nD) (t : Fin cfg1.N) (y : S4096x256.Idx) (i : S4096x4096.Idx)
    (h0 : (i 0).val = (y 0).val) (h1 : (i 1).val = t.val * 256 + (y 1).val) :
    (iblk1 V c 1 t : S4096x256.Idx → EReal) y = Arr1_1 V c i := by
  obtain ⟨-, -, e2, e3, -⟩ := idx_facts1 t
  unfold iblk1
  show Arr1_1 V c (((cfg1.win 1).blk t).view.emb y) = _
  have h : ((cfg1.win 1).blk t).view.emb y = i := by
    funext a; apply Fin.ext
    match a with
    | ⟨0, _⟩ => show win1_1.index t (0 : Fin 2) * 4096 + 1 * (y 0).val = (i 0).val; omega
    | ⟨1, _⟩ => show win1_1.index t (1 : Fin 2) * 256 + 1 * (y 1).val = (i 1).val; omega
  rw [h]

/-- The block of the first score column at point `t` is its entries `256·t … 256·t + 255`. -/
theorem blk1_2_apply (c : Dev nD) (t : Fin cfg1.N) (y : S256x1.Idx) (i : S4096x1.Idx)
    (h0 : (i 0).val = t.val * 256 + (y 0).val) (h1 : (i 1).val = (y 1).val) :
    (iblk1 V c 2 t : S256x1.Idx → EReal) y = Arr1_2 V c i := by
  obtain ⟨-, -, -, -, e4, e5, -⟩ := idx_facts1 t
  unfold iblk1
  show Arr1_2 V c (((cfg1.win 2).blk t).view.emb y) = _
  have h : ((cfg1.win 2).blk t).view.emb y = i := by
    funext a; apply Fin.ext
    match a with
    | ⟨0, _⟩ => show win1_2.index t (0 : Fin 2) * 256 + 1 * (y 0).val = (i 0).val; omega
    | ⟨1, _⟩ => show win1_2.index t (1 : Fin 2) * 1 + 1 * (y 1).val = (i 1).val; omega
  rw [h]

/-- The block of the first score row at point `t` is its entries `256·t … 256·t + 255`. -/
theorem blk1_3_apply (c : Dev nD) (t : Fin cfg1.N) (y : S1x256.Idx) (i : S1x4096.Idx)
    (h0 : (i 0).val = (y 0).val) (h1 : (i 1).val = t.val * 256 + (y 1).val) :
    (iblk1 V c 3 t : S1x256.Idx → EReal) y = Arr1_3 V c i := by
  obtain ⟨-, -, -, -, -, -, e6, e7, -⟩ := idx_facts1 t
  unfold iblk1
  show Arr1_3 V c (((cfg1.win 3).blk t).view.emb y) = _
  have h : ((cfg1.win 3).blk t).view.emb y = i := by
    funext a; apply Fin.ext
    match a with
    | ⟨0, _⟩ => show win1_3.index t (0 : Fin 2) * 1 + 1 * (y 0).val = (i 0).val; omega
    | ⟨1, _⟩ => show win1_3.index t (1 : Fin 2) * 256 + 1 * (y 1).val = (i 1).val; omega
  rw [h]

/-- The blocks of the three whole-array windows are the arrays, at every point. -/
theorem blk1_4_eq (c : Dev nD) (t : Fin cfg1.N) : (iblk1 V c 4 t : S1x4096.Idx → EReal) = Arr1_4 V c := by
  obtain ⟨-, -, -, -, -, -, -, -, e8, e9, -⟩ := idx_facts1 t
  unfold iblk1
  funext y
  show Arr1_4 V c (((cfg1.win 4).blk t).view.emb y) = _
  have h : ((cfg1.win 4).blk t).view.emb y = y := by
    funext a; apply Fin.ext
    match a with
    | ⟨0, _⟩ => show win1_4.index t (0 : Fin 2) * 1 + 1 * (y 0).val = (y 0).val; omega
    | ⟨1, _⟩ => show win1_4.index t (1 : Fin 2) * 4096 + 1 * (y 1).val = (y 1).val; omega
  rw [h]
theorem blk1_5_eq (c : Dev nD) (t : Fin cfg1.N) : (iblk1 V c 5 t : S4096x1.Idx → EReal) = Arr1_5 V c := by
  obtain ⟨-, -, -, -, -, -, -, -, -, -, e10, e11, -⟩ := idx_facts1 t
  unfold iblk1
  funext y
  show Arr1_5 V c (((cfg1.win 5).blk t).view.emb y) = _
  have h : ((cfg1.win 5).blk t).view.emb y = y := by
    funext a; apply Fin.ext
    match a with
    | ⟨0, _⟩ => show win1_5.index t (0 : Fin 2) * 4096 + 1 * (y 0).val = (y 0).val; omega
    | ⟨1, _⟩ => show win1_5.index t (1 : Fin 2) * 1 + 1 * (y 1).val = (y 1).val; omega
  rw [h]
theorem blk1_6_eq (c : Dev nD) (t : Fin cfg1.N) : (iblk1 V c 6 t : S4096x128.Idx → EReal) = Arr1_6 V c := by
  obtain ⟨-, -, -, -, -, -, -, -, -, -, -, -, e12, e13, -⟩ := idx_facts1 t
  unfold iblk1
  funext y
  show Arr1_6 V c (((cfg1.win 6).blk t).view.emb y) = _
  have h : ((cfg1.win 6).blk t).view.emb y = y := by
    funext a; apply Fin.ext
    match a with
    | ⟨0, _⟩ => show win1_6.index t (0 : Fin 2) * 4096 + 1 * (y 0).val = (y 0).val; omega
    | ⟨1, _⟩ => show win1_6.index t (1 : Fin 2) * 128 + 1 * (y 1).val = (y 1).val; omega
  rw [h]

/-! ## The output as a whole-array function of the inputs -/

/-- The output array in terms of the adjacency `A`, the two score vectors `u`, `v` and the features `H`: at row `i`,
    half the sum of the attention average over row `i` of the adjacency and the one over its column `i`. -/
def attOut (A : Fin 4096 → Fin 4096 → EReal) (u v : Fin 4096 → EReal) (H : Fin 4096 → Fin 128 → EReal) :
    S4096x128.Idx → EReal :=
  fun i => Cert.Spec.half * (Cert.Spec.attendD (Cert.Spec.logitsOf A u v) H (i 0) (i 1)
    + Cert.Spec.attendD (Cert.Spec.logitsOf (fun i j => A j i) u v) H (i 0) (i 1))

/-! ## From the blocks to the array -/

/-- What point `t` writes back to the output array is its block of rows of `attOut` of the input arrays: row `p` of the
    block is array row `256·t + p`, and the seven input blocks hold, on that row, exactly the entries the array's row
    `256·t + p` is made from. -/
theorem flushed1_7_eq (q : Fin cfg1.W → PosShare TreeShare) (c : Dev nD)
    (A : Fin 4096 → Fin 4096 → EReal) (u v : Fin 4096 → EReal) (H : Fin 4096 → Fin 128 → EReal)
    (hA0 : ∀ i j : Fin 4096, Arr1_0 V c (ix2 i j) = A i j)
    (hA1 : ∀ i j : Fin 4096, Arr1_1 V c (ix2 i j) = A i j)
    (hu2 : ∀ i : Fin 4096, Arr1_2 V c (ix2 i (0 : Fin 1)) = u i)
    (hu3 : ∀ i : Fin 4096, Arr1_3 V c (ix2 (0 : Fin 1) i) = u i)
    (hv4 : ∀ j : Fin 4096, Arr1_4 V c (ix2 (0 : Fin 1) j) = v j)
    (hv5 : ∀ j : Fin 4096, Arr1_5 V c (ix2 j (0 : Fin 1)) = v j)
    (hH : ∀ (j : Fin 4096) (k : Fin 128), Arr1_6 V c (ix2 j k) = H j k)
    (t : Fin cfg1.N) :
    (dat1 V q c).flushed 7 t = ((cfg1.win 7).blk t).view.read (Elt Ideal) (attOut A u v H) := by
  show (cfg1.win 7).cut (grid1.coords t) ((dat1 V q c).after 7 t) = _
  rw [after1_7]
  unfold out1_7
  rw [View.canon_unit_zero offs1_zero]
  simp only [View.ld_unit_zero (S := S256x4096) offs1_zero, View.ld_unit_zero (S := S4096x256) offs1_zero,
    View.ld_unit_zero (S := S256x1) offs1_zero, View.ld_unit_zero (S := S1x256) offs1_zero,
    View.ld_unit_zero (S := S1x4096) offs1_zero, View.ld_unit_zero (S := S4096x1) offs1_zero,
    View.ld_unit_zero (S := S4096x128) offs1_zero]
  obtain ⟨-, -, -, -, -, -, -, -, -, -, -, -, -, -, e14, e15⟩ := idx_facts1 t
  funext j
  obtain ⟨p, f, rfl⟩ : ∃ (p : Fin 256) (f : Fin 128), j = ix2 p f := ⟨j 0, j 1, eq_ix2 j⟩
  show k1_pay1 (F := Ideal) (k1_pay2 (F := Ideal) (iblk1 V c 6 t))
      (k1_pay3 (F := Ideal) (iblk1 V c 6 t) (iblk1 V c 2 t) (iblk1 V c 4 t) (iblk1 V c 0 t))
      (k1_pay4 (F := Ideal) (iblk1 V c 5 t) (iblk1 V c 3 t)) (k1_pay5 (F := Ideal) (iblk1 V c 5 t) (iblk1 V c 3 t))
      (Scalar.ofBits .f32 0x3E4CCCCD#32) (iblk1 V c 1 t) (ix2 p f)
    = attOut A u v H (((cfg1.win 7).blk t).view.emb (ix2 p f))
  have hi : ((cfg1.win 7).blk t).view.emb (ix2 p f) = ix2 (rowAt1 t p) f := by
    funext a; apply Fin.ext
    match a with
    | ⟨0, _⟩ => show win1_7.index t (0 : Fin 2) * 256 + 1 * p.val = t.val * 256 + p.val; omega
    | ⟨1, _⟩ => show win1_7.index t (1 : Fin 2) * 128 + 1 * f.val = f.val; omega
  rw [hi]
  show _ = Cert.Spec.half * (Cert.Spec.attendD (Cert.Spec.logitsOf A u v) H (rowAt1 t p) f
    + Cert.Spec.attendD (Cert.Spec.logitsOf (fun i j => A j i) u v) H (rowAt1 t p) f)
  exact pay_out_entry (iblk1 V c 0 t) (iblk1 V c 1 t) (iblk1 V c 2 t) (iblk1 V c 3 t) (iblk1 V c 4 t) (iblk1 V c 5 t)
    (iblk1 V c 6 t) A u v H p f (rowAt1 t p)
    (fun j => (blk1_0_apply V c t (ix2 p j) (ix2 (rowAt1 t p) j) rfl rfl).trans (hA0 (rowAt1 t p) j))
    (fun j => (blk1_1_apply V c t (ix2 j p) (ix2 j (rowAt1 t p)) rfl rfl).trans (hA1 j (rowAt1 t p)))
    ((blk1_2_apply V c t (ix2 p (0 : Fin 1)) (ix2 (rowAt1 t p) (0 : Fin 1)) rfl rfl).trans (hu2 (rowAt1 t p)))
    ((blk1_3_apply V c t (ix2 (0 : Fin 1) p) (ix2 (0 : Fin 1) (rowAt1 t p)) rfl rfl).trans (hu3 (rowAt1 t p)))
    (fun j => (congrFun (blk1_4_eq V c t) (ix2 (0 : Fin 1) j)).trans (hv4 j))
    (fun j => (congrFun (blk1_5_eq V c t) (ix2 j (0 : Fin 1))).trans (hv5 j))
    (fun j k => (congrFun (blk1_6_eq V c t) (ix2 j k)).trans (hH j k))

/-- An entry of the array is in point `t`'s block exactly when each coordinate is in the block's range on its axis. -/
theorem mem_blk1_7 (t : Fin cfg1.N) (i : S4096x128.Idx) :
    i ∈ ((cfg1.win 7).blk t).view.set ↔ ∀ a : Fin 2, win1_7.index t a * S256x128.size a ≤ (i a).val ∧ (i a).val < win1_7.index t a * S256x128.size a + S256x128.size a := by
  show i ∈ ((View.whole main_v0).slice (win1_7.rect t)).set ↔ _
  rw [View.set_slice_whole, Rect.mem_set_unit]
  exact Iff.rfl

/-- The sixteen blocks of 256 rows tile the 4096 rows: row `r` is in the block of point `r / 256`. -/
theorem tiles1_7 (i : S4096x128.Idx) : ∃ t : Fin cfg1.N, (cfg1.win 7).flush t = true ∧ i ∈ ((cfg1.win 7).blk t).view.set := by
  have hi0 : (i 0).val < 4096 := (i 0).isLt
  have hi1 : (i 1).val < 128 := (i 1).isLt
  have hN : cfg1.N = 16 := N_1
  have ht : (i 0).val / 256 < cfg1.N := by rw [hN]; omega
  obtain ⟨-, -, -, -, -, -, -, -, -, -, -, -, -, -, e14, e15⟩ := idx_facts1 ⟨(i 0).val / 256, ht⟩
  refine ⟨⟨(i 0).val / 256, ht⟩, flush1_7 _, ?_⟩
  rw [mem_blk1_7]
  intro a
  match a with
  | ⟨0, _⟩ =>
    show win1_7.index ⟨(i 0).val / 256, ht⟩ (0 : Fin 2) * 256 ≤ (i 0).val ∧ (i 0).val < win1_7.index ⟨(i 0).val / 256, ht⟩ (0 : Fin 2) * 256 + 256
    have hv : (⟨(i 0).val / 256, ht⟩ : Fin cfg1.N).val = (i 0).val / 256 := rfl
    omega
  | ⟨1, _⟩ =>
    show win1_7.index ⟨(i 0).val / 256, ht⟩ (1 : Fin 2) * 128 ≤ (i 1).val ∧ (i 1).val < win1_7.index ⟨(i 0).val / 256, ht⟩ (1 : Fin 2) * 128 + 128
    omega

/-- So the array ends holding `attOut` of the input arrays. -/
theorem arr1_7 (q : Fin cfg1.W → PosShare TreeShare) (c : Dev nD)
    (A : Fin 4096 → Fin 4096 → EReal) (u v : Fin 4096 → EReal) (H : Fin 4096 → Fin 128 → EReal)
    (hA0 : ∀ i j : Fin 4096, Arr1_0 V c (ix2 i j) = A i j)
    (hA1 : ∀ i j : Fin 4096, Arr1_1 V c (ix2 i j) = A i j)
    (hu2 : ∀ i : Fin 4096, Arr1_2 V c (ix2 i (0 : Fin 1)) = u i)
    (hu3 : ∀ i : Fin 4096, Arr1_3 V c (ix2 (0 : Fin 1) i) = u i)
    (hv4 : ∀ j : Fin 4096, Arr1_4 V c (ix2 (0 : Fin 1) j) = v j)
    (hv5 : ∀ j : Fin 4096, Arr1_5 V c (ix2 j (0 : Fin 1)) = v j)
    (hH : ∀ (j : Fin 4096) (k : Fin 128), Arr1_6 V c (ix2 j k) = H j k) :
    (dat1 V q c).arrAt 7 cfg1.N = attOut A u v H :=
  (dat1 V q c).arrAt_eq_of_cover 7 (attOut A u v H)
    (fun t _ => flushed1_7_eq V q c A u v H hA0 hA1 hu2 hu3 hv4 hv5 hH t) tiles1_7

/-! ## The output, entry by entry, in the words of the specification -/

/-- The output: at row `i`, half the sum of the attention average of the features over row `i` of the adjacency and the
    one over its column `i`, each divided by its row sum after the product. -/
theorem final1_7 (q : Fin cfg1.W → PosShare TreeShare) (c : Dev nD)
    (A : Fin 4096 → Fin 4096 → EReal) (u v : Fin 4096 → EReal) (H : Fin 4096 → Fin 128 → EReal)
    (hA0 : ∀ i j : Fin 4096, (V c (Pipeline.arrRef spec1 0) : S4096x4096.Idx → EReal) (ix2 i j) = A i j)
    (hA1 : ∀ i j : Fin 4096, (V c (Pipeline.arrRef spec1 1) : S4096x4096.Idx → EReal) (ix2 i j) = A i j)
    (hu2 : ∀ i : Fin 4096, (V c (Pipeline.arrRef spec1 2) : S4096x1.Idx → EReal) (ix2 i (0 : Fin 1)) = u i)
    (hu3 : ∀ i : Fin 4096, (V c (Pipeline.arrRef spec1 3) : S1x4096.Idx → EReal) (ix2 (0 : Fin 1) i) = u i)
    (hv4 : ∀ j : Fin 4096, (V c (Pipeline.arrRef spec1 4) : S1x4096.Idx → EReal) (ix2 (0 : Fin 1) j) = v j)
    (hv5 : ∀ j : Fin 4096, (V c (Pipeline.arrRef spec1 5) : S4096x1.Idx → EReal) (ix2 j (0 : Fin 1)) = v j)
    (hH : ∀ (j : Fin 4096) (k : Fin 128), (V c (Pipeline.arrRef spec1 6) : S4096x128.Idx → EReal) (ix2 j k) = H j k)
    (i : Fin 4096) (f : Fin 128) :
    (dat1 V q c).arrAt 7 cfg1.N (ix2 i f)
      = Cert.Spec.half * (Cert.Spec.attendD (Cert.Spec.logitsOf A u v) H i f
          + Cert.Spec.attendD (Cert.Spec.logitsOf (fun i j => A j i) u v) H i f) := by
  rw [arr1_7 V q c A u v H hA0 hA1 hu2 hu3 hv4 hv5 hH]; rfl

end Region1

end Cert.KernelIdeal.Hand
-- ==== Proof.KiGlue.lean ====
/-
  The two stretches of host operations of the fused program, read entry by entry on the extended reals, from ANY
  contents of the buffers they start from.

  The first stretch prepares the first region's small operands: the two coefficient columns are laid side by side
  (a 128×2 matrix), that matrix is padded with zeros to 128 columns, and the bias vector becomes a one-row matrix.
  Only three facts about it are used later: the one-row matrix holds the bias, and columns 0 and 1 of the padded
  matrix are the two coefficient columns.

  The second stretch cuts columns 0 and 1 out of the first region's second output (the features against the padded
  coefficients) and lays each also out as a row. Column 0 is the score vector of the attending row, column 1 the
  score vector of the attended row; each is handed to the second region once as a column and once as a row.
-/
import proofs.«153251_g30992484008437_cont_sun_m_229_4_alg».proof.Proof.Gen.KernelIdeal.Launch
import proofs.«153251_g30992484008437_cont_sun_m_229_4_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (W : Valuation τ sig (Elt Ideal))

/-! ## The first stretch -/

/-- The one-row matrix is the bias vector under a change of shape. -/
theorem host0_bias_eq :
    (StableHlo.after (hostOps0 (F := Ideal)) W (Proc.devRef .tc main_call0_v2) : S1x128.Idx → EReal)
      = shapeCast S1x128 (W (Proc.devRef .tc main_arg5) : S128.Idx → EReal) shapeCasts_S128_S1x128 := by
  after_results; rfl

/-- Entry q of the one-row matrix is entry q of the bias vector. -/
theorem host0_bias (q : Fin 128) :
    (StableHlo.after (hostOps0 (F := Ideal)) W (Proc.devRef .tc main_call0_v2) : S1x128.Idx → EReal) (ix2 (0 : Fin 1) q)
      = (W (Proc.devRef .tc main_arg5) : S128.Idx → EReal) (ix1 q) := by
  rw [host0_bias_eq]
  exact shapeCast_a_1a_apply _ _ (0 : Fin 1) q

/-- The padded matrix is the two columns side by side, padded on the right with the converted integer zero. -/
theorem host0_coef_eq :
    (StableHlo.after (hostOps0 (F := Ideal)) W (Proc.devRef .tc main_call0_v1) : S128x128.Idx → EReal)
      = pad S128x128 ![0, 0] ![0, 126] ![0, 0]
          (concatenate S128x2 1 [⟨S128x1, (W (Proc.devRef .tc main_arg3) : S128x1.Idx → EReal)⟩,
            ⟨S128x1, (W (Proc.devRef .tc main_arg4) : S128x1.Idx → EReal)⟩] concatenates_S128x1_S128x1_S128x2_d1)
          (sitofp (F := Ideal) .f32 (constantI S_ 32 0#32)) pads_S128x2_S128x128_000_01260 h_S_ := by
  after_results; rfl

/-- An entry of the padded matrix in one of its first two columns is the entry of the 128×2 matrix there. -/
theorem pad2_apply (x : S128x2.Idx → EReal) (v : S_.Idx → EReal) (k : Fin 128) (e : Fin 2) (e' : Fin 128) (he : e'.val = e.val) :
    pad S128x128 ![0, 0] ![0, 126] ![0, 0] x v pads_S128x2_S128x128_000_01260 h_S_ (ix2 k e') = x (ix2 k e) :=
  pad_apply_of_inside _ _ _ x v _ _ _ (ix2 k e) fun a => by
    match a with
    | ⟨0, _⟩ => show k.val = 0 + k.val * (0 + 1); omega
    | ⟨1, _⟩ => show e'.val = 0 + e.val * (0 + 1); omega

/-- Column 0 of two one-column matrices side by side is the first, column 1 the second. -/
theorem concat2_left (a b : S128x1.Idx → EReal) (k : Fin 128) :
    concatenate S128x2 1 [⟨S128x1, a⟩, ⟨S128x1, b⟩] concatenates_S128x1_S128x1_S128x2_d1 (ix2 k (0 : Fin 2)) = a (ix2 k (0 : Fin 1)) :=
  concatenate_pair_apply_left (t := S128x2) (1 : Fin 2) a b concatenates_S128x1_S128x1_S128x2_d1 (ix2 k (0 : Fin 2)) rfl (ix2 k (0 : Fin 1)) fun c => by
    match c with
    | ⟨0, _⟩ => rfl
    | ⟨1, _⟩ => rfl
theorem concat2_right (a b : S128x1.Idx → EReal) (k : Fin 128) :
    concatenate S128x2 1 [⟨S128x1, a⟩, ⟨S128x1, b⟩] concatenates_S128x1_S128x1_S128x2_d1 (ix2 k (1 : Fin 2)) = b (ix2 k (0 : Fin 1)) :=
  concatenate_pair_apply_right (t := S128x2) (1 : Fin 2) a b concatenates_S128x1_S128x1_S128x2_d1 (ix2 k (1 : Fin 2)) rfl rfl (ix2 k (0 : Fin 1))
    (fun c hc => by
      match c with
      | ⟨0, _⟩ => rfl
      | ⟨1, _⟩ => exact absurd rfl hc)
    (by rfl)

/-- Column 0 of the padded matrix is the first coefficient column. -/
theorem host0_coef0 (k : Fin 128) :
    (StableHlo.after (hostOps0 (F := Ideal)) W (Proc.devRef .tc main_call0_v1) : S128x128.Idx → EReal) (ix2 k (0 : Fin 128))
      = (W (Proc.devRef .tc main_arg3) : S128x1.Idx → EReal) (ix2 k (0 : Fin 1)) := by
  rw [host0_coef_eq, pad2_apply _ _ k (0 : Fin 2) (0 : Fin 128) rfl, concat2_left]

/-- Column 1 of the padded matrix is the second coefficient column. -/
theorem host0_coef1 (k : Fin 128) :
    (StableHlo.after (hostOps0 (F := Ideal)) W (Proc.devRef .tc main_call0_v1) : S128x128.Idx → EReal) (ix2 k (1 : Fin 128))
      = (W (Proc.devRef .tc main_arg4) : S128x1.Idx → EReal) (ix2 k (0 : Fin 1)) := by
  rw [host0_coef_eq, pad2_apply _ _ k (1 : Fin 2) (1 : Fin 128) rfl, concat2_right]

/-! ## The second stretch -/

/-- The four cut-outs as operations on the first region's second output. -/
theorem host1_col0_eq :
    (StableHlo.after (hostOps1 (F := Ideal)) W (Proc.devRef .tc main_call0_v4) : S4096x1.Idx → EReal)
      = extractStridedSlice S4096x1 ![0, 0] (W (Proc.devRef .tc main_call0_v3_1) : S4096x128.Idx → EReal) slices_S4096x128_S4096x1_0_0 := by
  after_results; rfl
theorem host1_col1_eq :
    (StableHlo.after (hostOps1 (F := Ideal)) W (Proc.devRef .tc main_call0_v5) : S4096x1.Idx → EReal)
      = extractStridedSlice S4096x1 ![0, 1] (W (Proc.devRef .tc main_call0_v3_1) : S4096x128.Idx → EReal) slices_S4096x128_S4096x1_0_1 := by
  after_results; rfl
theorem host1_row0_eq :
    (StableHlo.after (hostOps1 (F := Ideal)) W (Proc.devRef .tc main_call0_v6) : S1x4096.Idx → EReal)
      = shapeCast S1x4096 (extractStridedSlice S4096x1 ![0, 0] (W (Proc.devRef .tc main_call0_v3_1) : S4096x128.Idx → EReal)
          slices_S4096x128_S4096x1_0_0) shapeCasts_S4096x1_S1x4096 := by
  after_results; rfl
theorem host1_row1_eq :
    (StableHlo.after (hostOps1 (F := Ideal)) W (Proc.devRef .tc main_call0_v7) : S1x4096.Idx → EReal)
      = shapeCast S1x4096 (extractStridedSlice S4096x1 ![0, 1] (W (Proc.devRef .tc main_call0_v3_1) : S4096x128.Idx → EReal)
          slices_S4096x128_S4096x1_0_1) shapeCasts_S4096x1_S1x4096 := by
  after_results; rfl

/-- A one-column matrix laid out as a row: entry i of the row is row i of the column. -/
theorem colAsRow_apply (x : S4096x1.Idx → EReal) (i : Fin 4096) :
    shapeCast S1x4096 x shapeCasts_S4096x1_S1x4096 (ix2 (0 : Fin 1) i) = x (ix2 i (0 : Fin 1)) :=
  shapeCast_apply x _ _ _ (by
    rw [Shape.rowMajor_val_two, Shape.rowMajor_val_two]
    show i.val * 1 + 0 = 0 * 4096 + i.val
    omega)

/-- The second region's window 2 (a column): row i is entry (i, 0) of the first region's second output. -/
theorem host1_win2 (i : Fin 4096) :
    (StableHlo.after (hostOps1 (F := Ideal)) W (Proc.devRef .tc main_call0_v4) : S4096x1.Idx → EReal) (ix2 i (0 : Fin 1))
      = (W (Proc.devRef .tc main_call0_v3_1) : S4096x128.Idx → EReal) (ix2 i (0 : Fin 128)) := by
  rw [host1_col0_eq]
  exact slice2_axis1_apply 0 _ _ i (0 : Fin 1) (0 : Fin 128) rfl

/-- Window 3 (a row): entry i is entry (i, 0) of that output. -/
theorem host1_win3 (i : Fin 4096) :
    (StableHlo.after (hostOps1 (F := Ideal)) W (Proc.devRef .tc main_call0_v6) : S1x4096.Idx → EReal) (ix2 (0 : Fin 1) i)
      = (W (Proc.devRef .tc main_call0_v3_1) : S4096x128.Idx → EReal) (ix2 i (0 : Fin 128)) := by
  rw [host1_row0_eq, colAsRow_apply]
  exact slice2_axis1_apply 0 _ _ i (0 : Fin 1) (0 : Fin 128) rfl

/-- Window 4 (a row): entry j is entry (j, 1) of that output. -/
theorem host1_win4 (j : Fin 4096) :
    (StableHlo.after (hostOps1 (F := Ideal)) W (Proc.devRef .tc main_call0_v7) : S1x4096.Idx → EReal) (ix2 (0 : Fin 1) j)
      = (W (Proc.devRef .tc main_call0_v3_1) : S4096x128.Idx → EReal) (ix2 j (1 : Fin 128)) := by
  rw [host1_row1_eq, colAsRow_apply]
  exact slice2_axis1_apply 1 _ _ j (0 : Fin 1) (1 : Fin 128) rfl

/-- Window 5 (a column): row j is entry (j, 1) of that output. -/
theorem host1_win5 (j : Fin 4096) :
    (StableHlo.after (hostOps1 (F := Ideal)) W (Proc.devRef .tc main_call0_v5) : S4096x1.Idx → EReal) (ix2 j (0 : Fin 1))
      = (W (Proc.devRef .tc main_call0_v3_1) : S4096x128.Idx → EReal) (ix2 j (1 : Fin 128)) := by
  rw [host1_col1_eq]
  exact slice2_axis1_apply 1 _ _ j (0 : Fin 1) (1 : Fin 128) rfl

end Cert.KernelIdeal.Hand

end
-- ==== Proof.KiValue.lean ====
/-
  The fused program's result array, entry by entry, as the attention of the six argument arrays.

  The second region's value is known in terms of the seven arrays it finds at its entry: the adjacency (through two
  windows), the two score vectors (each as a column and as a row) and the transformed features. This module reads
  those seven arrays back to the launch memory. The adjacency is untouched by everything before the second region.
  The score vectors are columns 0 and 1 of the first region's second output, cut out by the second stretch of host
  operations; that output is the transformed features against a matrix whose columns 0 and 1 the first stretch made
  the two coefficient columns, so the two score vectors are the projections of the features on the coefficients. The
  transformed features are the first region's first output, and the first region's own entry arrays are the features
  and the weight matrix as launched and the bias as a one-row matrix.
-/
import proofs.«153251_g30992484008437_cont_sun_m_229_4_alg».proof.Proof.KiRun
import proofs.«153251_g30992484008437_cont_sun_m_229_4_alg».proof.Proof.KiVal0
import proofs.«153251_g30992484008437_cont_sun_m_229_4_alg».proof.Proof.KiVal1
import proofs.«153251_g30992484008437_cont_sun_m_229_4_alg».proof.Proof.KiGlue
import proofs.«153251_g30992484008437_cont_sun_m_229_4_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx

/-! ## The six arguments as functions of coordinates -/

section Value

variable (m : (ℓ : Loc nD τ sig) → Buf (Elt Ideal) ℓ) (ρ : Dev nD → PrngReg)

/-- The features, the adjacency, the weight matrix, the two coefficient columns and the bias, read off the launch memory. -/
abbrev argX (c : Dev nD) : Fin 4096 → Fin 128 → EReal := Cert.Spec.m2 (m ((c : Thread nD τ).loc main_arg0) : S4096x128.Idx → EReal)
abbrev argA (c : Dev nD) : Fin 4096 → Fin 4096 → EReal := Cert.Spec.m2 (m ((c : Thread nD τ).loc main_arg1) : S4096x4096.Idx → EReal)
abbrev argW (c : Dev nD) : Fin 128 → Fin 128 → EReal := Cert.Spec.m2 (m ((c : Thread nD τ).loc main_arg2) : S128x128.Idx → EReal)
abbrev argA1 (c : Dev nD) : Fin 128 → EReal := Cert.Spec.col (m ((c : Thread nD τ).loc main_arg3) : S128x1.Idx → EReal)
abbrev argA2 (c : Dev nD) : Fin 128 → EReal := Cert.Spec.col (m ((c : Thread nD τ).loc main_arg4) : S128x1.Idx → EReal)
abbrev argB (c : Dev nD) : Fin 128 → EReal := Cert.Spec.v1 (m ((c : Thread nD τ).loc main_arg5) : S128.Idx → EReal)

/-! ## The first region's entry arrays -/

/-- A buffer the first stretch does not write holds, at the first region's entry, what the launch memory holds. -/
theorem W1_arg (c : Dev nD) (r : Ref sig .tc) (h : r ∉ hostOps0_W) :
    W1 m ρ c (Proc.devRef .tc r) = m ((c : Thread nD τ).loc r) :=
  W1_of m ρ c r h

/-- The first region reads the features and the weight matrix as launched, -/
theorem entry0_0 (c : Dev nD) : X0 (V1 m ρ) c = (m ((c : Thread nD τ).loc main_arg0) : S4096x128.Idx → EReal) :=
  W1_arg m ρ c main_arg0 (by decide)
theorem entry0_1 (c : Dev nD) : X1 (V1 m ρ) c = (m ((c : Thread nD τ).loc main_arg2) : S128x128.Idx → EReal) :=
  W1_arg m ρ c main_arg2 (by decide)
/-- the bias as a one-row matrix, -/
theorem entry0_2 (c : Dev nD) : Cert.Spec.row (X2 (V1 m ρ) c) = argB m c :=
  funext fun q => host0_bias (W0 m ρ c) q
/-- and a matrix whose columns 0 and 1 are the two coefficient columns. -/
theorem entry0_3_col0 (c : Dev nD) (k : Fin 128) : X3 (V1 m ρ) c (ix2 k (0 : Fin 128)) = argA1 m c k :=
  host0_coef0 (W0 m ρ c) k
theorem entry0_3_col1 (c : Dev nD) (k : Fin 128) : X3 (V1 m ρ) c (ix2 k (1 : Fin 128)) = argA2 m c k :=
  host0_coef1 (W0 m ρ c) k

/-- So the transformed features of the first region's entry arrays are those of the arguments. -/
theorem hfeat_entry0 (c : Dev nD) :
    Cert.Spec.hfeat (Cert.Spec.m2 (X0 (V1 m ρ) c)) (Cert.Spec.m2 (X1 (V1 m ρ) c)) (Cert.Spec.row (X2 (V1 m ρ) c))
      = Cert.Spec.hfeat (argX m c) (argW m c) (argB m c) := by
  rw [entry0_0, entry0_1, entry0_2]

/-! ## The first region's two outputs at its exit -/

/-- A row of products against a column that is known entry by entry. -/
theorem sum_mul_col (h : Fin 128 → EReal) (Y : S128x128.Idx → EReal) (a : Fin 128 → EReal) (e : Fin 128)
    (hY : ∀ k : Fin 128, Y (ix2 k e) = a k) :
    (∑ k : Fin 128, h k * Y (ix2 k e)) = ∑ k : Fin 128, h k * a k :=
  Finset.sum_congr rfl fun k _ => by rw [hY k]

/-- The first output is the transformed features. -/
theorem exit0_H (c : Dev nD) (j : Fin 4096) (k : Fin 128) :
    (W2 m ρ c (Proc.devRef .tc main_call0_v3_0) : S4096x128.Idx → EReal) (ix2 j k)
      = Cert.Spec.hfeat (argX m c) (argW m c) (argB m c) j k := by
  have e : (W2 m ρ c (Proc.devRef .tc main_call0_v3_0) : S4096x128.Idx → EReal) = (dat0 (V1 m ρ) c).arrAt 4 cfg0.N := W2_arr m ρ c 4
  rw [e, final0_4 (V1 m ρ) c j k, hfeat_entry0]

/-- Columns 0 and 1 of the second output are the two score vectors. -/
theorem exit0_f0 (c : Dev nD) (i : Fin 4096) :
    (W2 m ρ c (Proc.devRef .tc main_call0_v3_1) : S4096x128.Idx → EReal) (ix2 i (0 : Fin 128))
      = Cert.Spec.proj (argX m c) (argW m c) (argB m c) (argA1 m c) i := by
  have e : (W2 m ρ c (Proc.devRef .tc main_call0_v3_1) : S4096x128.Idx → EReal) = (dat0 (V1 m ρ) c).arrAt 5 cfg0.N := W2_arr m ρ c 5
  rw [e, final0_5 (V1 m ρ) c i (0 : Fin 128), hfeat_entry0]
  unfold Cert.Spec.proj
  exact sum_mul_col _ _ _ (0 : Fin 128) (entry0_3_col0 m ρ c)
theorem exit0_f1 (c : Dev nD) (j : Fin 4096) :
    (W2 m ρ c (Proc.devRef .tc main_call0_v3_1) : S4096x128.Idx → EReal) (ix2 j (1 : Fin 128))
      = Cert.Spec.proj (argX m c) (argW m c) (argB m c) (argA2 m c) j := by
  have e : (W2 m ρ c (Proc.devRef .tc main_call0_v3_1) : S4096x128.Idx → EReal) = (dat0 (V1 m ρ) c).arrAt 5 cfg0.N := W2_arr m ρ c 5
  rw [e, final0_5 (V1 m ρ) c j (1 : Fin 128), hfeat_entry0]
  unfold Cert.Spec.proj
  exact sum_mul_col _ _ _ (1 : Fin 128) (entry0_3_col1 m ρ c)

/-! ## The second region's entry arrays -/

/-- The adjacency reaches the second region as launched: no operation and no region writes it. -/
theorem W3_adj (c : Dev nD) : W3 m ρ c (Proc.devRef .tc main_arg1) = m ((c : Thread nD τ).loc main_arg1) :=
  calc W3 m ρ c (Proc.devRef .tc main_arg1)
    _ = W2 m ρ c (Proc.devRef .tc main_arg1) := W3_of m ρ c main_arg1 (by decide)
    _ = W1 m ρ c (Proc.devRef .tc main_arg1) := W2_of_ne m ρ c main_arg1 (by decide)
    _ = m ((c : Thread nD τ).loc main_arg1) := W1_arg m ρ c main_arg1 (by decide)

/-- Windows 0 and 1: the adjacency, as a row strip and as a column strip. -/
theorem entry1_0 (c : Dev nD) (i j : Fin 4096) :
    (V3 m ρ c (Pipeline.arrRef spec1 0) : S4096x4096.Idx → EReal) (ix2 i j) = argA m c i j :=
  congrFun (W3_adj m ρ c) (ix2 i j)
theorem entry1_1 (c : Dev nD) (i j : Fin 4096) :
    (V3 m ρ c (Pipeline.arrRef spec1 1) : S4096x4096.Idx → EReal) (ix2 i j) = argA m c i j :=
  congrFun (W3_adj m ρ c) (ix2 i j)

/-- Windows 2 and 3: the score vector of the attending row, as a column and as a row. -/
theorem entry1_2 (c : Dev nD) (i : Fin 4096) :
    (V3 m ρ c (Pipeline.arrRef spec1 2) : S4096x1.Idx → EReal) (ix2 i (0 : Fin 1))
      = Cert.Spec.proj (argX m c) (argW m c) (argB m c) (argA1 m c) i :=
  (host1_win2 (W2 m ρ c) i).trans (exit0_f0 m ρ c i)
theorem entry1_3 (c : Dev nD) (i : Fin 4096) :
    (V3 m ρ c (Pipeline.arrRef spec1 3) : S1x4096.Idx → EReal) (ix2 (0 : Fin 1) i)
      = Cert.Spec.proj (argX m c) (argW m c) (argB m c) (argA1 m c) i :=
  (host1_win3 (W2 m ρ c) i).trans (exit0_f0 m ρ c i)

/-- Windows 4 and 5: the score vector of the attended row, as a row and as a column. -/
theorem entry1_4 (c : Dev nD) (j : Fin 4096) :
    (V3 m ρ c (Pipeline.arrRef spec1 4) : S1x4096.Idx → EReal) (ix2 (0 : Fin 1) j)
      = Cert.Spec.proj (argX m c) (argW m c) (argB m c) (argA2 m c) j :=
  (host1_win4 (W2 m ρ c) j).trans (exit0_f1 m ρ c j)
theorem entry1_5 (c : Dev nD) (j : Fin 4096) :
    (V3 m ρ c (Pipeline.arrRef spec1 5) : S4096x1.Idx → EReal) (ix2 j (0 : Fin 1))
      = Cert.Spec.proj (argX m c) (argW m c) (argB m c) (argA2 m c) j :=
  (host1_win5 (W2 m ρ c) j).trans (exit0_f1 m ρ c j)

/-- Window 6: the transformed features, which the second stretch does not touch. -/
theorem entry1_6 (c : Dev nD) (j : Fin 4096) (k : Fin 128) :
    (V3 m ρ c (Pipeline.arrRef spec1 6) : S4096x128.Idx → EReal) (ix2 j k)
      = Cert.Spec.hfeat (argX m c) (argW m c) (argB m c) j k :=
  (congrFun (W3_of m ρ c main_call0_v3_0 (by decide)) (ix2 j k)).trans (exit0_H m ρ c j k)

/-! ## The result array, entry by entry, in the words of the specification -/

/-- The second region's output array holds the fused arrangement of the attention of the six arguments. -/
theorem kernel_value (c : Dev nD) (i : Fin 4096) (f : Fin 128) :
    (dat1 (V3 m ρ) q1 c).arrAt 7 cfg1.N (ix2 i f)
      = Cert.Spec.outD (Cert.Spec.m2 (m ((c : Thread nD τ).loc main_arg0))) (Cert.Spec.m2 (m ((c : Thread nD τ).loc main_arg1)))
          (Cert.Spec.m2 (m ((c : Thread nD τ).loc main_arg2))) (Cert.Spec.col (m ((c : Thread nD τ).loc main_arg3)))
          (Cert.Spec.col (m ((c : Thread nD τ).loc main_arg4))) (Cert.Spec.v1 (m ((c : Thread nD τ).loc main_arg5))) i f :=
  final1_7 (V3 m ρ) q1 c (argA m c) (Cert.Spec.proj (argX m c) (argW m c) (argB m c) (argA1 m c))
    (Cert.Spec.proj (argX m c) (argW m c) (argB m c) (argA2 m c)) (Cert.Spec.hfeat (argX m c) (argW m c) (argB m c))
    (entry1_0 m ρ c) (entry1_1 m ρ c) (entry1_2 m ρ c) (entry1_3 m ρ c) (entry1_4 m ρ c) (entry1_5 m ρ c) (entry1_6 m ρ c) i f

end Value

end Cert.KernelIdeal.Hand

end
-- ==== Proof.Alg.lean ====
import proofs.«153251_g30992484008437_cont_sun_m_229_4_alg».proof.Defs
import proofs.«153251_g30992484008437_cont_sun_m_229_4_alg».proof.Proof.Gen.KernelIdeal
import proofs.«153251_g30992484008437_cont_sun_m_229_4_alg».proof.Proof.Gen.ReferenceIdeal
import proofs.«153251_g30992484008437_cont_sun_m_229_4_alg».proof.Proof.Gen.Pre_finite_inputs
import proofs.«153251_g30992484008437_cont_sun_m_229_4_alg».proof.Proof.RefRun
import proofs.«153251_g30992484008437_cont_sun_m_229_4_alg».proof.Proof.RefRead
import proofs.«153251_g30992484008437_cont_sun_m_229_4_alg».proof.Proof.Spec
import proofs.«153251_g30992484008437_cont_sun_m_229_4_alg».proof.Proof.SpecLaws
import proofs.«153251_g30992484008437_cont_sun_m_229_4_alg».proof.Proof.Finite
import proofs.«153251_g30992484008437_cont_sun_m_229_4_alg».proof.Proof.KiRun
import proofs.«153251_g30992484008437_cont_sun_m_229_4_alg».proof.Proof.KiValue
import Idealize.ShloMosaic.Lib.ValueIdx

/-! The two programs compute one function.

    On each core the fused program's result array ends, entry by entry, at the attention head with the quotient by the
    row sum taken AFTER the product with the features; the plain array program's ends at the same head with the weights
    normalised FIRST and a closing quotient by one. Started from memories that agree on the six argument arrays, the two
    results are therefore the two arrangements of one expression in the same six arrays, and on finite real entries —
    which the precondition gives — the arrangements agree: every row sum of shifted exponentials is a nonzero real, so
    dividing the sum of products by it is dividing each weight by it. Both programs leave their arguments as launched. -/

noncomputable section

namespace Cert.Alg

open Idealize.ShloMosaic Idealize.ShloMosaic.TcCoe Idealize.SL.Sem Idealize.ShloMosaic.ValueIdx

/-- The common result on core `c`, as an array: entry (i, f) is the head with the quotient after the product, of the six
    argument arrays the fused program is launched with. -/
def outArr (m : (ℓ : Loc Cert.KernelIdeal.nD Cert.KernelIdeal.τ Cert.KernelIdeal.sig) → Buf (Elt Ideal) ℓ)
    (c : Dev Cert.KernelIdeal.nD) : Cert.KernelIdeal.S4096x128.Idx → EReal :=
  fun j => Cert.Spec.outD
    (Cert.Spec.m2 (m ((c.tc : Thread Cert.KernelIdeal.nD Cert.KernelIdeal.τ).loc Cert.KernelIdeal.main_arg0)))
    (Cert.Spec.m2 (m ((c.tc : Thread Cert.KernelIdeal.nD Cert.KernelIdeal.τ).loc Cert.KernelIdeal.main_arg1)))
    (Cert.Spec.m2 (m ((c.tc : Thread Cert.KernelIdeal.nD Cert.KernelIdeal.τ).loc Cert.KernelIdeal.main_arg2)))
    (Cert.Spec.col (m ((c.tc : Thread Cert.KernelIdeal.nD Cert.KernelIdeal.τ).loc Cert.KernelIdeal.main_arg3)))
    (Cert.Spec.col (m ((c.tc : Thread Cert.KernelIdeal.nD Cert.KernelIdeal.τ).loc Cert.KernelIdeal.main_arg4)))
    (Cert.Spec.v1 (m ((c.tc : Thread Cert.KernelIdeal.nD Cert.KernelIdeal.τ).loc Cert.KernelIdeal.main_arg5)))
    (j 0) (j 1)

/-- From agreeing memories both programs run, leave their arguments as launched, and end with equal result arrays. -/
theorem algebraic : Cert.algebraic_KernelIdeal_ReferenceIdeal := by
  intro m ρ m' ρ' hpre hagree
  refine ⟨outArr m, ?_, ?_⟩
  · -- the fused program: its result array, entry by entry, is the head with the quotient after the product
    refine (θ_run Cert.KernelIdeal.defs _ _).mono (fun r h c => ⟨(h c).1.trans ?_, (h c).2⟩)
      (Cert.KernelIdeal.Hand.run_main (F := Ideal) m ρ)
    funext j
    obtain ⟨i, f, rfl⟩ : ∃ (i : Fin 4096) (f : Fin 128), j = ix2 i f := ⟨j 0, j 1, eq_ix2 j⟩
    exact Cert.KernelIdeal.Hand.kernel_value m ρ c i f
  · -- the plain array program: the same six arrays, the weights normalised first; the two arrangements agree on reals
    refine (θ_run Cert.ReferenceIdeal.defs _ _).mono (fun r h c => ⟨(h c).1.trans ?_, (h c).2⟩)
      (Cert.ReferenceIdeal.RefRun.run (F := Ideal) m' ρ')
    obtain ⟨e0, e1, e2, e3, e4, e5⟩ := hagree c
    rw [e0, e1, e2, e3, e4, e5]
    obtain ⟨r0, r1, r2, r3, r4, r5⟩ := Cert.Finite.entries_real m hpre c
    funext j
    obtain ⟨i, f, rfl⟩ : ∃ (i : Fin 4096) (f : Fin 128), j = ix2 i f := ⟨j 0, j 1, eq_ix2 j⟩
    rw [Cert.ReferenceIdeal.RefRead.result_apply]
    exact (Cert.Spec.outD_eq_outN _ _ _ _ _ _ (fun i k => r0 (ix2 i k)) (fun i j => r1 (ix2 i j))
      (fun k f => r2 (ix2 k f)) (fun k => r3 (ix2 k (0 : Fin 1))) (fun k => r4 (ix2 k (0 : Fin 1)))
      (fun f => r5 (ix1 f)) i f).symm

end Cert.Alg

end
-- ==== Proof.lean ====
/-
  A fused two-region attention kernel and the plain array program it replaces compute the same result.

  THE FUNCTION. Single-head dense graph attention with reverse diffusion, over 4096 nodes with 128 features each. From
  the node features x, a weight matrix W and a bias b the transformed features are H = x·W + b; two coefficient columns
  a₁, a₂ give the score vectors f₁ = H·a₁ and f₂ = H·a₂, and the score of the pair (i, j) is the leaky rectifier, slope
  0.2, of f₁ i + f₂ j. An attention pass over a mask M keeps the score where M(i, j) > 0 and puts the fill −10⁹ elsewhere,
  takes the soft maximum along each row in its stable form (subtract the row maximum, exponentiate, divide by the row
  sum) and multiplies the weights with H. The result is half the sum of the pass over the adjacency A and the pass over
  its transpose.

  THE TWO PROGRAMS. The array program is a straight line of whole-array operations; it normalises the weights first,
  Σⱼ (pⱼ / s)·Hⱼ, and closes with a quotient by one. The fused program runs two pipelined regions between short
  stretches of array operations: the first region computes H, and H against the two coefficient columns laid side by
  side, in eight blocks of 512 rows; the second, in sixteen blocks of 256 rows, reads a strip of rows of A for the
  forward pass and a strip of columns of A for the reverse pass (the transpose is never formed), takes maxima and sums
  along the strip's long axis, multiplies the unnormalised exponentials with H and divides the product by the row sum
  afterwards, (Σⱼ pⱼ·Hⱼ) / s. All other differences — the order and grouping of the sums, the tiling, a row sum taken as a
  product with a column of ones, a change of float format — are no differences on the extended reals.

  THE ONE LAW. (Σⱼ pⱼ·Hⱼ) / s = Σⱼ (pⱼ / s)·Hⱼ is distributivity, and on the extended reals distributivity fails at the
  infinities (and the quotient needs s ≠ 0). It holds once every term is a finite real and s is a nonzero real. The
  precondition says every entry of the six argument arrays is finite. Then H is a finite sum of products of reals, the
  scores are a piecewise-linear function of reals, a masked logit is a score or the real fill, each row maximum is
  attained (a row is a nonempty finite family), the shifted exponentials are positive reals and so is each row sum; with
  s a nonzero real both quotients are products with the real 1/s and the law is the reals' own. The closing quotient by
  one is the identity. Finiteness is used here and nowhere else.

  THE CLAIMS. Each program, from any memory with zero counters, runs to its end without fault and leaves its six
  arguments as launched — the fused program both on machine words and on the exact values; the passage from words to
  exact values rewrites no operation of the fused program; and from memories that agree on the six arguments the two
  exact-value runs end with equal result arrays, entry by entry.
-/
import proofs.«153251_g30992484008437_cont_sun_m_229_4_alg».proof.Defs
import proofs.«153251_g30992484008437_cont_sun_m_229_4_alg».proof.Proof.Gen.Kernel
import proofs.«153251_g30992484008437_cont_sun_m_229_4_alg».proof.Proof.Gen.KernelIdeal
import proofs.«153251_g30992484008437_cont_sun_m_229_4_alg».proof.Proof.Gen.ReferenceIdeal
import proofs.«153251_g30992484008437_cont_sun_m_229_4_alg».proof.Proof.Gen.Pre_finite_inputs
import proofs.«153251_g30992484008437_cont_sun_m_229_4_alg».proof.Proof.Frames
import proofs.«153251_g30992484008437_cont_sun_m_229_4_alg».proof.Proof.Alg

noncomputable section

namespace Cert.Proof

/-- The certificate: the programs' stated side conditions, the three runs with unchanged arguments, the word-to-value
    passage (nothing rewritten), and the equality of the two results. -/
theorem claim : Cert.Claim :=
  ⟨Cert.Kernel.Gen.facts, Cert.KernelIdeal.Gen.facts, Cert.ReferenceIdeal.Gen.facts, Cert.Pre_finite_inputs.Gen.facts,
    Cert.Frames.frame_Kernel, Cert.Frames.frame_KernelIdeal, Cert.Frames.frame_ReferenceIdeal, trivial, Cert.Alg.algebraic⟩

end Cert.Proof

end
